-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x256x512 : Shape := ⟨4, ![64, 2, 256, 512]⟩
abbrev S1x64x2x256x512 : Shape := ⟨5, ![1, 64, 2, 256, 512]⟩
abbrev S_ : Shape := ⟨0, ![]⟩

class Facts : Prop where
  bcast_S_S64x2x256x512 : S_.BroadcastsInDim S64x2x256x512 (![] : Fin 0 → Fin S64x2x256x512.rank)
  reducesTo_S64x2x256x512_S_d0_1_2_3 : S64x2x256x512.ReducesTo [0, 1, 2, 3] S_
  h_S_ : 0 < S_.numel
  bcast_S_S1x64x2x256x512 : S_.BroadcastsInDim S1x64x2x256x512 (![] : Fin 0 → Fin S1x64x2x256x512.rank)
  reducesTo_S1x64x2x256x512_S_d0_1_2_3_4 : S1x64x2x256x512.ReducesTo [0, 1, 2, 3, 4] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S64x2x256x512 .f32) (main_arg1 : FVec F S1x64x2x256x512 .f32) : IVec S_ 1 :=
  let main_v0 : FVec F S64x2x256x512 .f32 := Host.absf main_arg0
  let main_cst : FVec F S_ .f32 := constant S_ .f32 0x7F800000#32
  let main_v1 : FVec F S64x2x256x512 .f32 := broadcastInDim S64x2x256x512 ![] bcast_S_S64x2x256x512 main_cst
  let main_v2 : IVec S64x2x256x512 1 := cmpf .olt main_v0 main_v1
  let main_c : IVec S_ 1 := constantI S_ 1 1#1
  let main_v3 : IVec S_ 1 := (fun x v => Host.reduce IntOp.andi x v reducesTo_S64x2x256x512_S_d0_1_2_3 h_S_) main_v2 main_c
  let main_v4 : FVec F S1x64x2x256x512 .f32 := Host.absf main_arg1
  let main_cst_0 : FVec F S_ .f32 := constant S_ .f32 0x7F800000#32
  let main_v5 : FVec F S1x64x2x256x512 .f32 := broadcastInDim S1x64x2x256x512 ![] bcast_S_S1x64x2x256x512 main_cst_0
  let main_v6 : IVec S1x64x2x256x512 1 := cmpf .olt main_v4 main_v5
  let main_c_1 : IVec S_ 1 := constantI S_ 1 1#1
  let main_v7 : IVec S_ 1 := (fun x v => Host.reduce IntOp.andi x v reducesTo_S1x64x2x256x512_S_d0_1_2_3_4 h_S_) main_v6 main_c_1
  let main_v8 : IVec S_ 1 := andi main_v3 main_v7
  let main_cst_2 : FVec F S_ .f32 := constant S_ .f32 0x00000000#32
  let main_v9 : FVec F S64x2x256x512 .f32 := broadcastInDim S64x2x256x512 ![] bcast_S_S64x2x256x512 main_cst_2
  let main_v10 : IVec S64x2x256x512 1 := cmpf .ogt main_arg0 main_v9
  let main_c_3 : IVec S_ 1 := constantI S_ 1 1#1
  let main_v11 : IVec S_ 1 := (fun x v => Host.reduce IntOp.andi x v reducesTo_S64x2x256x512_S_d0_1_2_3 h_S_) main_v10 main_c_3
  let main_v12 : IVec S_ 1 := andi main_v8 main_v11
  let main_cst_4 : FVec F S_ .f32 := constant S_ .f32 0x3F800000#32
  let main_v13 : FVec F S64x2x256x512 .f32 := broadcastInDim S64x2x256x512 ![] bcast_S_S64x2x256x512 main_cst_4
  let main_v14 : IVec S64x2x256x512 1 := cmpf .olt main_arg0 main_v13
  let main_c_5 : IVec S_ 1 := constantI S_ 1 1#1
  let main_v15 : IVec S_ 1 := (fun x v => Host.reduce IntOp.andi x v reducesTo_S64x2x256x512_S_d0_1_2_3 h_S_) main_v14 main_c_5
  fn_part1 (F := F) main_v12 main_v15
-- ==== Kernel.lean ====
abbrev S64x2x256x512 : Shape := ⟨4, ![64, 2, 256, 512]⟩
abbrev S1x64x2x256x512 : Shape := ⟨5, ![1, 64, 2, 256, 512]⟩
abbrev S2x1x1 : Shape := ⟨3, ![2, 1, 1]⟩
abbrev S4x2x256x512 : Shape := ⟨4, ![4, 2, 256, 512]⟩
abbrev S1x1x1 : Shape := ⟨3, ![1, 1, 1]⟩
abbrev S4x2x256 : Shape := ⟨3, ![4, 2, 256]⟩
abbrev S4x2x256x1 : Shape := ⟨4, ![4, 2, 256, 1]⟩
abbrev S4x2x1 : Shape := ⟨3, ![4, 2, 1]⟩
abbrev S4x2x1x1 : Shape := ⟨4, ![4, 2, 1, 1]⟩
abbrev S4x1x1 : Shape := ⟨3, ![4, 1, 1]⟩
abbrev S4x1x1x1 : Shape := ⟨4, ![4, 1, 1, 1]⟩
abbrev S1x1x1x1 : Shape := ⟨4, ![1, 1, 1, 1]⟩
abbrev S4x1x256x512 : Shape := ⟨4, ![4, 1, 256, 512]⟩
abbrev S4x256x512 : Shape := ⟨3, ![4, 256, 512]⟩
abbrev S4x256 : Shape := ⟨2, ![4, 256]⟩
abbrev S4x256x1 : Shape := ⟨3, ![4, 256, 1]⟩
abbrev S4x1 : Shape := ⟨2, ![4, 1]⟩
abbrev S1x1 : Shape := ⟨2, ![1, 1]⟩
abbrev S_ : Shape := ⟨0, ![]⟩

abbrev nBuf : Space → Nat
  | .hbm => 22
  | .vmem => 10
  | .smem => 0
  | _ => 0

abbrev bufTy : (tb : Table) → Fin (tcTables nBuf tb) → BufTy
  | .hbm, ⟨0, _⟩ => ⟨S64x2x256x512, .f32⟩
  | .hbm, ⟨1, _⟩ => ⟨S1x64x2x256x512, .f32⟩
  | .hbm, ⟨2, _⟩ => ⟨S64x2x256x512, .f32⟩
  | .hbm, ⟨3, _⟩ => ⟨S2x1x1, .f32⟩
  | .hbm, ⟨4, _⟩ => ⟨S2x1x1, .f32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S4x2x256x512, .f32⟩
  | .local _ .vmem, ⟨1, _⟩ => ⟨S4x2x256x512, .f32⟩
  | .local _ .vmem, ⟨2, _⟩ => ⟨S4x2x256x512, .f32⟩
  | .local _ .vmem, ⟨3, _⟩ => ⟨S4x2x256x512, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | _, _ => ⟨S64x2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x64x2x256x512_S64x2x256x512 : S1x64x2x256x512.ShapeCasts S64x2x256x512
  inb_S4x2x256x512_S4x2x256x512_0_0_0_0 : ∀ a, (![0, 0, 0, 0] : Fin 4 → Nat) a + S4x2x256x512.size a ≤ S4x2x256x512.size a
  h_S4x2x256x512 : 0 < S4x2x256x512.numel
  shapeCasts_S4x2x256x512_S4x2x256x512 : S4x2x256x512.ShapeCasts S4x2x256x512
  reduces_S4x2x256x512_S4x2x256 : S4x2x256x512.Reduces [3] S4x2x256
  shapeCasts_S4x2x256_S4x2x256x1 : S4x2x256.ShapeCasts S4x2x256x1
  reduces_S4x2x256x1_S4x2x1 : S4x2x256x1.Reduces [2] S4x2x1
  shapeCasts_S4x2x1_S4x2x1x1 : S4x2x1.ShapeCasts S4x2x1x1
  reduces_S4x2x1x1_S4x1x1 : S4x2x1x1.Reduces [1] S4x1x1
  shapeCasts_S4x1x1_S4x1x1x1 : S4x1x1.ShapeCasts S4x1x1x1
  reduces_S4x1x1x1_S1x1x1 : S4x1x1x1.Reduces [0] S1x1x1
  shapeCasts_S1x1x1_S1x1x1x1 : S1x1x1.ShapeCasts S1x1x1x1
  shapeCasts_S1x1x1x1_S1x1x1 : S1x1x1x1.ShapeCasts S1x1x1
  slices_S4x2x256x512_o0_0_0_0_S4x1x256x512 : S4x2x256x512.Slices ![0, 0, 0, 0] S4x1x256x512
  shapeCasts_S4x1x256x512_S4x256x512 : S4x1x256x512.ShapeCasts S4x256x512
  natLt_1_32 : 1 < 32
  reduces_S4x256x512_S4x256 : S4x256x512.Reduces [2] S4x256
  shapeCasts_S4x256_S4x256x1 : S4x256.ShapeCasts S4x256x1
  reduces_S4x256x1_S4x1 : S4x256x1.Reduces [1] S4x1
  shapeCasts_S4x1_S4x1x1 : S4x1.ShapeCasts S4x1x1
  reduces_S4x1x1_S1x1 : S4x1x1.Reduces [0] S1x1
  shapeCasts_S1x1_S1x1x1 : S1x1.ShapeCasts S1x1x1
  slices_S4x2x256x512_o0_1_0_0_S4x1x256x512 : S4x2x256x512.Slices ![0, 1, 0, 0] S4x1x256x512
  iota_S4x256x512_d1_w32 : S4x256x512.Iotas .tc 32 [1]
  rotates_S4x256x512_d1 : S4x256x512.Rotates 1 none
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2x256x512.size a ≤ S64x2x256x512.size a
  hwx0_0 : ∀ i : grid0.Coords, EltTy.bits .f32 = 32 ∨ (Rect.block (s := S64x2x256x512) S4x2x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2x256x512.size a ≤ S64x2x256x512.size a
  hwx0_1 : ∀ i : grid0.Coords, EltTy.bits .f32 = 32 ∨ (Rect.block (s := S64x2x256x512) S4x2x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_arg0) S4x2x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x2x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x2x256x512 : Shape := ⟨4, ![64, 2, 256, 512]⟩
abbrev S1x64x2x256x512 : Shape := ⟨5, ![1, 64, 2, 256, 512]⟩
abbrev S_ : Shape := ⟨0, ![]⟩
abbrev S64x1x256x512 : Shape := ⟨4, ![64, 1, 256, 512]⟩
abbrev S64x256x512 : Shape := ⟨3, ![64, 256, 512]⟩
abbrev S256 : Shape := ⟨1, ![256]⟩
abbrev S1x256x1 : Shape := ⟨3, ![1, 256, 1]⟩
abbrev S64x1x512 : Shape := ⟨3, ![64, 1, 512]⟩
abbrev S64x255x512 : Shape := ⟨3, ![64, 255, 512]⟩

abbrev nBuf : Space → Nat
  | .hbm => 76
  | .vmem => 0
  | .smem => 0
  | _ => 0

abbrev bufTy : (tb : Table) → Fin (tcTables nBuf tb) → BufTy
  | .hbm, ⟨0, _⟩ => ⟨S64x2x256x512, .f32⟩
  | .hbm, ⟨1, _⟩ => ⟨S1x64x2x256x512, .f32⟩
  | .hbm, ⟨2, _⟩ => ⟨S64x2x256x512, .f32⟩
  | .hbm, ⟨3, _⟩ => ⟨S64x2x256x512, .f32⟩
  | .hbm, ⟨4, _⟩ => ⟨S64x2x256x512, .f32⟩
  | .hbm, ⟨5, _⟩ => ⟨S_, .f32⟩
  | .hbm, ⟨6, _⟩ => ⟨S64x2x256x512, .f32⟩
  | .hbm, ⟨7, _⟩ => ⟨S64x2x256x512, .f32⟩
  | .hbm, ⟨8, _⟩ => ⟨S64x2x256x512, .f32⟩
  | .hbm, ⟨9, _⟩ => ⟨S64x2x256x512, .f32⟩
  | .hbm, ⟨10, _⟩ => ⟨S64x2x256x512, .f32⟩
  | .hbm, ⟨11, _⟩ => ⟨S64x2x256x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64x1x256x512, .f32⟩
  | .hbm, ⟨18, _⟩ => ⟨S64x256x512, .f32⟩
  | .hbm, ⟨19, _⟩ => ⟨S_, .f32⟩
  | .hbm, ⟨20, _⟩ => ⟨S64x256x512, .f32⟩
  | .hbm, ⟨21, _⟩ => ⟨S64x256x512, .i1⟩
  | .hbm, ⟨22, _⟩ => ⟨S64x256x512, .i32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S64x1x256x512, .f32⟩
  | .hbm, ⟨27, _⟩ => ⟨S64x256x512, .f32⟩
  | .hbm, ⟨28, _⟩ => ⟨S_, .f32⟩
  | .hbm, ⟨29, _⟩ => ⟨S64x256x512, .f32⟩
  | .hbm, ⟨30, _⟩ => ⟨S64x256x512, .i1⟩
  | .hbm, ⟨31, _⟩ => ⟨S256, .i32⟩
  | .hbm, ⟨32, _⟩ => ⟨S1x256x1, .i32⟩
  | .hbm, ⟨33, _⟩ => ⟨S_, .i32⟩
  | .hbm, ⟨34, _⟩ => ⟨S_, .i32⟩
  | .hbm, ⟨35, _⟩ => ⟨S64x256x512, .i32⟩
  | .hbm, ⟨36, _⟩ => ⟨S64x256x512, .i32⟩
  | .hbm, ⟨37, _⟩ => ⟨S64x256x512, .i32⟩
  | .hbm, ⟨38, _⟩ => ⟨S_, .i32⟩
  | .hbm, ⟨39, _⟩ => ⟨S_, .i32⟩
  | .hbm, ⟨40, _⟩ => ⟨S64x256x512, .i32⟩
  | .hbm, ⟨41, _⟩ => ⟨S_, .i32⟩
  | .hbm, ⟨42, _⟩ => ⟨S64x1x512, .i32⟩
  | .hbm, ⟨43, _⟩ => ⟨S64x255x512, .i32⟩
  | .hbm, ⟨44, _⟩ => ⟨S64x256x512, .i32⟩
  | .hbm, ⟨45, _⟩ => ⟨S_, .i32⟩
  | .hbm, ⟨46, _⟩ => ⟨S64x256x512, .i32⟩
  | .hbm, ⟨47, _⟩ => ⟨S64x256x512, .i1⟩
  | .hbm, ⟨48, _⟩ => ⟨S64x256x512, .i1⟩
  | .hbm, ⟨49, _⟩ => ⟨S_, .i32⟩
  | .hbm, ⟨50, _⟩ => ⟨S1x256x1, .i32⟩
  | .hbm, ⟨51, _⟩ => ⟨S1x256x1, .i1⟩
  | .hbm, ⟨52, _⟩ => ⟨S64x256x512, .i1⟩
  | .hbm, ⟨53, _⟩ => ⟨S64x256x512, .i1⟩
  | .hbm, ⟨54, _⟩ => ⟨S64x256x512, .i32⟩
  | .hbm, ⟨55, _⟩ => ⟨S64x256x512, .i32⟩
  | .hbm, ⟨56, _⟩ => ⟨S64x256x512, .f32⟩
  | .hbm, ⟨57, _⟩ => ⟨S64x256x512, .f32⟩
  | .hbm, ⟨58, _⟩ => ⟨S64x256x512, .f32⟩
  | .hbm, ⟨59, _⟩ => ⟨S_, .f32⟩
  | .hbm, ⟨60, _⟩ => ⟨S64x256x512, .f32⟩
  | .hbm, ⟨61, _⟩ => ⟨S64x256x512, .f32⟩
  | .hbm, ⟨62, _⟩ => ⟨S_, .f32⟩
  | .hbm, ⟨63, _⟩ => ⟨S_, .f32⟩
  | .hbm, ⟨64, _⟩ => ⟨S64x256x512, .f32⟩
  | .hbm, ⟨65, _⟩ => ⟨S64x256x512, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S64x2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_call1_c : Ref sig .tc := ⟨.hbm, 38, rfl⟩
abbrev main_call1_v0 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_call2_v0 : Ref sig .tc := ⟨.hbm, 63, rfl⟩
abbrev main_call2_v1 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  shapeCasts_S1x64x2x256x512_S64x2x256x512 : S1x64x2x256x512.ShapeCasts S64x2x256x512
  bcast_S_S64x2x256x512 : S_.BroadcastsInDim S64x2x256x512 (![] : Fin 0 → Fin S64x2x256x512.rank)
  reducesTo_S64x2x256x512_S_d0_1_2_3 : S64x2x256x512.ReducesTo [0, 1, 2, 3] S_
  h_S_ : 0 < S_.numel
  slices_S64x2x256x512_S64x1x256x512_0_0_0_0 : S64x2x256x512.Slices ![0, 0, 0, 0] S64x1x256x512
  shapeCasts_S64x1x256x512_S64x256x512 : S64x1x256x512.ShapeCasts S64x256x512
  bcast_S_S64x256x512 : S_.BroadcastsInDim S64x256x512 (![] : Fin 0 → Fin S64x256x512.rank)
  natLt_1_32 : 1 < 32
  reducesTo_S64x256x512_S_d0_1_2 : S64x256x512.ReducesTo [0, 1, 2] S_
  slices_S64x2x256x512_S64x1x256x512_0_1_0_0 : S64x2x256x512.Slices ![0, 1, 0, 0] S64x1x256x512
  bcast_S256_S1x256x1_1 : S256.BroadcastsInDim S1x256x1 (![1] : Fin 1 → Fin S1x256x1.rank)
  bcast_S1x256x1_S64x256x512_0_1_2 : S1x256x1.BroadcastsInDim S64x256x512 (![0, 1, 2] : Fin 3 → Fin S64x256x512.rank)
  bcast_S_S_ : S_.BroadcastsInDim S_ (![] : Fin 0 → Fin S_.rank)
  reduceWindows_S64x256x512_S64x256x512_w1s1p0_0_w256s1p255_0_w1s1p0_0 : S64x256x512.ReduceWindows (![1, 256, 1] : Fin 3 → Nat) ![1, 1, 1] ![0, 255, 0] ![0, 0, 0] S64x256x512
  bcast_S_S64x1x512 : S_.BroadcastsInDim S64x1x512 (![] : Fin 0 → Fin S64x1x512.rank)
  slices_S64x256x512_S64x255x512_0_0_0 : S64x256x512.Slices ![0, 0, 0] S64x255x512
  concatenates_S64x1x512_S64x255x512_S64x256x512_d1 : Shape.Concatenates [S64x1x512, S64x255x512] S64x256x512 1
  bcast_S_S1x256x1 : S_.BroadcastsInDim S1x256x1 (![] : Fin 0 → Fin S1x256x1.rank)

variable [Facts₀]

class Facts : Prop extends Facts₀ where

variable [Facts]
-- ==== Proof.KOut.lean ====
/-
  What one run of the kernel body leaves in its three one-entry outputs, as values. At the first step of a core
  (the reset branch taken) each output is reset to zero and then receives the tile's partial sum: it ends at
  `0 + partial`. At every other step it ends at `previous + partial`. The three partial sums are the tile's
  cross-entropy sum, its count of cuts and its distance penalty, each a function of the two input tiles alone.
-/
import proofs.«155610_j50379966382816_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KOut

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The zero the reset stores. -/
abbrev zero : Vec F S1x1x1 .f32 := broadcast S1x1x1 (Scalar.ofBits .f32 0x00000000#32)

/-- The tile's distance penalty as a one-entry vector. -/
abbrev dvec (x0 : Vec F S4x2x256x512 .f32) : FVec F S1x1x1 .f32 :=
  k0_pay10 (F := F) (k0_pay6 x0) (iota .tc S4x256x512 32 [1] iota_S4x256x512_d1_w32)
    (k0_pay7 (k0_pay6 x0) (iota .tc S4x256x512 32 [1] iota_S4x256x512_d1_w32) 4294967295#32)
    (k0_pay8 (k0_pay6 x0) (iota .tc S4x256x512 32 [1] iota_S4x256x512_d1_w32) 4294967295#32) k0_pay9

variable (c : Dev nD) (i : grid0.Coords) (a2 : Memref sig .tc .vmem S4x2x256x512 .f32) (h2 : a2.IsWhole)
  (a3 : Memref sig .tc .vmem S4x2x256x512 .f32) (h3 : a3.IsWhole) (a4 : Memref sig .tc .vmem S1x1x1 .f32) (h4 : a4.IsWhole)
  (a5 : Memref sig .tc .vmem S1x1x1 .f32) (h5 : a5.IsWhole) (a6 : Memref sig .tc .vmem S1x1x1 .f32) (h6 : a6.IsWhole)
  (x0 x1 : Vec F S4x2x256x512 .f32)

/-- A later step adds the tile's cross-entropy sum to what the first output held. -/
theorem out_B_2 (hc : ¬cond0_0 i) (xo2 xo3 xo4 : Vec F S1x1x1 .f32) :
    out0_B_2 c i a2 h2 a3 h3 a4 h4 a5 h5 a6 h6 hc x0 x1 xo2 xo3 xo4 = addf xo2 (k0_pay4 x0 x1) := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  unfold k0_pay1 k0_pay14
  simp only [View.readAt_eq_ld, h2.read_unread, h3.read_unread, h4.read_unread, h5.read_unread, h6.read_unread, View.ld_unit_zero (S := S4x2x256x512) hz4, View.ld_unit_zero (S := S1x1x1) hz3, shapeCast_self]

/-- A later step adds the tile's count of cuts to what the second output held. -/
theorem out_B_3 (hc : ¬cond0_0 i) (xo2 xo3 xo4 : Vec F S1x1x1 .f32) :
    out0_B_3 c i a2 h2 a3 h3 a4 h4 a5 h5 a6 h6 hc x0 x1 xo2 xo3 xo4 = addf xo3 (k0_pay5 x0) := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  unfold k0_pay2
  simp only [View.readAt_eq_ld, h2.read_unread, h3.read_unread, h4.read_unread, h5.read_unread, h6.read_unread, View.ld_unit_zero (S := S4x2x256x512) hz4, View.ld_unit_zero (S := S1x1x1) hz3, shapeCast_self]

/-- A later step adds the tile's distance penalty to what the third output held. -/
theorem out_B_4 (hc : ¬cond0_0 i) (xo2 xo3 xo4 : Vec F S1x1x1 .f32) :
    out0_B_4 c i a2 h2 a3 h3 a4 h4 a5 h5 a6 h6 hc x0 x1 xo2 xo3 xo4 = addf xo4 (dvec x0) := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  unfold k0_pay3
  simp only [View.readAt_eq_ld, h2.read_unread, h3.read_unread, h4.read_unread, h5.read_unread, h6.read_unread, View.ld_unit_zero (S := S4x2x256x512) hz4, View.ld_unit_zero (S := S1x1x1) hz3, shapeCast_self]

/-- A core's first step leaves zero plus the tile's cross-entropy sum in the first output. -/
theorem out_A_2 (hc : cond0_0 i) :
    out0_A_2 c i a2 h2 a3 h3 a4 h4 a5 h5 a6 h6 hc x0 x1 = addf zero (k0_pay4 x0 x1) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x1x1) hz3, View.readCov_unit_zero (S := S1x1x1) _ hz3]
  unfold k0_pay1 k0_pay14 k0_pay11
  simp only [View.readAt_eq_ld, h2.read_unread, h3.read_unread, h4.read_unread, h5.read_unread, h6.read_unread, View.ld_unit_zero (S := S4x2x256x512) hz4, View.ld_unit_zero (S := S1x1x1) hz3, shapeCast_self]

/-- A core's first step leaves zero plus the tile's count of cuts in the second output. -/
theorem out_A_3 (hc : cond0_0 i) :
    out0_A_3 c i a2 h2 a3 h3 a4 h4 a5 h5 a6 h6 hc x0 x1 = addf zero (k0_pay5 x0) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x1) hz3, View.readCov_unit_zero (S := S1x1x1) _ hz3]
  unfold k0_pay2 k0_pay12
  simp only [View.readAt_eq_ld, h2.read_unread, h3.read_unread, h4.read_unread, h5.read_unread, h6.read_unread, View.ld_unit_zero (S := S4x2x256x512) hz4, View.ld_unit_zero (S := S1x1x1) hz3, shapeCast_self]

/-- A core's first step leaves zero plus the tile's distance penalty in the third output. -/
theorem out_A_4 (hc : cond0_0 i) :
    out0_A_4 c i a2 h2 a3 h3 a4 h4 a5 h5 a6 h6 hc x0 x1 = addf zero (dvec x0) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x1) hz3, View.readCov_unit_zero (S := S1x1x1) _ hz3]
  unfold k0_pay3 k0_pay13
  simp only [View.readAt_eq_ld, h2.read_unread, h3.read_unread, h4.read_unread, h5.read_unread, h6.read_unread, View.ld_unit_zero (S := S4x2x256x512) hz4, View.ld_unit_zero (S := S1x1x1) hz3, shapeCast_self]

end Cert.KernelIdeal.KOut

end
-- ==== Proof.Tile.lean ====
/-
  Shared vocabulary of the value proof. The kernel walks the batch axis in sixteen tiles of four batches: tile `q`
  (`q = 8·core + step`) holds batches `4q … 4q+3` of a `[64, 2, 256, 512]` array. Here are that tile as a function of
  the whole array, the one index of a `[1, 1, 1]` array, the vector of row numbers the kernel builds, and the kernel's
  three per-tile partial sums (cross-entropy, count of cuts, distance penalty) as functions of the tile alone.
-/
import proofs.«155610_j50379966382816_2_alg».proof.Proof.Gen.KernelIdeal.Skeleton
import Idealize.ShloMosaic.Lib.ValueIdx

noncomputable section

namespace Cert.Tile

open Idealize.ShloMosaic Idealize.ShloMosaic.ValueIdx Cert.KernelIdeal Cert.KernelIdeal.Gen

/-- Entry `y` of tile `q` sits at batch `4q + y₀` of the whole array, the other three coordinates unchanged. -/
def tileIdx (q : Fin 16) (y : S4x2x256x512.Idx) : S64x2x256x512.Idx :=
  ix4 (n0 := 64) (n1 := 2) (n2 := 256) (n3 := 512)
    ⟨q.val * 4 + (y 0).val, by
      have h : (y 0).val < 4 := (y 0).isLt
      have hq : q.val < 16 := q.isLt
      omega⟩ (y 1) (y 2) (y 3)

/-- Tile `q` of a whole array. -/
def tile (X : S64x2x256x512.Idx → EReal) (q : Fin 16) : Vec Ideal S4x2x256x512 .f32 := fun y => X (tileIdx q y)

/-- The one index of a `[1, 1, 1]` array. -/
abbrev z3 : S1x1x1.Idx := ix3 (n0 := 1) (n1 := 1) (n2 := 1) 0 0 0

/-- The kernel's vector of row numbers: entry `(b, h, w)` is `h`. -/
def rows : IVec S4x256x512 32 := iota .tc S4x256x512 32 [1] iota_S4x256x512_d1_w32

/-- The cross-entropy partial sum of one tile: the sum over the tile of `0 − (log1p(0 − x) + t·(log x − log1p(0 − x)))`. -/
def bcePart (x t : Vec Ideal S4x2x256x512 .f32) : EReal := k0_pay4 (F := Ideal) x t z3

/-- The cut count of one tile: the number of channel-0 entries above one half, as a sum of zeros and ones. -/
def cutPart (x : Vec Ideal S4x2x256x512 .f32) : EReal := k0_pay5 (F := Ideal) x z3

/-- The distance penalty of one tile: over channel 1, for every row below the last whose entry is above one half and
    whose nearest earlier such row `p` in the same column exists and is not row 0, the term `1 / (h − p)³`. -/
def densePart (x : Vec Ideal S4x2x256x512 .f32) : EReal :=
  k0_pay10 (F := Ideal) (k0_pay6 (F := Ideal) x) rows
    (k0_pay7 (k0_pay6 (F := Ideal) x) rows 4294967295#32)
    (k0_pay8 (k0_pay6 (F := Ideal) x) rows 4294967295#32) k0_pay9 z3

end Cert.Tile

end
-- ==== Proof.LibAcc.lean ====
/-
  An accumulator that is reset every eighth step (no program in sight). A sequence `s 0, …, s 15` over a commutative monoid
  starts afresh at the steps divisible by 8 (`s n = 0 + P n`) and otherwise adds the step's term to the previous value
  (`s (n+1) = s n + P (n+1)`). Then `s n` is the sum of the terms of the steps of `n`'s group of eight up to `n`, and at
  the last step of a group it is the sum over the whole group; the two group totals together are the sum of all
  sixteen terms.
-/
import Idealize.ShloMosaic.PureOps.Ideal

namespace Cert.LibAcc

open scoped BigOperators

variable {M : Type*} [AddCommMonoid M]

/-- The closed form of the accumulator after step `n`. -/
theorem acc_closed (s : (n : ℕ) → n < 16 → M) (P : ℕ → M)
    (hA : ∀ n (h : n < 16), n % 8 = 0 → s n h = 0 + P n)
    (hB : ∀ n (h : n + 1 < 16), (n + 1) % 8 ≠ 0 → s (n + 1) h = s n (Nat.lt_of_succ_lt h) + P (n + 1)) :
    ∀ n (h : n < 16), s n h = ∑ k ∈ Finset.range (n % 8 + 1), P (n - n % 8 + k) := by
  intro n
  induction n with
  | zero => intro h; rw [hA 0 h rfl]; simp
  | succ n ih =>
    intro h
    by_cases h0 : (n + 1) % 8 = 0
    · rw [hA (n + 1) h h0, h0]; simp
    · rw [hB n h h0, ih (Nat.lt_of_succ_lt h)]
      have e1 : (n + 1) % 8 = n % 8 + 1 := by omega
      have e2 : n + 1 - (n % 8 + 1) = n - n % 8 := by omega
      rw [e1, e2, Finset.sum_range_succ _ (n % 8 + 1)]
      congr 2
      omega

/-- At the last step of group `p` the accumulator holds the group's total. -/
theorem acc_group (s : (n : ℕ) → n < 16 → M) (P : ℕ → M)
    (hA : ∀ n (h : n < 16), n % 8 = 0 → s n h = 0 + P n)
    (hB : ∀ n (h : n + 1 < 16), (n + 1) % 8 ≠ 0 → s (n + 1) h = s n (Nat.lt_of_succ_lt h) + P (n + 1))
    (n : ℕ) (h : n < 16) (h7 : n % 8 = 7) : s n h = ∑ k ∈ Finset.range 8, P (8 * (n / 8) + k) := by
  rw [acc_closed s P hA hB n h, h7]
  have e : n - 7 = 8 * (n / 8) := by omega
  rw [e]

/-- The two group totals add up to the sum of all sixteen terms. -/
theorem groups_total (P : ℕ → M) :
    ∑ p : Fin 2, ∑ k ∈ Finset.range 8, P (8 * p.val + k) = ∑ q : Fin 16, P q.val := by
  rw [Fin.sum_univ_two]
  simp only [Finset.sum_range_succ, Finset.sum_range_zero, Fin.sum_univ_succ, Fin.sum_univ_zero]
  simp
  abel

end Cert.LibAcc
-- ==== Proof.KChain.lean ====
/-
  The three running totals across the sixteen grid steps, at the ideal instance. Step `n` (core `n / 8`, its step
  `n % 8`) reads tile `n` of the inputs and of the targets. At a core's first step each output is `0 +` the step's
  term; at every other step it is the previous step's value plus the step's term.
-/
import proofs.«155610_j50379966382816_2_alg».proof.Proof.KOut
import proofs.«155610_j50379966382816_2_alg».proof.Proof.Tile
import proofs.«155610_j50379966382816_2_alg».proof.Proof.LibAcc
import Idealize.ShloMosaic.PureOps.Ideal.Laws

noncomputable section

open Idealize.ShloMosaic Idealize.ShloMosaic.TcCoe Idealize.SL.Sem
open Idealize.ShloMosaic.Pipeline (Dat)

namespace Cert.KernelIdeal.KChain

open Cert.KernelIdeal Cert.KernelIdeal.Gen Cert.KernelIdeal.KOut Cert.Tile

variable (m : (ℓ : Loc nD τ sig) → Buf (Elt Ideal) ℓ)

theorem lt16 {n : ℕ} (h : n < 16) : n < cfg0.N := lt_of_lt_of_eq h (show cfg0.N = 16 from N_0).symm

/-- Step `n`'s cross-entropy term (0 past the grid). -/
def P2 (c : Dev nD) (n : ℕ) : EReal :=
  if h : n < 16 then k0_pay4 (F := Ideal) (iblk m c 0 ⟨n, lt16 h⟩) (iblk m c 1 ⟨n, lt16 h⟩) z3 else 0
/-- Step `n`'s count of cuts. -/
def P3 (c : Dev nD) (n : ℕ) : EReal :=
  if h : n < 16 then k0_pay5 (F := Ideal) (iblk m c 0 ⟨n, lt16 h⟩) z3 else 0
/-- Step `n`'s distance penalty. -/
def P4 (c : Dev nD) (n : ℕ) : EReal :=
  if h : n < 16 then dvec (F := Ideal) (iblk m c 0 ⟨n, lt16 h⟩) z3 else 0

theorem zero_z3 : (zero (F := Ideal)) z3 = 0 := Ideal.ofBits_zero_f32

/-- Adding two one-entry vectors adds their entries. -/
theorem addf_z3 (a b : FVec Ideal S1x1x1 .f32) : (addf a b) z3 = a z3 + b z3 := rfl

/-- Zero plus a one-entry vector, at its entry. -/
theorem zero_add_z3 (v : FVec Ideal S1x1x1 .f32) : (addf (zero (F := Ideal)) v) z3 = 0 + v z3 := by
  rw [addf_z3, zero_z3]

theorem s2_A (c : Dev nD) (n : ℕ) (h : n < 16) (h0 : n % 8 = 0) :
    ((outsAt0 m c n (lt16 h)).1) z3 = 0 + P2 m c n :=
  let t : Fin cfg0.N := ⟨n, lt16 h⟩
  have e1 := congrArg (fun p => (p.1) z3) (outsAt0_A m c t h0)
  have e2 := congrFun (out_A_2 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) ((hcond0_0 t).mpr h0)) z3
  have e3 : P2 m c n = (k0_pay4 (F := Ideal) (iblk m c 0 t) (iblk m c 1 t)) z3 := dif_pos h
  (e1.trans e2).trans ((zero_add_z3 (k0_pay4 (F := Ideal) (iblk m c 0 t) (iblk m c 1 t))).trans (congrArg (fun v => 0 + v) e3.symm))

theorem s2_B (c : Dev nD) (n : ℕ) (h : n + 1 < 16) (h0 : (n + 1) % 8 ≠ 0) :
    ((outsAt0 m c (n + 1) (lt16 h)).1) z3 = ((outsAt0 m c n (lt16 (Nat.lt_of_succ_lt h))).1) z3 + P2 m c (n + 1) :=
  let t : Fin cfg0.N := ⟨n + 1, lt16 h⟩
  have e1 := congrArg (fun p => (p.1) z3) (outsAt0_B m c t h0)
  have e2 := congrFun (out_B_2 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (fun hh => h0 ((hcond0_0 t).mp hh)) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) z3
  have e3 : P2 m c (n + 1) = (k0_pay4 (F := Ideal) (iblk m c 0 t) (iblk m c 1 t)) z3 := dif_pos h
  (e1.trans e2).trans ((addf_z3 ((outsAt0 m c (t.val - 1) (Nat.lt_of_le_of_lt (Nat.sub_le _ _) t.isLt)).1) (k0_pay4 (F := Ideal) (iblk m c 0 t) (iblk m c 1 t))).trans
    (congrArg (fun v => ((outsAt0 m c n (lt16 (Nat.lt_of_succ_lt h))).1) z3 + v) e3.symm))

theorem s3_A (c : Dev nD) (n : ℕ) (h : n < 16) (h0 : n % 8 = 0) :
    ((outsAt0 m c n (lt16 h)).2.1) z3 = 0 + P3 m c n :=
  let t : Fin cfg0.N := ⟨n, lt16 h⟩
  have e1 := congrArg (fun p => (p.2.1) z3) (outsAt0_A m c t h0)
  have e2 := congrFun (out_A_3 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) ((hcond0_0 t).mpr h0)) z3
  have e3 : P3 m c n = (k0_pay5 (F := Ideal) (iblk m c 0 t)) z3 := dif_pos h
  (e1.trans e2).trans ((zero_add_z3 (k0_pay5 (F := Ideal) (iblk m c 0 t))).trans (congrArg (fun v => 0 + v) e3.symm))

theorem s3_B (c : Dev nD) (n : ℕ) (h : n + 1 < 16) (h0 : (n + 1) % 8 ≠ 0) :
    ((outsAt0 m c (n + 1) (lt16 h)).2.1) z3 = ((outsAt0 m c n (lt16 (Nat.lt_of_succ_lt h))).2.1) z3 + P3 m c (n + 1) :=
  let t : Fin cfg0.N := ⟨n + 1, lt16 h⟩
  have e1 := congrArg (fun p => (p.2.1) z3) (outsAt0_B m c t h0)
  have e2 := congrFun (out_B_3 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (fun hh => h0 ((hcond0_0 t).mp hh)) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) z3
  have e3 : P3 m c (n + 1) = (k0_pay5 (F := Ideal) (iblk m c 0 t)) z3 := dif_pos h
  (e1.trans e2).trans ((addf_z3 ((outsAt0 m c (t.val - 1) (Nat.lt_of_le_of_lt (Nat.sub_le _ _) t.isLt)).2.1) (k0_pay5 (F := Ideal) (iblk m c 0 t))).trans
    (congrArg (fun v => ((outsAt0 m c n (lt16 (Nat.lt_of_succ_lt h))).2.1) z3 + v) e3.symm))

theorem s4_A (c : Dev nD) (n : ℕ) (h : n < 16) (h0 : n % 8 = 0) :
    ((outsAt0 m c n (lt16 h)).2.2) z3 = 0 + P4 m c n :=
  let t : Fin cfg0.N := ⟨n, lt16 h⟩
  have e1 := congrArg (fun p => (p.2.2) z3) (outsAt0_A m c t h0)
  have e2 := congrFun (out_A_4 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) ((hcond0_0 t).mpr h0)) z3
  have e3 : P4 m c n = (dvec (F := Ideal) (iblk m c 0 t)) z3 := dif_pos h
  (e1.trans e2).trans ((zero_add_z3 (dvec (F := Ideal) (iblk m c 0 t))).trans (congrArg (fun v => 0 + v) e3.symm))

theorem s4_B (c : Dev nD) (n : ℕ) (h : n + 1 < 16) (h0 : (n + 1) % 8 ≠ 0) :
    ((outsAt0 m c (n + 1) (lt16 h)).2.2) z3 = ((outsAt0 m c n (lt16 (Nat.lt_of_succ_lt h))).2.2) z3 + P4 m c (n + 1) :=
  let t : Fin cfg0.N := ⟨n + 1, lt16 h⟩
  have e1 := congrArg (fun p => (p.2.2) z3) (outsAt0_B m c t h0)
  have e2 := congrFun (out_B_4 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (fun hh => h0 ((hcond0_0 t).mp hh)) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) z3
  have e3 : P4 m c (n + 1) = (dvec (F := Ideal) (iblk m c 0 t)) z3 := dif_pos h
  (e1.trans e2).trans ((addf_z3 ((outsAt0 m c (t.val - 1) (Nat.lt_of_le_of_lt (Nat.sub_le _ _) t.isLt)).2.2) (dvec (F := Ideal) (iblk m c 0 t))).trans
    (congrArg (fun v => ((outsAt0 m c n (lt16 (Nat.lt_of_succ_lt h))).2.2) z3 + v) e3.symm))

end Cert.KernelIdeal.KChain

end
-- ==== Proof.KFinal.lean ====
/-
  The three output arrays after the run, at the ideal instance: entry `p` of each `[2, 1, 1]` array is core `p`'s total
  of its eight step terms — each core's last step is the one that writes the entry back, and the two entries cover
  the array.
-/
import proofs.«155610_j50379966382816_2_alg».proof.Proof.KChain
import Idealize.ShloMosaic.Lib.Pipeline.Value

noncomputable section

open Idealize.ShloMosaic Idealize.ShloMosaic.TcCoe Idealize.SL.Sem
open Idealize.ShloMosaic.Pipeline (Dat)

namespace Cert.KernelIdeal.KFinal

open Cert.KernelIdeal Cert.KernelIdeal.Gen Cert.KernelIdeal.KOut Cert.KernelIdeal.KChain Cert.Tile

variable (m : (ℓ : Loc nD τ sig) → Buf (Elt Ideal) ℓ)

/-- A `[1, 1, 1]` array has one index. -/
theorem idx_z3 (y : S1x1x1.Idx) : y = z3 := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => exact Fin.ext (by have h : (y 2).val < 1 := (y 2).isLt; show (y 2).val = 0; omega)

/-! ## Output window 2 -/

/-- Entry `p` of the output array: core `p`'s total of eight step terms. -/
def G2 (c : Dev nD) : S2x1x1.Idx → EReal := fun i => ∑ k ∈ Finset.range 8, P2 m c (8 * (i 0).val + k)

/-- The window's block at step `t` is entry `t / 8`. -/
theorem idx2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)

/-- At a core's last step the output holds the core's total. -/
theorem total2 (c : Dev nD) (t : Fin cfg0.N) (h7 : t.val % 8 = 7) :
    ((outsAt0 m c t.val t.isLt).1) z3 = ∑ k ∈ Finset.range 8, P2 m c (8 * (t.val / 8) + k) :=
  Cert.LibAcc.acc_group (fun n h => ((outsAt0 m c n (lt16 h)).1) z3) (P2 m c) (s2_A m c) (s2_B m c) t.val
    (lt_of_lt_of_eq t.isLt (show cfg0.N = 16 from N_0)) h7

/-- What a core's last step writes back is its entry of `G2`. -/
theorem flushed2_eq (c : Dev nD) (t : Fin cfg0.N) (hf : (cfg0.win 2).flush t = true) :
    (dats m 0 c).flushed 2 t = ((cfg0.win 2).blk t).view.read (Elt Ideal) (G2 m c) := by
  have h7 : t.val % 8 = 7 := (flush0_2 t).mp hf
  show (cfg0.win 2).cut (grid0.coords t) ((dats m 0 c).after 2 t) = _
  rw [after0_2]
  funext y
  show ((outsAt0 m c t.val t.isLt).1) y = G2 m c (((cfg0.win 2).blk t).view.emb y)
  rw [idx_z3 y, total2 m c t h7]
  unfold G2
  obtain ⟨e0, -, -⟩ := idx2 t
  have he : ((((cfg0.win 2).blk t).view.emb z3) 0).val = t.val / 8 := by
    show win0_2.index t (0 : Fin 3) * 1 + 1 * (z3 0).val = t.val / 8
    rw [e0]; show t.val / 8 * 1 + 1 * 0 = t.val / 8; omega
  rw [he]

theorem mem_blk2 (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v1_0).slice (win0_2.rect t)).set ↔ _
  rw [View.set_slice_whole, Rect.mem_set_unit]
  exact Iff.rfl

/-- Every entry of the output array is written back by its core's last step. -/
theorem cover2 (i : S2x1x1.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hlt : 8 * (i 0).val + 7 < cfg0.N := by rw [show cfg0.N = 16 from N_0]; omega
  refine ⟨⟨8 * (i 0).val + 7, hlt⟩, (flush0_2 _).mpr (by show (8 * (i 0).val + 7) % 8 = 7; omega), ?_⟩
  rw [mem_blk2]
  obtain ⟨e0, e1, e2⟩ := idx2 ⟨8 * (i 0).val + 7, hlt⟩
  have e0' : win0_2.index ⟨8 * (i 0).val + 7, hlt⟩ (0 : Fin 3) = (i 0).val := by rw [e0]; show (8 * (i 0).val + 7) / 8 = (i 0).val; omega
  intro a
  match a with
  | ⟨0, _⟩ => show win0_2.index ⟨8 * (i 0).val + 7, hlt⟩ (0 : Fin 3) * 1 ≤ (i 0).val ∧ (i 0).val < win0_2.index ⟨8 * (i 0).val + 7, hlt⟩ (0 : Fin 3) * 1 + 1; rw [e0']; omega
  | ⟨1, _⟩ => show win0_2.index ⟨8 * (i 0).val + 7, hlt⟩ (1 : Fin 3) * 1 ≤ (i 1).val ∧ (i 1).val < win0_2.index ⟨8 * (i 0).val + 7, hlt⟩ (1 : Fin 3) * 1 + 1; rw [e1]; omega
  | ⟨2, _⟩ => show win0_2.index ⟨8 * (i 0).val + 7, hlt⟩ (2 : Fin 3) * 1 ≤ (i 2).val ∧ (i 2).val < win0_2.index ⟨8 * (i 0).val + 7, hlt⟩ (2 : Fin 3) * 1 + 1; rw [e2]; omega

/-- The output array after the run. -/
theorem final2 (c : Dev nD) : (dats m 0 c).arrAt 2 cfg0.N = G2 m c :=
  (dats m 0 c).arrAt_eq_of_cover 2 (G2 m c) (flushed2_eq m c) (cover2)

/-! ## Output window 3 -/

/-- Entry `p` of the output array: core `p`'s total of eight step terms. -/
def G3 (c : Dev nD) : S2x1x1.Idx → EReal := fun i => ∑ k ∈ Finset.range 8, P3 m c (8 * (i 0).val + k)

/-- The window's block at step `t` is entry `t / 8`. -/
theorem idx3 : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-- At a core's last step the output holds the core's total. -/
theorem total3 (c : Dev nD) (t : Fin cfg0.N) (h7 : t.val % 8 = 7) :
    ((outsAt0 m c t.val t.isLt).2.1) z3 = ∑ k ∈ Finset.range 8, P3 m c (8 * (t.val / 8) + k) :=
  Cert.LibAcc.acc_group (fun n h => ((outsAt0 m c n (lt16 h)).2.1) z3) (P3 m c) (s3_A m c) (s3_B m c) t.val
    (lt_of_lt_of_eq t.isLt (show cfg0.N = 16 from N_0)) h7

/-- What a core's last step writes back is its entry of `G3`. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after0_3]
  funext y
  show ((outsAt0 m c t.val t.isLt).2.1) y = G3 m c (((cfg0.win 3).blk t).view.emb y)
  rw [idx_z3 y, total3 m c t h7]
  unfold G3
  obtain ⟨e0, -, -⟩ := idx3 t
  have he : ((((cfg0.win 3).blk t).view.emb z3) 0).val = t.val / 8 := by
    show win0_3.index t (0 : Fin 3) * 1 + 1 * (z3 0).val = t.val / 8
    rw [e0]; show t.val / 8 * 1 + 1 * 0 = t.val / 8; omega
  rw [he]

theorem mem_blk3 (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v1_1).slice (win0_3.rect t)).set ↔ _
  rw [View.set_slice_whole, Rect.mem_set_unit]
  exact Iff.rfl

/-- Every entry of the output array is written back by its core's last step. -/
theorem cover3 (i : S2x1x1.Idx) : ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have hlt : 8 * (i 0).val + 7 < cfg0.N := by rw [show cfg0.N = 16 from N_0]; omega
  refine ⟨⟨8 * (i 0).val + 7, hlt⟩, (flush0_3 _).mpr (by show (8 * (i 0).val + 7) % 8 = 7; omega), ?_⟩
  rw [mem_blk3]
  obtain ⟨e0, e1, e2⟩ := idx3 ⟨8 * (i 0).val + 7, hlt⟩
  have e0' : win0_3.index ⟨8 * (i 0).val + 7, hlt⟩ (0 : Fin 3) = (i 0).val := by rw [e0]; show (8 * (i 0).val + 7) / 8 = (i 0).val; omega
  intro a
  match a with
  | ⟨0, _⟩ => show win0_3.index ⟨8 * (i 0).val + 7, hlt⟩ (0 : Fin 3) * 1 ≤ (i 0).val ∧ (i 0).val < win0_3.index ⟨8 * (i 0).val + 7, hlt⟩ (0 : Fin 3) * 1 + 1; rw [e0']; omega
  | ⟨1, _⟩ => show win0_3.index ⟨8 * (i 0).val + 7, hlt⟩ (1 : Fin 3) * 1 ≤ (i 1).val ∧ (i 1).val < win0_3.index ⟨8 * (i 0).val + 7, hlt⟩ (1 : Fin 3) * 1 + 1; rw [e1]; omega
  | ⟨2, _⟩ => show win0_3.index ⟨8 * (i 0).val + 7, hlt⟩ (2 : Fin 3) * 1 ≤ (i 2).val ∧ (i 2).val < win0_3.index ⟨8 * (i 0).val + 7, hlt⟩ (2 : Fin 3) * 1 + 1; rw [e2]; omega

/-- The output array after the run. -/
theorem final3 (c : Dev nD) : (dats m 0 c).arrAt 3 cfg0.N = G3 m c :=
  (dats m 0 c).arrAt_eq_of_cover 3 (G3 m c) (flushed3_eq m c) (cover3)

/-! ## Output window 4 -/

/-- Entry `p` of the output array: core `p`'s total of eight step terms. -/
def G4 (c : Dev nD) : S2x1x1.Idx → EReal := fun i => ∑ k ∈ Finset.range 8, P4 m c (8 * (i 0).val + k)

/-- The window's block at step `t` is entry `t / 8`. -/
theorem idx4 : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)

/-- At a core's last step the output holds the core's total. -/
theorem total4 (c : Dev nD) (t : Fin cfg0.N) (h7 : t.val % 8 = 7) :
    ((outsAt0 m c t.val t.isLt).2.2) z3 = ∑ k ∈ Finset.range 8, P4 m c (8 * (t.val / 8) + k) :=
  Cert.LibAcc.acc_group (fun n h => ((outsAt0 m c n (lt16 h)).2.2) z3) (P4 m c) (s4_A m c) (s4_B m c) t.val
    (lt_of_lt_of_eq t.isLt (show cfg0.N = 16 from N_0)) h7

/-- What a core's last step writes back is its entry of `G4`. -/
theorem flushed4_eq (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  show (cfg0.win 4).cut (grid0.coords t) ((dats m 0 c).after 4 t) = _
  rw [after0_4]
  funext y
  show ((outsAt0 m c t.val t.isLt).2.2) y = G4 m c (((cfg0.win 4).blk t).view.emb y)
  rw [idx_z3 y, total4 m c t h7]
  unfold G4
  obtain ⟨e0, -, -⟩ := idx4 t
  have he : ((((cfg0.win 4).blk t).view.emb z3) 0).val = t.val / 8 := by
    show win0_4.index t (0 : Fin 3) * 1 + 1 * (z3 0).val = t.val / 8
    rw [e0]; show t.val / 8 * 1 + 1 * 0 = t.val / 8; omega
  rw [he]

theorem mem_blk4 (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v1_2).slice (win0_4.rect t)).set ↔ _
  rw [View.set_slice_whole, Rect.mem_set_unit]
  exact Iff.rfl

/-- Every entry of the output array is written back by its core's last step. -/
theorem cover4 (i : S2x1x1.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 1 := (i 2).isLt
  have hlt : 8 * (i 0).val + 7 < cfg0.N := by rw [show cfg0.N = 16 from N_0]; omega
  refine ⟨⟨8 * (i 0).val + 7, hlt⟩, (flush0_4 _).mpr (by show (8 * (i 0).val + 7) % 8 = 7; omega), ?_⟩
  rw [mem_blk4]
  obtain ⟨e0, e1, e2⟩ := idx4 ⟨8 * (i 0).val + 7, hlt⟩
  have e0' : win0_4.index ⟨8 * (i 0).val + 7, hlt⟩ (0 : Fin 3) = (i 0).val := by rw [e0]; show (8 * (i 0).val + 7) / 8 = (i 0).val; omega
  intro a
  match a with
  | ⟨0, _⟩ => show win0_4.index ⟨8 * (i 0).val + 7, hlt⟩ (0 : Fin 3) * 1 ≤ (i 0).val ∧ (i 0).val < win0_4.index ⟨8 * (i 0).val + 7, hlt⟩ (0 : Fin 3) * 1 + 1; rw [e0']; omega
  | ⟨1, _⟩ => show win0_4.index ⟨8 * (i 0).val + 7, hlt⟩ (1 : Fin 3) * 1 ≤ (i 1).val ∧ (i 1).val < win0_4.index ⟨8 * (i 0).val + 7, hlt⟩ (1 : Fin 3) * 1 + 1; rw [e1]; omega
  | ⟨2, _⟩ => show win0_4.index ⟨8 * (i 0).val + 7, hlt⟩ (2 : Fin 3) * 1 ≤ (i 2).val ∧ (i 2).val < win0_4.index ⟨8 * (i 0).val + 7, hlt⟩ (2 : Fin 3) * 1 + 1; rw [e2]; omega

/-- The output array after the run. -/
theorem final4 (c : Dev nD) : (dats m 0 c).arrAt 4 cfg0.N = G4 m c :=
  (dats m 0 c).arrAt_eq_of_cover 4 (G4 m c) (flushed4_eq m c) (cover4)

end Cert.KernelIdeal.KFinal

end
-- ==== Proof.KBlocks.lean ====
/-
  The two staged arrays and their tiles, at the ideal instance. The first staged array is the inputs as launched, the
  second the targets recast to the inputs' shape (the one host line before the region). Step `t` of the grid reads
  batch block `t` of each, which is tile `t`; so the step terms are the tiles' partial sums.
-/
import proofs.«155610_j50379966382816_2_alg».proof.Proof.KFinal
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KBlocks

open Cert.KernelIdeal Cert.KernelIdeal.Gen Cert.KernelIdeal.KOut Cert.KernelIdeal.KChain Cert.KernelIdeal.KFinal Cert.Tile

variable (m : (ℓ : Loc nD τ sig) → Buf (Elt Ideal) ℓ)

/-- The inputs as launched. -/
abbrev X (c : Dev nD) : S64x2x256x512.Idx → EReal := m ((c : Thread nD τ).loc main_arg0)
/-- The targets as launched, recast to the inputs' shape. -/
abbrev T (c : Dev nD) : S64x2x256x512.Idx → EReal :=
  shapeCast S64x2x256x512 (m ((c : Thread nD τ).loc main_arg1)) shapeCasts_S1x64x2x256x512_S64x2x256x512

/-- The region finds the second staged array at the recast targets. -/
theorem V_main_v0 (c : Dev nD) : (V m c main_v0 : S64x2x256x512.Idx → EReal) = T m c := by
  show StableHlo.after hostOps0 (fun b => m (c, b)) (Proc.devRef .tc main_v0) = _
  after_results
  rfl

/-- Both input windows sit at batch block `t` at step `t`. -/
theorem idx0 : ∀ t : Fin cfg0.N, win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0)

/-- Step `t`'s block of the inputs is tile `t`. -/
theorem iblk0_eq (c : Dev nD) (t : Fin cfg0.N) (q : Fin 16) (hq : q.val = t.val) :
    (iblk m c 0 t : Vec Ideal S4x2x256x512 .f32) = tile (X m c) q := by
  obtain ⟨e0, e1, e2, e3, -⟩ := idx0 t
  funext y
  unfold iblk tile tileIdx
  rw [View.read_apply]
  show V m c main_arg0 _ = m ((c : Thread nD τ).loc main_arg0) _
  rw [V_main_arg0]
  refine congrArg _ (funext fun a => Fin.ext ?_)
  match a with
  | ⟨0, _⟩ => show win0_0.index t (0 : Fin 4) * 4 + 1 * (y 0).val = q.val * 4 + (y 0).val; rw [e0, hq]; omega
  | ⟨1, _⟩ => show win0_0.index t (1 : Fin 4) * 2 + 1 * (y 1).val = (y 1).val; rw [e1]; omega
  | ⟨2, _⟩ => show win0_0.index t (2 : Fin 4) * 256 + 1 * (y 2).val = (y 2).val; rw [e2]; omega
  | ⟨3, _⟩ => show win0_0.index t (3 : Fin 4) * 512 + 1 * (y 3).val = (y 3).val; rw [e3]; omega

/-- Step `t`'s block of the recast targets is tile `t`. -/
theorem iblk1_eq (c : Dev nD) (t : Fin cfg0.N) (q : Fin 16) (hq : q.val = t.val) :
    (iblk m c 1 t : Vec Ideal S4x2x256x512 .f32) = tile (T m c) q := by
  obtain ⟨-, -, -, -, e0, e1, e2, e3⟩ := idx0 t
  funext y
  unfold iblk tile tileIdx
  rw [View.read_apply]
  show V m c main_v0 _ = T m c _
  rw [V_main_v0]
  refine congrArg _ (funext fun a => Fin.ext ?_)
  match a with
  | ⟨0, _⟩ => show win0_1.index t (0 : Fin 4) * 4 + 1 * (y 0).val = q.val * 4 + (y 0).val; rw [e0, hq]; omega
  | ⟨1, _⟩ => show win0_1.index t (1 : Fin 4) * 2 + 1 * (y 1).val = (y 1).val; rw [e1]; omega
  | ⟨2, _⟩ => show win0_1.index t (2 : Fin 4) * 256 + 1 * (y 2).val = (y 2).val; rw [e2]; omega
  | ⟨3, _⟩ => show win0_1.index t (3 : Fin 4) * 512 + 1 * (y 3).val = (y 3).val; rw [e3]; omega

/-- The step terms are the tiles' partial sums. -/
theorem P2_eq (c : Dev nD) (q : Fin 16) : P2 m c q.val = bcePart (tile (X m c) q) (tile (T m c) q) :=
  (dif_pos q.isLt).trans (congrArg₂ (fun a b => k0_pay4 (F := Ideal) a b z3)
    (iblk0_eq m c ⟨q.val, lt16 q.isLt⟩ q rfl) (iblk1_eq m c ⟨q.val, lt16 q.isLt⟩ q rfl))
theorem P3_eq (c : Dev nD) (q : Fin 16) : P3 m c q.val = cutPart (tile (X m c) q) :=
  (dif_pos q.isLt).trans (congrArg (fun a => k0_pay5 (F := Ideal) a z3) (iblk0_eq m c ⟨q.val, lt16 q.isLt⟩ q rfl))
theorem P4_eq (c : Dev nD) (q : Fin 16) : P4 m c q.val = densePart (tile (X m c) q) :=
  (dif_pos q.isLt).trans (congrArg (fun a => dvec (F := Ideal) a z3) (iblk0_eq m c ⟨q.val, lt16 q.isLt⟩ q rfl))

end Cert.KernelIdeal.KBlocks

end
-- ==== Proof.KNumber.lean ====
/-
  The host's lines after the region, as a function of the three `[2, 1, 1]` output arrays, and its value as a number:
  the host sums each array over its two entries, divides the first total by the number of entries `2^24`, and combines
  `1 · (total₁ / 2^24) + 0.001 · total₂ + 1 · total₃`; an array whose entry `p` is core `p`'s total of eight step terms
  sums to the sum of all sixteen step terms.
-/
import proofs.«155610_j50379966382816_2_alg».proof.Proof.KFinal
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KNumber

open Cert.KernelIdeal Cert.KernelIdeal.Gen Cert.KernelIdeal.KOut Cert.KernelIdeal.KChain Cert.KernelIdeal.KFinal Cert.Tile

/-- The host's lines after the region applied to three output arrays. -/
def combine (A B C : FVec Ideal S2x1x1 .f32) : FVec Ideal S_ .f32 :=
  addf (addf (mulf (constant (F := Ideal) S_ .f32 0x3F800000#32)
      (Host.divf (F := Ideal) (Host.reduceAdd (F := Ideal) A (constant (F := Ideal) S_ .f32 0x00000000#32) reducesTo_S2x1x1_S_d0_1_2 h_S_) (constant (F := Ideal) S_ .f32 0x4B800000#32)))
      (mulf (constant (F := Ideal) S_ .f32 0x3A83126F#32)
        (Host.reduceAdd (F := Ideal) B (constant (F := Ideal) S_ .f32 0x00000000#32) reducesTo_S2x1x1_S_d0_1_2 h_S_)))
    (mulf (constant (F := Ideal) S_ .f32 0x3F800000#32)
      (Host.reduceAdd (F := Ideal) C (constant (F := Ideal) S_ .f32 0x00000000#32) reducesTo_S2x1x1_S_d0_1_2 h_S_))

/-- The host's sum of a `[2, 1, 1]` array, as a number. -/
def total (A : FVec Ideal S2x1x1 .f32) : EReal :=
  Host.reduceAdd (F := Ideal) A (constant (F := Ideal) S_ .f32 0x00000000#32) reducesTo_S2x1x1_S_d0_1_2 h_S_ ix0

theorem combine_apply (A B C : FVec Ideal S2x1x1 .f32) : combine A B C ix0
    = Ideal.ofBits .f32 0x3F800000#32 * Ideal.div (total A) (Ideal.ofBits .f32 0x4B800000#32)
      + Ideal.ofBits .f32 0x3A83126F#32 * total B + Ideal.ofBits .f32 0x3F800000#32 * total C := rfl

/-- A `[2, 1, 1]` array's index is its first coordinate. -/
def e21 : S2x1x1.Idx ≃ Fin 2 where
  toFun i := i 0
  invFun p := ix3 (n0 := 2) (n1 := 1) (n2 := 1) p 0 0
  left_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv p := rfl

theorem sum21 (G : S2x1x1.Idx → EReal) : ∑ i : S2x1x1.Idx, G i = ∑ p : Fin 2, G (ix3 (n0 := 2) (n1 := 1) (n2 := 1) p 0 0) :=
  (Equiv.sum_comp e21.symm G).symm

/-- The host's sum of an output array whose entries are the cores' totals is the sum of the sixteen step terms. -/
theorem total_eq (P : ℕ → EReal) (G : FVec Ideal S2x1x1 .f32) (hG : ∀ i, G i = ∑ k ∈ Finset.range 8, P (8 * (i 0).val + k)) :
    total G = ∑ q : Fin 16, P q.val := by
  show Ideal.hostReduceAdd reducesTo_S2x1x1_S_d0_1_2 G (Ideal.ofBits .f32 0x00000000#32) ix0 = _
  rw [Ideal.hostReduceAdd_total reducesTo_S2x1x1_S_d0_1_2 (fun b => b.elim0), Ideal.ofBits_zero_f32, zero_add, sum21]
  rw [← Cert.LibAcc.groups_total P]
  exact Finset.sum_congr rfl fun p _ => hG _

end Cert.KernelIdeal.KNumber

end
-- ==== Proof.KTail.lean ====
/-
  The kernel's program read whole, at the ideal instance: every weakly fair execution ends with the result at the host's
  combination of the three output arrays, whose entries are the cores' totals, and the arguments unchanged; as a number the
  result is `1 · (Σ bce / 2^24) + 0.001 · Σ cuts + 1 · Σ dense`, the sums over the sixteen tiles of the tiles' partial sums.
-/
import proofs.«155610_j50379966382816_2_alg».proof.Proof.KBlocks
import proofs.«155610_j50379966382816_2_alg».proof.Proof.KNumber
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KTail

open Cert.KernelIdeal Cert.KernelIdeal.Gen Cert.KernelIdeal.KOut Cert.KernelIdeal.KChain Cert.KernelIdeal.KFinal Cert.Tile Cert.KernelIdeal.KBlocks Cert.KernelIdeal.KNumber

variable (m : (ℓ : Loc nD τ sig) → Buf (Elt Ideal) ℓ) (ρ : Dev nD → PrngReg)

/-- The program's result as the host computes it from the three output arrays. -/
def kres (c : Dev nD) : Buf (Elt Ideal) ((c.tc : Thread nD τ).loc main_v10) := combine (G2 m c) (G3 m c) (G4 m c)

/-- The lines after the region, run on the three output arrays, give `kres`. -/
theorem tail_eq (c : Dev nD) :
    Pipeline.afterTail₀ cfgs (dats m) 0 (V0 m) [hostOps1] c main_v10 = kres m c := by
  unfold Pipeline.afterTail₀
  show StableHlo.after hostOps1 _ (Proc.devRef .tc main_v10) = _
  after_results
  rw [Pipeline.withArrays_arr spec0 launch0.win.arr_inj c _ _ 2, Pipeline.withArrays_arr spec0 launch0.win.arr_inj c _ _ 3,
    Pipeline.withArrays_arr spec0 launch0.win.arr_inj c _ _ 4, final2, final3, final4]
  rfl

/-- The run, read: the result at `kres`, the arguments unchanged. -/
theorem run : θ_run defs (onTc (τ := τ) (main (F := Ideal))) ⟨m, fun _ => 0, ρ⟩ fun r => ∀ c : Dev nD,
      r.2.mem ((c.tc : Thread nD τ).loc main_v10) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v10 (Pipeline.mem_restRefs_of main_v10 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

/-- The kernel's result as a number. -/
theorem kres_apply (c : Dev nD) : kres m c ix0
    = Ideal.ofBits .f32 0x3F800000#32 * Ideal.div (∑ q : Fin 16, bcePart (tile (X m c) q) (tile (T m c) q)) (Ideal.ofBits .f32 0x4B800000#32)
      + Ideal.ofBits .f32 0x3A83126F#32 * (∑ q : Fin 16, cutPart (tile (X m c) q))
      + Ideal.ofBits .f32 0x3F800000#32 * (∑ q : Fin 16, densePart (tile (X m c) q)) := by
  have t2 : total (G2 m c) = ∑ q : Fin 16, bcePart (tile (X m c) q) (tile (T m c) q) :=
    (total_eq (P2 m c) (G2 m c) (fun _ => rfl)).trans (Finset.sum_congr rfl fun q _ => P2_eq m c q)
  have t3 : total (G3 m c) = ∑ q : Fin 16, cutPart (tile (X m c) q) :=
    (total_eq (P3 m c) (G3 m c) (fun _ => rfl)).trans (Finset.sum_congr rfl fun q _ => P3_eq m c q)
  have t4 : total (G4 m c) = ∑ q : Fin 16, densePart (tile (X m c) q) :=
    (total_eq (P4 m c) (G4 m c) (fun _ => rfl)).trans (Finset.sum_congr rfl fun q _ => P4_eq m c q)
  rw [← t2, ← t3, ← t4]
  exact combine_apply (G2 m c) (G3 m c) (G4 m c)

end Cert.KernelIdeal.KTail

end
-- ==== Proof.LibRetile.lean ====
/-
  A sum over 64 places taken sixteen groups of four at a time (no program in sight).
-/
import Idealize.ShloMosaic.PureOps.Ideal

namespace Cert.LibRetile

open scoped BigOperators

/-- Summing over the groups `q < 16` and inside each group over `b < 4` the value at place `4q + b` is summing over all
    64 places. -/
theorem sum_tiles {M : Type*} [AddCommMonoid M] (f : Fin 64 → M) :
    ∑ q : Fin 16, ∑ b : Fin 4, f ⟨q.val * 4 + b.val, by have := q.isLt; have := b.isLt; omega⟩ = ∑ B : Fin 64, f B := by
  rw [← Fintype.sum_prod_type' (f := fun (q : Fin 16) (b : Fin 4) => f ⟨q.val * 4 + b.val, by have := q.isLt; have := b.isLt; omega⟩)]
  refine Fintype.sum_equiv (finProdFinEquiv (m := 16) (n := 4)) _ _ (fun p => ?_)
  refine congrArg f (Fin.ext ?_)
  simp [finProdFinEquiv]
  omega

end Cert.LibRetile
-- ==== Proof.BceReal.lean ====
/-
  The cross-entropy term on the reals. For a real `x` strictly between 0 and 1 and a real `t`, both logarithms are
  real, the kernel's arrangement `0 − (log1p(0 − x) + t·(log x − log1p(0 − x)))` is minus the reference's
  `t·log x + (1 − t)·log1p(−x)`, and a finite sum of real terms can be negated term by term.
-/
import Idealize.ShloMosaic.PureOps.Ideal.Laws

noncomputable section

open scoped BigOperators

namespace Cert.Bce

open Idealize.ShloMosaic

/-- One term of the kernel's sum, as the kernel arranges it. -/
def kterm (x t : EReal) : EReal := 0 - (Ideal.log1p (0 - x) + t * (Ideal.log x - Ideal.log1p (0 - x)))

/-- One term of the reference's sum. -/
def rterm (x t : EReal) : EReal := t * Ideal.log x + (1 - t) * Ideal.log1p (-x)

/-- The logarithm of a positive real is the real logarithm. -/
theorem log_pos_real (r : ℝ) (h : 0 < r) : Ideal.log (r : EReal) = ((Real.log r : ℝ) : EReal) := by
  rw [Ideal.log_coe, if_neg (not_le.mpr h)]

/-- `log1p (−x)` of a real `x < 1` is the real logarithm of `1 − x`. -/
theorem log1p_neg_real (r : ℝ) (h : r < 1) : Ideal.log1p (-(r : EReal)) = ((Real.log (1 - r) : ℝ) : EReal) := by
  have e : (1 : EReal) + -(r : EReal) = ((1 - r : ℝ) : EReal) := by
    rw [EReal.coe_sub, EReal.coe_one, sub_eq_add_neg]
  unfold Ideal.log1p
  rw [e, log_pos_real _ (by linarith)]

/-- The reference's term at reals is real. -/
theorem rterm_real (r s : ℝ) (h0 : 0 < r) (h1 : r < 1) :
    rterm (r : EReal) (s : EReal) = ((s * Real.log r + (1 - s) * Real.log (1 - r) : ℝ) : EReal) := by
  have e : (1 : EReal) - (s : EReal) = ((1 - s : ℝ) : EReal) := by
    rw [EReal.coe_sub, EReal.coe_one]
  unfold rterm
  rw [log_pos_real r h0, log1p_neg_real r h1, e, ← EReal.coe_mul, ← EReal.coe_mul, ← EReal.coe_add]

/-- The kernel's term at reals is minus the reference's. -/
theorem kterm_real (r s : ℝ) (h0 : 0 < r) (h1 : r < 1) :
    kterm (r : EReal) (s : EReal) = ((-(s * Real.log r + (1 - s) * Real.log (1 - r)) : ℝ) : EReal) := by
  have e : (0 : EReal) - (r : EReal) = -(r : EReal) := zero_sub _
  unfold kterm
  rw [e, log_pos_real r h0, log1p_neg_real r h1, ← EReal.coe_sub, ← EReal.coe_mul, ← EReal.coe_add, zero_sub,
    ← EReal.coe_neg]
  congr 1
  ring

/-- The coercion of the reals into the extended reals goes through a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- If every term of one finite sum is a real and the matching term of another is its negative, the first sum is minus
    the second (taken from the initial value 0). -/
theorem sum_eq_neg_sum {ι : Type*} [Fintype ι] (k g : ι → EReal) (f : ι → ℝ)
    (hk : ∀ i, k i = ((-(f i) : ℝ) : EReal)) (hg : ∀ i, g i = ((f i : ℝ) : EReal)) :
    ∑ i, k i = -(0 + ∑ i, g i) := by
  rw [zero_add, Finset.sum_congr rfl (fun i _ => hk i), Finset.sum_congr rfl (fun i _ => hg i), ← coe_sum, ← coe_sum,
    ← EReal.coe_neg, Finset.sum_neg_distrib]

/-- The two terms at a real `x` strictly between 0 and 1 and a real `t`, through one real number. -/
theorem terms_real (x t : EReal) (hx : ∃ r : ℝ, x = (r : EReal) ∧ 0 < r ∧ r < 1) (ht : ∃ r : ℝ, t = (r : EReal)) :
    ∃ f : ℝ, kterm x t = ((-f : ℝ) : EReal) ∧ rterm x t = ((f : ℝ) : EReal) := by
  obtain ⟨r, rfl, h0, h1⟩ := hx
  obtain ⟨s, rfl⟩ := ht
  exact ⟨_, kterm_real r s h0 h1, rterm_real r s h0 h1⟩

/-- So over any finite index set, with such `x` and `t` at every index, the kernel's sum is minus the reference's. -/
theorem sum_kterm_eq_neg {ι : Type*} [Fintype ι] (x t : ι → EReal)
    (hx : ∀ i, ∃ r : ℝ, x i = (r : EReal) ∧ 0 < r ∧ r < 1) (ht : ∀ i, ∃ r : ℝ, t i = (r : EReal)) :
    ∑ i, kterm (x i) (t i) = -(0 + ∑ i, rterm (x i) (t i)) := by
  choose f hf using fun i => terms_real (x i) (t i) (hx i) (ht i)
  exact sum_eq_neg_sum _ _ f (fun i => (hf i).1) (fun i => (hf i).2)

end Cert.Bce

end
-- ==== Proof.BceKernel.lean ====
/-
  The kernel's side of the cross-entropy term: the per-tile partial sum is the sum, over the tile's four coordinates, of
  `0 − (log1p(0 − x) + t·(log x − log1p(0 − x)))`. The kernel sums the last axis, then the third, the second and the
  first, putting the summed axis back as a unit axis after each sum; read at an index each sum over one axis is a sum
  over that axis's coordinate and each change of shape keeps the row-major position.
-/
import proofs.«155610_j50379966382816_2_alg».proof.Proof.Tile
import proofs.«155610_j50379966382816_2_alg».proof.Proof.BceReal
import Idealize.ShloMosaic.Lib.Pipeline.Value
import Idealize.ShloMosaic.PureOps.Ideal.Laws

noncomputable section

open scoped BigOperators

namespace Cert.Bce

open Idealize.ShloMosaic Idealize.ShloMosaic.ValueIdx Cert.Tile Cert.KernelIdeal Cert.KernelIdeal.Gen

/-! ## The four sums, each over one axis -/

/-- The sum over the last axis, at `(b, c, h)`. -/
theorem red3_apply (src : FVec Ideal S4x2x256x512 .f32) (b : Fin 4) (c : Fin 2) (h : Fin 256) :
    multiReduction .add [3] S4x2x256 src 0x00000000#32 reduces_S4x2x256x512_S4x2x256 (.inl rfl) rfl (ix3 b c h)
      = ∑ w : Fin 512, src (ix4 b c h w) := by
  refine (Ideal.multiReduction_add_single src 0x00000000#32 reduces_S4x2x256x512_S4x2x256 (.inl rfl) rfl (ix3 b c h)).trans ?_
  refine Finset.sum_congr rfl fun w _ => congrArg src ?_
  funext a
  match a with
  | ⟨0, _⟩ => exact Fin.ext rfl
  | ⟨1, _⟩ => exact Fin.ext rfl
  | ⟨2, _⟩ => exact Fin.ext rfl
  | ⟨3, _⟩ => exact Fin.ext rfl

/-- The sum over the third axis of a `[4, 2, 256, 1]` array, at `(b, c, 0)`. -/
theorem red2_apply (src : FVec Ideal S4x2x256x1 .f32) (b : Fin 4) (c : Fin 2) :
    multiReduction .add [2] S4x2x1 src 0x00000000#32 reduces_S4x2x256x1_S4x2x1 (.inl rfl) rfl (ix3 b c 0)
      = ∑ h : Fin 256, src (ix4 b c h 0) := by
  refine (Ideal.multiReduction_add_single src 0x00000000#32 reduces_S4x2x256x1_S4x2x1 (.inl rfl) rfl (ix3 b c 0)).trans ?_
  refine Finset.sum_congr rfl fun h _ => congrArg src ?_
  funext a
  match a with
  | ⟨0, _⟩ => exact Fin.ext rfl
  | ⟨1, _⟩ => exact Fin.ext rfl
  | ⟨2, _⟩ => exact Fin.ext rfl
  | ⟨3, _⟩ => exact Fin.ext rfl

/-- The sum over the second axis of a `[4, 2, 1, 1]` array, at `(b, 0, 0)`. -/
theorem red1_apply (src : FVec Ideal S4x2x1x1 .f32) (b : Fin 4) :
    multiReduction .add [1] S4x1x1 src 0x00000000#32 reduces_S4x2x1x1_S4x1x1 (.inl rfl) rfl (ix3 b 0 0)
      = ∑ c : Fin 2, src (ix4 b c 0 0) := by
  refine (Ideal.multiReduction_add_single src 0x00000000#32 reduces_S4x2x1x1_S4x1x1 (.inl rfl) rfl (ix3 b 0 0)).trans ?_
  refine Finset.sum_congr rfl fun c _ => congrArg src ?_
  funext a
  match a with
  | ⟨0, _⟩ => exact Fin.ext rfl
  | ⟨1, _⟩ => exact Fin.ext rfl
  | ⟨2, _⟩ => exact Fin.ext rfl
  | ⟨3, _⟩ => exact Fin.ext rfl

/-- The sum over the first axis of a `[4, 1, 1, 1]` array, at `(0, 0, 0)`. -/
theorem red0_apply (src : FVec Ideal S4x1x1x1 .f32) :
    multiReduction .add [0] S1x1x1 src 0x00000000#32 reduces_S4x1x1x1_S1x1x1 (.inl rfl) rfl (ix3 0 0 0)
      = ∑ b : Fin 4, src (ix4 b 0 0 0) := by
  refine (Ideal.multiReduction_add_single src 0x00000000#32 reduces_S4x1x1x1_S1x1x1 (.inl rfl) rfl (ix3 0 0 0)).trans ?_
  refine Finset.sum_congr rfl fun b _ => congrArg src ?_
  funext a
  match a with
  | ⟨0, _⟩ => exact Fin.ext rfl
  | ⟨1, _⟩ => exact Fin.ext rfl
  | ⟨2, _⟩ => exact Fin.ext rfl
  | ⟨3, _⟩ => exact Fin.ext rfl

/-! ## The changes of shape between them: a unit axis appended, or dropped -/

/-- `[4, 2, 256] → [4, 2, 256, 1]` at `(b, c, h, 0)`. -/
theorem cast3_apply (src : FVec Ideal S4x2x256 .f32) (b : Fin 4) (c : Fin 2) (h : Fin 256) :
    shapeCast S4x2x256x1 src shapeCasts_S4x2x256_S4x2x256x1 (ix4 b c h 0) = src (ix3 b c h) :=
  shapeCast_apply src shapeCasts_S4x2x256_S4x2x256x1 (ix4 b c h 0) (ix3 b c h)
    (by rewrite [Shape.rowMajor_val_three, Shape.rowMajor_val_four]; show ((b.val * 2 + c.val) * 256 + h.val) = (((b.val * 2 + c.val) * 256 + h.val) * 1 + 0); omega)

/-- `[4, 2, 1] → [4, 2, 1, 1]` at `(b, c, 0, 0)`. -/
theorem cast2_apply (src : FVec Ideal S4x2x1 .f32) (b : Fin 4) (c : Fin 2) :
    shapeCast S4x2x1x1 src shapeCasts_S4x2x1_S4x2x1x1 (ix4 b c 0 0) = src (ix3 b c 0) :=
  shapeCast_apply src shapeCasts_S4x2x1_S4x2x1x1 (ix4 b c 0 0) (ix3 b c 0)
    (by rewrite [Shape.rowMajor_val_three, Shape.rowMajor_val_four]; show ((b.val * 2 + c.val) * 1 + 0) = (((b.val * 2 + c.val) * 1 + 0) * 1 + 0); omega)

/-- `[4, 1, 1] → [4, 1, 1, 1]` at `(b, 0, 0, 0)`. -/
theorem cast1_apply (src : FVec Ideal S4x1x1 .f32) (b : Fin 4) :
    shapeCast S4x1x1x1 src shapeCasts_S4x1x1_S4x1x1x1 (ix4 b 0 0 0) = src (ix3 b 0 0) :=
  shapeCast_apply src shapeCasts_S4x1x1_S4x1x1x1 (ix4 b 0 0 0) (ix3 b 0 0)
    (by rewrite [Shape.rowMajor_val_three, Shape.rowMajor_val_four]; show ((b.val * 1 + 0) * 1 + 0) = (((b.val * 1 + 0) * 1 + 0) * 1 + 0); omega)

/-- `[1, 1, 1] → [1, 1, 1, 1]` at its one index. -/
theorem cast0_apply (src : FVec Ideal S1x1x1 .f32) :
    shapeCast S1x1x1x1 src shapeCasts_S1x1x1_S1x1x1x1 (ix4 0 0 0 0) = src (ix3 0 0 0) :=
  shapeCast_apply src shapeCasts_S1x1x1_S1x1x1x1 (ix4 0 0 0 0) (ix3 0 0 0)
    (by rewrite [Shape.rowMajor_val_three, Shape.rowMajor_val_four]; rfl)

/-- `[1, 1, 1, 1] → [1, 1, 1]` at its one index. -/
theorem castBack_apply (src : FVec Ideal S1x1x1x1 .f32) :
    shapeCast S1x1x1 src shapeCasts_S1x1x1x1_S1x1x1 (ix3 0 0 0) = src (ix4 0 0 0 0) :=
  shapeCast_apply src shapeCasts_S1x1x1x1_S1x1x1 (ix3 0 0 0) (ix4 0 0 0 0)
    (by rewrite [Shape.rowMajor_val_three, Shape.rowMajor_val_four]; rfl)

/-- A change of shape to the same shape reads the same index. -/
theorem castSame_apply (src : FVec Ideal S4x2x256x512 .f32) (i : S4x2x256x512.Idx) :
    shapeCast S4x2x256x512 src shapeCasts_S4x2x256x512_S4x2x256x512 i = src i :=
  shapeCast_apply src shapeCasts_S4x2x256x512_S4x2x256x512 i i rfl

/-! ## The whole chain -/

/-- The kernel's chain of sums and changes of shape, applied to any `[4, 2, 256, 512]` array. -/
def chain (v : FVec Ideal S4x2x256x512 .f32) : FVec Ideal S1x1x1 .f32 :=
  shapeCast S1x1x1
    (shapeCast S1x1x1x1
      (multiReduction .add [0] S1x1x1
        (shapeCast S4x1x1x1
          (multiReduction .add [1] S4x1x1
            (shapeCast S4x2x1x1
              (multiReduction .add [2] S4x2x1
                (shapeCast S4x2x256x1
                  (multiReduction .add [3] S4x2x256 v 0x00000000#32 reduces_S4x2x256x512_S4x2x256 (.inl rfl) rfl)
                  shapeCasts_S4x2x256_S4x2x256x1)
                0x00000000#32 reduces_S4x2x256x1_S4x2x1 (.inl rfl) rfl)
              shapeCasts_S4x2x1_S4x2x1x1)
            0x00000000#32 reduces_S4x2x1x1_S4x1x1 (.inl rfl) rfl)
          shapeCasts_S4x1x1_S4x1x1x1)
        0x00000000#32 reduces_S4x1x1x1_S1x1x1 (.inl rfl) rfl)
      shapeCasts_S1x1x1_S1x1x1x1)
    shapeCasts_S1x1x1x1_S1x1x1

/-- The chain at its one index is the sum over the four coordinates. -/
theorem chain_apply (v : FVec Ideal S4x2x256x512 .f32) :
    chain v z3 = ∑ b : Fin 4, ∑ c : Fin 2, ∑ h : Fin 256, ∑ w : Fin 512, v (ix4 b c h w) := by
  unfold chain
  refine (castBack_apply _).trans ?_
  refine (cast0_apply _).trans ?_
  refine (red0_apply _).trans ?_
  refine Finset.sum_congr rfl fun b _ => ?_
  refine (cast1_apply _ b).trans ?_
  refine (red1_apply _ b).trans ?_
  refine Finset.sum_congr rfl fun c _ => ?_
  refine (cast2_apply _ b c).trans ?_
  refine (red2_apply _ b c).trans ?_
  refine Finset.sum_congr rfl fun h _ => ?_
  refine (cast3_apply _ b c h).trans ?_
  exact red3_apply _ b c h

/-- The array the kernel sums: `0 − (log1p(0 − x) + t·(log x − log1p(0 − x)))` entry by entry. -/
def body (x t : FVec Ideal S4x2x256x512 .f32) : FVec Ideal S4x2x256x512 .f32 :=
  subf (broadcast S4x2x256x512 (Scalar.ofBits (F := Ideal) .f32 0x00000000#32))
    (addf (log1p (subf (broadcast S4x2x256x512 (Scalar.ofBits (F := Ideal) .f32 0x00000000#32)) x))
      (mulf (shapeCast S4x2x256x512 t shapeCasts_S4x2x256x512_S4x2x256x512)
        (subf (log x) (log1p (subf (broadcast S4x2x256x512 (Scalar.ofBits (F := Ideal) .f32 0x00000000#32)) x)))))

/-- The kernel's partial sum is the chain applied to that array. -/
theorem pay4_eq (x t : FVec Ideal S4x2x256x512 .f32) : k0_pay4 (F := Ideal) x t = chain (body x t) := rfl

/-- That array at an index. -/
theorem body_apply (x t : FVec Ideal S4x2x256x512 .f32) (i : S4x2x256x512.Idx) :
    body x t i = kterm (x i) (t i) := by
  have hsc : shapeCast S4x2x256x512 t shapeCasts_S4x2x256x512_S4x2x256x512 = t := funext (castSame_apply t)
  unfold body
  rw [hsc]
  show Ideal.ofBits .f32 0x00000000#32
      - (Ideal.log1p (Ideal.ofBits .f32 0x00000000#32 - (x i : EReal))
        + (t i : EReal) * (Ideal.log (x i : EReal) - Ideal.log1p (Ideal.ofBits .f32 0x00000000#32 - (x i : EReal)))) = _
  rw [Ideal.ofBits_zero_f32]
  rfl

/-- THE KERNEL'S SIDE: the partial sum of one tile is the sum over the tile of the kernel's term. -/
theorem bcePart_eq (x t : Vec Ideal S4x2x256x512 .f32) :
    bcePart x t = ∑ b : Fin 4, ∑ c : Fin 2, ∑ h : Fin 256, ∑ w : Fin 512, kterm (x (ix4 b c h w)) (t (ix4 b c h w)) := by
  refine (congrFun (pay4_eq x t) z3).trans ?_
  refine (chain_apply _).trans ?_
  exact Finset.sum_congr rfl fun b _ => Finset.sum_congr rfl fun c _ => Finset.sum_congr rfl fun h _ =>
    Finset.sum_congr rfl fun w _ => body_apply x t _

end Cert.Bce

end
-- ==== Proof.BceRef.lean ====
/-
  The reference's side of the cross-entropy term: its one sum over the whole array is 0 plus the sum, over all indices,
  of `t·log x + (1 − t)·log1p(−x)`, where `t` is the target array reshaped to the input's shape; and a sum over the
  rank-4 index set is the iterated sum over the four coordinates.
-/
import proofs.«155610_j50379966382816_2_alg».proof.Proof.RefRead
import proofs.«155610_j50379966382816_2_alg».proof.Proof.BceReal
import Idealize.ShloMosaic.Lib.IdealHost
import Idealize.ShloMosaic.Lib.ValueIdx

noncomputable section

open scoped BigOperators

namespace Cert.Bce

open Idealize.ShloMosaic Idealize.ShloMosaic.ValueIdx Cert.ReferenceIdeal Cert.ReferenceIdeal.Read

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The reference's summand at an index is its term at the input and the reshaped target there. -/
theorem v8_apply (X : S64x2x256x512.Idx → EReal) (T5 : S1x64x2x256x512.Idx → EReal) (j : S64x2x256x512.Idx) :
    val_main_v8 (F := Ideal) X T5 j = rterm (X j) (val_main_v0 (F := Ideal) T5 j) := by
  have h3 : @Eq EReal (val_main_v3 (F := Ideal) j) 1 :=
    (val_main_v3_apply (F := Ideal) j).trans ((val_main_cst_apply (F := Ideal) _).trans Ideal.ofBits_one_f32)
  unfold rterm
  rw [← h3]
  rfl

/-- THE REFERENCE'S SIDE: the sum is 0 plus the sum of the terms over all indices. -/
theorem v9_eq (X : S64x2x256x512.Idx → EReal) (T5 : S1x64x2x256x512.Idx → EReal) :
    val_main_v9 (F := Ideal) X T5 ix0
      = 0 + ∑ j : S64x2x256x512.Idx, rterm (X j) (val_main_v0 (F := Ideal) T5 j) := by
  refine (val_main_v9_apply X T5 ix0).trans ?_
  refine congrArg₂ (· + ·) ((val_main_cst_0_apply (F := Ideal) _).trans Ideal.ofBits_zero_f32) ?_
  exact Finset.sum_congr rfl fun j _ => v8_apply X T5 j

/-- The reshaped target is real wherever the target is. -/
theorem v0_real (T5 : S1x64x2x256x512.Idx → EReal) (hT : ∀ i, ∃ r : ℝ, T5 i = (r : EReal)) (j : S64x2x256x512.Idx) :
    ∃ r : ℝ, val_main_v0 (F := Ideal) T5 j = (r : EReal) := by
  exact ⟨(hT (idx_main_v0 j)).choose, (val_main_v0_apply (F := Ideal) T5 j).trans (hT (idx_main_v0 j)).choose_spec⟩

end Cert.Bce

end
-- ==== Proof.Bce.lean ====
/-
  The cross-entropy term. The kernel's sixteen per-tile partial sums of
  `0 − (log1p(0 − x) + t·(log x − log1p(0 − x)))` add up to minus the reference's one sum of
  `t·log x + (1 − t)·log1p(−x)` over the whole array, when every `x` is a real strictly between 0 and 1 and every
  `t` is real: each tile's partial sum is a sum over the tile's coordinates, the sixteen tiles of four batches cover
  the 64 batches once each, and on such reals the kernel's term is minus the reference's, so the finite sums are
  negatives of each other.
-/
import proofs.«155610_j50379966382816_2_alg».proof.Proof.Tile
import proofs.«155610_j50379966382816_2_alg».proof.Proof.RefRead
import proofs.«155610_j50379966382816_2_alg».proof.Proof.LibRetile
import proofs.«155610_j50379966382816_2_alg».proof.Proof.BceReal
import proofs.«155610_j50379966382816_2_alg».proof.Proof.BceKernel
import proofs.«155610_j50379966382816_2_alg».proof.Proof.BceRef

noncomputable section

open scoped BigOperators

namespace Cert.Bce

open Idealize.ShloMosaic Idealize.ShloMosaic.ValueIdx Cert.Tile

/-- The sixteen partial sums together are the sum of the kernel's term over every index of the whole array. -/
theorem sum_tiles_kterm (X T : Cert.KernelIdeal.S64x2x256x512.Idx → EReal) :
    ∑ q : Fin 16, bcePart (tile X q) (tile T q) = ∑ j : Cert.KernelIdeal.S64x2x256x512.Idx, kterm (X j) (T j) := by
  refine Eq.trans ?_ (sum_idx4 (fun j => kterm (X j) (T j))).symm
  refine Eq.trans ?_ (Cert.LibRetile.sum_tiles
    (fun B : Fin 64 => ∑ c : Fin 2, ∑ h : Fin 256, ∑ w : Fin 512, kterm (X (ix4 B c h w)) (T (ix4 B c h w))))
  refine Finset.sum_congr rfl fun q _ => ?_
  refine (bcePart_eq _ _).trans ?_
  refine Finset.sum_congr rfl fun b _ => Finset.sum_congr rfl fun c _ => Finset.sum_congr rfl fun h _ =>
    Finset.sum_congr rfl fun w _ => ?_
  rfl

theorem bce_bridge (X : Cert.KernelIdeal.S64x2x256x512.Idx → EReal) (T5 : Cert.ReferenceIdeal.S1x64x2x256x512.Idx → EReal)
    (hX : ∀ i, ∃ r : ℝ, X i = (r : EReal) ∧ 0 < r ∧ r < 1) (hT : ∀ i, ∃ r : ℝ, T5 i = (r : EReal)) :
    ∑ q : Fin 16, bcePart (tile X q) (tile (Cert.ReferenceIdeal.Read.val_main_v0 (F := Ideal) T5) q)
      = - (Cert.ReferenceIdeal.Read.val_main_v9 (F := Ideal) X T5 ix0) := by
  refine (sum_tiles_kterm X (Cert.ReferenceIdeal.Read.val_main_v0 (F := Ideal) T5)).trans ?_
  refine Eq.trans ?_ (congrArg (fun y => -y) (v9_eq X T5)).symm
  exact sum_kterm_eq_neg X (Cert.ReferenceIdeal.Read.val_main_v0 (F := Ideal) T5) hX (v0_real T5 hT)

end Cert.Bce

end
-- ==== Proof.CutsInd.lean ====
/-
  The indicator of "above one half" at the ideal values.
-/
import Idealize.ShloMosaic.PureOps.Ideal

noncomputable section

namespace Cert.Cuts

open Idealize.ShloMosaic

/-- The indicator of "above one half" as an extended real: the comparison's one-bit answer widened to 32 bits, read as a
    signed integer (0 or 1). -/
def ind (x : EReal) : EReal :=
  FloatOps.sitofp (F := Ideal) .f32
    ((FloatOps.cmpf (F := Ideal) (φ := .f32) .ogt x (FloatOps.ofBits (F := Ideal) .f32 0x3F000000#32)).setWidth 32)

/-- A one-bit word widened to 32 bits is 0 or 1. -/
theorem toNat_setWidth_bit_le_one (b : BitVec 1) : (b.setWidth 32).toNat ≤ 1 := by
  rcases BitVec.eq_zero_or_eq_one b with h | h <;> subst h <;> decide

end Cert.Cuts

end
-- ==== Proof.CutsKernel.lean ====
/-
  The kernel's count of cuts of one tile, read as a triple sum. The kernel takes channel 0 of the tile, compares every
  entry with one half, turns the answers into the floats 0 and 1, and adds them up along the columns, then the rows,
  then the four batches, re-shaping between the three sums. Read at the ideal values each sum is a finite sum of
  extended reals, so the whole is the sum over (batch, row, column) of the indicator of "entry above one half".
-/
import proofs.«155610_j50379966382816_2_alg».proof.Proof.Tile
import proofs.«155610_j50379966382816_2_alg».proof.Proof.CutsInd
import Idealize.ShloMosaic.Lib.Pipeline.Value
import Idealize.ShloMosaic.PureOps.Ideal.Laws

noncomputable section

namespace Cert.Cuts

open scoped BigOperators
open Idealize.ShloMosaic Idealize.ShloMosaic.ValueIdx Cert.Tile Cert.KernelIdeal Cert.KernelIdeal.Gen

/-- The sum along the columns, at (batch, row). -/
theorem sum_cols (v : FVec Ideal S4x256x512 .f32) (b : Fin 4) (h : Fin 256) :
    multiReduction .add [2] S4x256 v 0x00000000#32 reduces_S4x256x512_S4x256 (.inl rfl) rfl (ix2 b h)
      = ∑ w : Fin 512, v (ix3 b h w) := by
  refine (Ideal.multiReduction_add_single v 0x00000000#32 reduces_S4x256x512_S4x256 (.inl rfl) rfl (ix2 b h)).trans ?_
  refine Finset.sum_congr rfl fun w _ => congrArg v ?_
  funext c
  match c with
  | ⟨0, _⟩ => exact Fin.ext rfl
  | ⟨1, _⟩ => exact Fin.ext rfl
  | ⟨2, _⟩ => exact Fin.ext rfl

/-- The sum along the rows of the re-shaped column sums, at a batch. -/
theorem sum_rows (u : FVec Ideal S4x256 .f32) (b : Fin 4) :
    multiReduction .add [1] S4x1 (shapeCast S4x256x1 u shapeCasts_S4x256_S4x256x1) 0x00000000#32
        reduces_S4x256x1_S4x1 (.inl rfl) rfl (ix2 b 0)
      = ∑ h : Fin 256, u (ix2 b h) := by
  refine (Ideal.multiReduction_add_single _ 0x00000000#32 reduces_S4x256x1_S4x1 (.inl rfl) rfl (ix2 b 0)).trans ?_
  refine Finset.sum_congr rfl fun h _ => ?_
  refine shapeCast_apply u shapeCasts_S4x256_S4x256x1 _ (ix2 b h) ?_
  rewrite [Shape.rowMajor_val_two, Shape.rowMajor_val_three]
  show b.val * 256 + h.val = (b.val * 256 + h.val) * 1 + 0
  omega

/-- The sum over the four batches of the re-shaped row sums, re-shaped to the one-entry result. -/
theorem sum_batches (u : FVec Ideal S4x1 .f32) :
    shapeCast S1x1x1 (multiReduction .add [0] S1x1 (shapeCast S4x1x1 u shapeCasts_S4x1_S4x1x1) 0x00000000#32
        reduces_S4x1x1_S1x1 (.inl rfl) rfl) shapeCasts_S1x1_S1x1x1 z3
      = ∑ b : Fin 4, u (ix2 b 0) := by
  refine (shapeCast_apply _ shapeCasts_S1x1_S1x1x1 z3 (ix2 (n0 := 1) (n1 := 1) 0 0) ?_).trans ?_
  · rewrite [Shape.rowMajor_val_two, Shape.rowMajor_val_three]
    rfl
  refine (Ideal.multiReduction_add_single _ 0x00000000#32 reduces_S4x1x1_S1x1 (.inl rfl) rfl (ix2 0 0)).trans ?_
  refine Finset.sum_congr rfl fun b _ => ?_
  refine shapeCast_apply u shapeCasts_S4x1_S4x1x1 _ (ix2 b 0) ?_
  rewrite [Shape.rowMajor_val_two, Shape.rowMajor_val_three]
  show b.val * 1 + 0 = (b.val * 1 + 0) * 1 + 0
  omega

/-- Channel 0 of a tile with the channel axis dropped, at (batch, row, column). -/
theorem chan0_apply (x : Vec Ideal S4x2x256x512 .f32) (b : Fin 4) (h : Fin 256) (w : Fin 512) :
    shapeCast S4x256x512 (extractStridedSlice S4x1x256x512 ![0, 0, 0, 0] x slices_S4x2x256x512_o0_0_0_0_S4x1x256x512)
        shapeCasts_S4x1x256x512_S4x256x512 (ix3 b h w)
      = x (ix4 b 0 h w) := by
  refine (shapeCast_apply _ shapeCasts_S4x1x256x512_S4x256x512 (ix3 b h w) (ix4 (n1 := 1) b 0 h w) ?_).trans ?_
  · rewrite [Shape.rowMajor_val_four, Shape.rowMajor_val_three]
    show ((b.val * 1 + 0) * 256 + h.val) * 512 + w.val = (b.val * 256 + h.val) * 512 + w.val
    omega
  refine extractStridedSlice_apply ![0, 0, 0, 0] x slices_S4x2x256x512_o0_0_0_0_S4x1x256x512 _ (ix4 b 0 h w) fun a => ?_
  match a with
  | ⟨0, _⟩ => show b.val = 0 + b.val; omega
  | ⟨1, _⟩ => show 0 = 0 + 0; rfl
  | ⟨2, _⟩ => show h.val = 0 + h.val; omega
  | ⟨3, _⟩ => show w.val = 0 + w.val; omega

/-- The kernel's count of cuts of a tile: the sum over batch, row and column of the indicator at channel 0. -/
theorem cutPart_eq (x : Vec Ideal S4x2x256x512 .f32) :
    cutPart x = ∑ b : Fin 4, ∑ h : Fin 256, ∑ w : Fin 512, ind (x (ix4 b 0 h w)) := by
  unfold cutPart k0_pay5
  refine (sum_batches _).trans ?_
  refine Finset.sum_congr rfl fun b _ => ?_
  refine (sum_rows _ b).trans ?_
  refine Finset.sum_congr rfl fun h _ => ?_
  refine (sum_cols _ b h).trans ?_
  refine Finset.sum_congr rfl fun w _ => ?_
  show FloatOps.sitofp (F := Ideal) .f32
      ((FloatOps.cmpf (F := Ideal) (φ := .f32) .ogt
        (shapeCast S4x256x512 (extractStridedSlice S4x1x256x512 ![0, 0, 0, 0] x slices_S4x2x256x512_o0_0_0_0_S4x1x256x512)
          shapeCasts_S4x1x256x512_S4x256x512 (ix3 b h w))
        (FloatOps.ofBits (F := Ideal) .f32 0x3F000000#32)).setWidth 32) = _
  rw [chan0_apply]
  rfl

end Cert.Cuts

end
-- ==== Proof.CutsWords.lean ====
/-
  Sums of 32-bit words that are zeros and ones. Folding 32-bit addition over a finite family of words, from a starting
  word, gives the word of the sum of the natural-number values; when the start is zero, every word is 0 or 1 and there
  are fewer than 2^31 of them, the total read as a signed integer is that natural number, so converting the total to an
  extended real gives the sum of the converted words.
-/
import Idealize.ShloMosaic.PureOps.Ideal.Laws

namespace Cert.Cuts

open scoped BigOperators
open Idealize.ShloMosaic

/-- Folding 32-bit addition over a finite family is the word of the sum of the values. -/
theorem fold_addi_eq_ofNat {ι : Type*} (S : Finset ι) (c : BitVec 32) (x : ι → BitVec 32) :
    S.fold IntOp.addi c x = BitVec.ofNat 32 (c.toNat + ∑ i ∈ S, (x i).toNat) := by
  induction S using Finset.cons_induction with
  | empty =>
    apply BitVec.eq_of_toNat_eq
    simp [BitVec.toNat_ofNat]
  | cons a S ha ih =>
    rw [Finset.fold_cons, Finset.sum_cons, ih]
    apply BitVec.eq_of_toNat_eq
    simp only [IntOp.addi, BitVec.toNat_add, BitVec.toNat_ofNat]
    omega

/-- A natural number below 2^31 survives the trip through a 32-bit word read signed. -/
theorem toInt_ofNat_small (n : ℕ) (h : n < 2 ^ 31) : (BitVec.ofNat 32 n).toInt = (n : ℤ) := by
  rw [BitVec.toInt_eq_toNat_cond, BitVec.toNat_ofNat]
  have h1 : n % 2 ^ 32 = n := Nat.mod_eq_of_lt (by omega)
  rw [h1, if_pos (by omega)]

/-- A word whose value is at most one reads the same signed and unsigned. -/
theorem toInt_of_le_one (b : BitVec 32) (h : b.toNat ≤ 1) : b.toInt = (b.toNat : ℤ) := by
  rw [BitVec.toInt_eq_toNat_cond, if_pos (by omega)]

/-- The extended real of a finite sum of natural numbers is the sum of their extended reals. -/
theorem coe_nat_sum {ι : Type*} (S : Finset ι) (n : ι → ℕ) :
    ((((∑ i ∈ S, n i : ℕ) : ℤ) : ℝ) : EReal) = ∑ i ∈ S, ((((n i : ℕ) : ℤ) : ℝ) : EReal) := by
  induction S using Finset.cons_induction with
  | empty => simp
  | cons a S ha ih =>
    rw [Finset.sum_cons, Finset.sum_cons, ← ih]
    push_cast
    rfl

/-- Fewer than 2^31 words, each 0 or 1, added up from zero: the signed reading of their 32-bit total, as an extended
    real, is the sum of their signed readings as extended reals. -/
theorem coe_toInt_fold_words {ι : Type*} (S : Finset ι) (x : ι → BitVec 32) (hx : ∀ i, (x i).toNat ≤ 1)
    (hS : S.card < 2 ^ 31) :
    ((((S.fold IntOp.addi 0#32 x).toInt : ℤ) : ℝ) : EReal) = ∑ i ∈ S, ((((x i).toInt : ℤ) : ℝ) : EReal) := by
  have hle : ∑ i ∈ S, (x i).toNat ≤ S.card := by
    calc ∑ i ∈ S, (x i).toNat ≤ ∑ _i ∈ S, 1 := Finset.sum_le_sum fun i _ => hx i
      _ = S.card := by simp
  have h0 : (0#32 : BitVec 32).toNat + ∑ i ∈ S, (x i).toNat = ∑ i ∈ S, (x i).toNat := by simp
  rw [fold_addi_eq_ofNat, h0, toInt_ofNat_small _ (lt_of_le_of_lt hle hS), coe_nat_sum]
  exact Finset.sum_congr rfl fun i _ => by rw [toInt_of_le_one _ (hx i)]

end Cert.Cuts
-- ==== Proof.CutsIdx.lean ====
/-
  A rank-3 index set is the product of its three coordinate ranges: a sum over it is the triple sum over the
  coordinates, and it has as many elements as the product of the three extents.
-/
import Idealize.ShloMosaic.Lib.ValueIdx

namespace Cert.Cuts

open scoped BigOperators
open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates … -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- … and it has the product of the three extents as its number of elements. -/
theorem card_idx3 {n0 n1 n2 : Nat} :
    (Finset.univ : Finset (⟨3, ![n0, n1, n2]⟩ : Shape).Idx).card = n0 * (n1 * n2) := by
  rw [Finset.card_univ, Fintype.card_congr (idxEquiv3 (n0 := n0) (n1 := n1) (n2 := n2))]
  simp [Fintype.card_prod, Fintype.card_fin]

end Cert.Cuts
-- ==== Proof.CutsRef.lean ====
/-
  The reference's count of cuts, read as a triple sum. The reference takes channel 0 of the whole array, compares every
  entry with one half, widens the one-bit answers to 32-bit integers, adds all 2^23 of them as 32-bit integers from zero
  and converts the total to a float. The total of 2^23 zeros and ones cannot wrap, so at the ideal values the converted
  total is the sum over (batch, row, column) of the indicator of "entry above one half".
-/
import proofs.«155610_j50379966382816_2_alg».proof.Proof.RefRead
import proofs.«155610_j50379966382816_2_alg».proof.Proof.CutsInd
import proofs.«155610_j50379966382816_2_alg».proof.Proof.CutsWords
import proofs.«155610_j50379966382816_2_alg».proof.Proof.CutsIdx
import Idealize.ShloMosaic.PureOps.Reduce

noncomputable section

namespace Cert.Cuts

open scoped BigOperators
open Idealize.ShloMosaic Idealize.ShloMosaic.ValueIdx Cert.ReferenceIdeal Cert.ReferenceIdeal.Gen Cert.ReferenceIdeal.Read

/-- The 32-bit total, from zero, of a [64, 256, 512] array of zeros and ones, converted to an extended real, is the
    triple sum of the converted entries. -/
theorem total_words (y : IVec S64x256x512 32) (hy : ∀ i, (y i).toNat ≤ 1) :
    FloatOps.sitofp (F := Ideal) .f32
        (Host.reduce IntOp.addi y (val_main_c (F := Ideal)) reducesTo_S64x256x512_S_d0_1_2 h_S_ ix0)
      = ∑ B : Fin 64, ∑ h : Fin 256, ∑ w : Fin 512, FloatOps.sitofp (F := Ideal) .f32 (y (ix3 B h w)) := by
  rw [Host.reduce_eq_fold]
  have hf : (Finset.univ.filter fun i : S64x256x512.Idx => reducesTo_S64x256x512_S_d0_1_2.drop i = ix0) = Finset.univ :=
    Finset.filter_true_of_mem fun i _ => funext fun a => a.elim0
  rw [hf]
  show ((((Finset.univ.fold IntOp.addi 0#32 y).toInt : ℤ) : ℝ) : EReal) = _
  rw [coe_toInt_fold_words _ y hy (by rw [card_idx3]; norm_num), sum_idx3]
  rfl

/-- The place in the whole array that the reference's slice and re-shape read at (batch, row, column). -/
theorem chan0_idx (B : Fin 64) (h : Fin 256) (w : Fin 512) :
    idx_main_v12 (idx_main_v13 (ix3 B h w)) = ix4 B 0 h w := by
  have hB := B.isLt
  have hh := h.isLt
  have hw := w.isLt
  funext a
  match a with
  | ⟨0, _⟩ => exact Fin.ext (by show ((B.val * 256 + h.val) * 512 + w.val) / 131072 = B.val; omega)
  | ⟨1, _⟩ => exact Fin.ext rfl
  | ⟨2, _⟩ => exact Fin.ext (by show ((B.val * 256 + h.val) * 512 + w.val) / 512 % 256 = h.val; omega)
  | ⟨3, _⟩ => exact Fin.ext (by show ((B.val * 256 + h.val) * 512 + w.val) % 512 = w.val; omega)

/-- The reference's count of cuts: the sum over batch, row and column of the indicator at channel 0. -/
theorem ref_eq (X : S64x2x256x512.Idx → EReal) :
    val_main_v18 (F := Ideal) X ix0 = ∑ B : Fin 64, ∑ h : Fin 256, ∑ w : Fin 512, ind (X (ix4 B 0 h w)) := by
  unfold val_main_v18 val_main_v17
  refine (total_words (val_main_v16 (F := Ideal) X) fun i => ?_).trans ?_
  · rw [val_main_v16_apply]
    exact toNat_setWidth_bit_le_one _
  refine Finset.sum_congr rfl fun B _ => Finset.sum_congr rfl fun h _ => Finset.sum_congr rfl fun w _ => ?_
  rw [val_main_v16_apply, val_main_v15_apply, val_main_v13_apply, val_main_v12_apply, val_main_v14_apply,
    val_main_cst_2_apply, chan0_idx]
  rfl

end Cert.Cuts

end
-- ==== Proof.Cuts.lean ====
/-
  The count of cuts. The kernel adds, tile by tile, the indicators "channel-0 entry above one half" as ideal floats;
  the reference adds the same indicators as 32-bit integers over the whole array and converts the total. The two agree:
  each side is the sum of the indicator over every (batch, row, column) of channel 0, the kernel's taken sixteen groups
  of four batches at a time.
-/
import proofs.«155610_j50379966382816_2_alg».proof.Proof.Tile
import proofs.«155610_j50379966382816_2_alg».proof.Proof.RefRead
import proofs.«155610_j50379966382816_2_alg».proof.Proof.LibRetile
import proofs.«155610_j50379966382816_2_alg».proof.Proof.CutsKernel
import proofs.«155610_j50379966382816_2_alg».proof.Proof.CutsRef

noncomputable section

namespace Cert.Cuts

open scoped BigOperators
open Idealize.ShloMosaic Idealize.ShloMosaic.ValueIdx Cert.Tile

theorem cuts_bridge (X : Cert.KernelIdeal.S64x2x256x512.Idx → EReal) :
    ∑ q : Fin 16, cutPart (tile X q) = Cert.ReferenceIdeal.Read.val_main_v18 (F := Ideal) X ix0 := by
  refine Eq.trans ?_ (ref_eq X).symm
  have h1 : ∀ q : Fin 16, cutPart (tile X q)
      = ∑ b : Fin 4, (fun B : Fin 64 => ∑ h : Fin 256, ∑ w : Fin 512, ind (X (ix4 B 0 h w)))
          ⟨q.val * 4 + b.val, by have := q.isLt; have := b.isLt; omega⟩ :=
    fun q => (cutPart_eq (tile X q)).trans (Finset.sum_congr rfl fun b _ => rfl)
  rw [Finset.sum_congr rfl fun q _ => h1 q]
  exact Cert.LibRetile.sum_tiles (fun B : Fin 64 => ∑ h : Fin 256, ∑ w : Fin 512, ind (X (ix4 B 0 h w)))

end Cert.Cuts

end
-- ==== Proof.LibScan.lean ====
/-
  Running maxima of integer sequences, with no program in sight (no program in sight).
  `cmax a h` is the maximum of `a 0, …, a h`. Two ways of computing it over the first 256 places:
  eight doubling steps (each place takes the larger of itself and the place `2^k` before it, a place with no such
  neighbour taking the fill −1), and a left fold of `max` over a window of 256 places ending at `h` whose places before
  the start hold a lower bound of the sequence.
-/
import Idealize.ShloMosaic.PureOps.Ideal

namespace Cert.LibScan

/-- The maximum of `a 0, …, a h`. -/
def cmax (a : ℕ → ℤ) : ℕ → ℤ
  | 0 => a 0
  | n + 1 => max (cmax a n) (a (n + 1))

/-- One doubling step with stride `s`: place `h` takes the larger of itself and place `h − s`, or of itself and −1
    when there is no such place. -/
def hsStep (s : ℕ) (f : ℕ → ℤ) : ℕ → ℤ := fun h => max (f h) (if h < s then -1 else f (h - s))

/-- The maximum of `-1` and the `n` places `a h, a (h-1), …` ending at `h` (those that exist). -/
def wmax (a : ℕ → ℤ) : ℕ → ℕ → ℤ
  | 0, _ => -1
  | n + 1, h => max (wmax a n h) (if n ≤ h then a (h - n) else -1)

theorem neg_one_le_wmax (a : ℕ → ℤ) (n h : ℕ) : -1 ≤ wmax a n h := by
  induction n with
  | zero => exact le_refl _
  | succ n ih => exact le_max_of_le_left ih

/-- A window of `m + n` places splits into the `m` nearest places and the `n` places before them. -/
theorem wmax_add (a : ℕ → ℤ) (m n h : ℕ) :
    wmax a (m + n) h = max (wmax a m h) (if h < m then -1 else wmax a n (h - m)) := by
  induction n with
  | zero =>
    have h1 := neg_one_le_wmax a m h
    simp [wmax, h1]
  | succ n ih =>
    show max (wmax a (m + n) h) (if m + n ≤ h then a (h - (m + n)) else -1) = _
    rw [ih]
    by_cases hm : h < m
    · have h2 : ¬ (m + n ≤ h) := by omega
      simp [hm, h2, max_assoc]
    · have e : h - (m + n) = h - m - n := by omega
      simp only [hm, if_false, wmax]
      by_cases hn : n ≤ h - m
      · have h2 : m + n ≤ h := by omega
        simp [hn, h2, e, max_assoc]
      · have h2 : ¬ (m + n ≤ h) := by omega
        simp [hn, h2, max_assoc]

theorem wmax_one (a : ℕ → ℤ) (ha : ∀ j, -1 ≤ a j) : wmax a 1 = a := by
  funext h
  simp [wmax, ha h]

/-- A doubling step with stride `s` turns windows of `s` places into windows of `2 s` places. -/
theorem hsStep_wmax (a : ℕ → ℤ) (s : ℕ) : hsStep s (wmax a s) = wmax a (s + s) := by
  funext h
  rw [wmax_add]
  rfl

theorem wmax_succ_self (a : ℕ → ℤ) (ha : ∀ j, -1 ≤ a j) (h : ℕ) : wmax a (h + 1) h = cmax a h := by
  induction h with
  | zero => simp [wmax, cmax, ha 0]
  | succ h ih =>
    have e : h + 1 + 1 = 1 + (h + 1) := by omega
    rw [e, wmax_add, wmax_one a ha]
    simp [ih, cmax, max_comm]

theorem wmax_of_lt (a : ℕ → ℤ) (ha : ∀ j, -1 ≤ a j) (n h : ℕ) (hn : h < n) : wmax a n h = cmax a h := by
  have e : n = (h + 1) + (n - (h + 1)) := by omega
  rw [e, wmax_add, wmax_succ_self a ha]
  have h1 : -1 ≤ cmax a h := by rw [← wmax_succ_self a ha]; exact neg_one_le_wmax a _ _
  simp [h1]

/-- Eight doubling steps with strides 1, 2, …, 128 compute the running maximum on the first 256 places of a sequence
    bounded below by −1. -/
theorem hs_eq_cmax (a : ℕ → ℤ) (ha : ∀ j, -1 ≤ a j) (h : ℕ) (hh : h < 256) :
    hsStep 128 (hsStep 64 (hsStep 32 (hsStep 16 (hsStep 8 (hsStep 4 (hsStep 2 (hsStep 1 a))))))) h = cmax a h := by
  have e1 : hsStep 1 a = wmax a 2 := by
    conv_lhs => rw [← wmax_one a ha]
    exact hsStep_wmax a 1
  rw [e1, hsStep_wmax a 2, hsStep_wmax a 4, hsStep_wmax a 8, hsStep_wmax a 16, hsStep_wmax a 32,
    hsStep_wmax a 64, hsStep_wmax a 128]
  exact wmax_of_lt a ha _ h hh

/-- The window positions that fall before place 0 leave the lower bound unchanged. -/
theorem window_pre (a : ℕ → ℤ) (m0 : ℤ) (h : ℕ) (k : ℕ) (hk : k ≤ 255 - h) :
    (List.range k).foldl
      (fun r n => max r (if 255 ≤ h + n ∧ h + n - 255 < 256 then a (h + n - 255) else m0)) m0 = m0 := by
  induction k with
  | zero => rfl
  | succ k ih =>
    have h2 : ¬ (255 ≤ h + k) := by omega
    rw [List.range_succ, List.foldl_append, ih (by omega)]
    simp [h2]

/-- After the position holding place `j` the fold is the running maximum at `j`. -/
theorem window_upto (a : ℕ → ℤ) (m0 : ℤ) (hm : ∀ j, m0 ≤ a j) (h : ℕ) (hh : h < 256) (j : ℕ) (hj : j ≤ h) :
    (List.range (255 - h + j + 1)).foldl
      (fun r n => max r (if 255 ≤ h + n ∧ h + n - 255 < 256 then a (h + n - 255) else m0)) m0 = cmax a j := by
  induction j with
  | zero =>
    have h2 : 255 ≤ h + (255 - h) := by omega
    have h3 : h + (255 - h) - 255 = 0 := by omega
    rw [List.range_succ, List.foldl_append, window_pre a m0 h _ (le_refl _)]
    simp [h2, h3, cmax, hm 0]
  | succ j ih =>
    have h2 : 255 ≤ h + (255 - h + j + 1) := by omega
    have h3 : h + (255 - h + j + 1) - 255 = j + 1 := by omega
    have h4 : j + 1 < 256 := by omega
    have e : 255 - h + (j + 1) + 1 = (255 - h + j + 1) + 1 := by omega
    rw [e, List.range_succ, List.foldl_append, ih (by omega)]
    simp [h2, h3, h4, cmax]

/-- The left fold of `max` from a lower bound `m0` over the 256 window positions `n`, position `n` holding
    `a (h + n − 255)` when that place exists and `m0` otherwise, is the running maximum at `h`. -/
theorem window_eq_cmax (a : ℕ → ℤ) (m0 : ℤ) (hm : ∀ j, m0 ≤ a j) (h : ℕ) (hh : h < 256) :
    (List.range 256).foldl
      (fun r n => max r (if 255 ≤ h + n ∧ h + n - 255 < 256 then a (h + n - 255) else m0)) m0 = cmax a h := by
  have e : 255 - h + h + 1 = 256 := by omega
  have h1 := window_upto a m0 hm h hh h (le_refl _)
  rw [e] at h1
  exact h1

end Cert.LibScan
-- ==== Proof.DenseSpec.lean ====
/-
  The distance penalty of one column, stated with no program in sight. A column is the 256 channel-1 entries
  `col 0, …, col 255` of one batch and one lane. Row `h` is marked when its entry is above one half; `prevRow col h` is
  the nearest marked row strictly before `h` (−1 when there is none); row `h` contributes `1 / (h − prevRow)³` when it is
  marked, is not the last row, and its previous marked row exists and is not row 0 — and contributes 0 otherwise.
-/
import Idealize.ShloMosaic.PureOps.Ideal
import Idealize.ShloMosaic.Lib.ValueIdx
import proofs.«155610_j50379966382816_2_alg».proof.Proof.LibScan

noncomputable section

namespace Cert.DenseSpec

open Idealize.ShloMosaic Idealize.ShloMosaic.ValueIdx Cert.LibScan

/-- The one-bit answer to "is `x` above one half". -/
def above (x : EReal) : BitVec 1 := Ideal.cmp .ogt x (Ideal.ofBits .f32 0x3F000000#32)

/-- Row `h`'s number when it is marked, −1 when it is not. -/
def marked (col : ℕ → EReal) (h : ℕ) : ℤ := if above (col h) = 1#1 then (h : ℤ) else -1

/-- The nearest marked row strictly before `h`, or −1. -/
def prevRow (col : ℕ → EReal) (h : ℕ) : ℤ := if h = 0 then -1 else cmax (marked col) (h - 1)

/-- The distance from row `h` back to its previous marked row, as an extended real. -/
def dist (col : ℕ → EReal) (h : ℕ) : EReal := ((((h : ℤ) - prevRow col h : ℤ) : ℝ) : EReal)

/-- Row `h`'s contribution. -/
def term (col : ℕ → EReal) (h : ℕ) : EReal :=
  if above (col h) = 1#1 ∧ 0 < prevRow col h ∧ h < 255 then
    Ideal.div (Ideal.ofBits .f32 0x3F800000#32) (dist col h * dist col h * dist col h)
  else Ideal.ofBits .f32 0x00000000#32

/-- The channel-1 column at batch `b`, lane `w` of an array of `n` batches (places past row 255 hold 0). -/
def col {n : ℕ} (x : (⟨4, ![n, 2, 256, 512]⟩ : Shape).Idx → EReal) (b : Fin n) (w : Fin 512) : ℕ → EReal :=
  fun k => if hk : k < 256 then x (ix4 b (1 : Fin 2) ⟨k, hk⟩ w) else 0

end Cert.DenseSpec

end
-- ==== Proof.DenseKSum.lean ====
/-
  The three sums that close the distance penalty: a vector of shape [4, 256, 512] summed along its lanes, then its
  rows, then its batches (each sum from the accumulator 0, with a unit axis put back in between) is the triple sum of
  its entries.
-/
import proofs.«155610_j50379966382816_2_alg».proof.Proof.Tile
import Idealize.ShloMosaic.PureOps.Ideal.Laws
import Idealize.ShloMosaic.Lib.Pipeline.Value

noncomputable section

namespace Cert.DenseK

open Idealize.ShloMosaic Idealize.ShloMosaic.ValueIdx Cert.KernelIdeal Cert.KernelIdeal.Gen Cert.Tile

/-- The chain of sums and unit-axis casts, as a function of the summed vector. -/
def sumTail (v : FVec Ideal S4x256x512 .f32) : FVec Ideal S1x1x1 .f32 :=
  shapeCast S1x1x1
    (multiReduction .add [0] S1x1
      (shapeCast S4x1x1
        (multiReduction .add [1] S4x1
          (shapeCast S4x256x1
            (multiReduction .add [2] S4x256 v 0x00000000#32 reduces_S4x256x512_S4x256 (.inl rfl) rfl)
            shapeCasts_S4x256_S4x256x1)
          0x00000000#32 reduces_S4x256x1_S4x1 (.inl rfl) rfl)
        shapeCasts_S4x1_S4x1x1)
      0x00000000#32 reduces_S4x1x1_S1x1 (.inl rfl) rfl)
    shapeCasts_S1x1_S1x1x1

/-- The sum along the lanes, at `(b, h)`. -/
theorem red_w (v : FVec Ideal S4x256x512 .f32) (b : Fin 4) (h : Fin 256) :
    multiReduction .add [2] S4x256 v 0x00000000#32 reduces_S4x256x512_S4x256 (.inl rfl) rfl (ix2 b h)
      = ∑ w : Fin 512, v (ix3 b h w) := by
  refine (Ideal.multiReduction_add_single v 0x00000000#32 reduces_S4x256x512_S4x256 (.inl rfl) rfl (ix2 b h)).trans ?_
  refine Finset.sum_congr rfl fun w _ => congrArg v (funext fun a => ?_)
  match a with
  | ⟨0, _⟩ => rfl
  | ⟨1, _⟩ => rfl
  | ⟨2, _⟩ => rfl

/-- The sum along the rows, at `(b, 0)`. -/
theorem red_h (v : FVec Ideal S4x256x1 .f32) (b : Fin 4) :
    multiReduction .add [1] S4x1 v 0x00000000#32 reduces_S4x256x1_S4x1 (.inl rfl) rfl (ix2 b (0 : Fin 1))
      = ∑ h : Fin 256, v (ix3 b h (0 : Fin 1)) := by
  refine (Ideal.multiReduction_add_single v 0x00000000#32 reduces_S4x256x1_S4x1 (.inl rfl) rfl (ix2 b (0 : Fin 1))).trans ?_
  refine Finset.sum_congr rfl fun h _ => congrArg v (funext fun a => ?_)
  match a with
  | ⟨0, _⟩ => rfl
  | ⟨1, _⟩ => rfl
  | ⟨2, _⟩ => rfl

/-- The sum along the batches, at `(0, 0)`. -/
theorem red_b (v : FVec Ideal S4x1x1 .f32) :
    multiReduction .add [0] S1x1 v 0x00000000#32 reduces_S4x1x1_S1x1 (.inl rfl) rfl (ix2 (0 : Fin 1) (0 : Fin 1))
      = ∑ b : Fin 4, v (ix3 b (0 : Fin 1) (0 : Fin 1)) := by
  refine (Ideal.multiReduction_add_single v 0x00000000#32 reduces_S4x1x1_S1x1 (.inl rfl) rfl (ix2 (0 : Fin 1) (0 : Fin 1))).trans ?_
  refine Finset.sum_congr rfl fun b _ => congrArg v (funext fun a => ?_)
  match a with
  | ⟨0, _⟩ => rfl
  | ⟨1, _⟩ => rfl
  | ⟨2, _⟩ => rfl

/-- A unit axis put back after the lanes were summed. -/
theorem cast_hw (r : FVec Ideal S4x256 .f32) (b : Fin 4) (h : Fin 256) :
    shapeCast S4x256x1 r shapeCasts_S4x256_S4x256x1 (ix3 b h (0 : Fin 1)) = r (ix2 b h) :=
  shapeCast_apply r shapeCasts_S4x256_S4x256x1 (ix3 b h (0 : Fin 1)) (ix2 b h) (by
    rewrite [Shape.rowMajor_val_two, Shape.rowMajor_val_three]
    show b.val * 256 + h.val = (b.val * 256 + h.val) * 1 + 0
    omega)

/-- A unit axis put back after the rows were summed. -/
theorem cast_b (r : FVec Ideal S4x1 .f32) (b : Fin 4) :
    shapeCast S4x1x1 r shapeCasts_S4x1_S4x1x1 (ix3 b (0 : Fin 1) (0 : Fin 1)) = r (ix2 b (0 : Fin 1)) :=
  shapeCast_apply r shapeCasts_S4x1_S4x1x1 (ix3 b (0 : Fin 1) (0 : Fin 1)) (ix2 b (0 : Fin 1)) (by
    rewrite [Shape.rowMajor_val_two, Shape.rowMajor_val_three]
    show b.val * 1 + 0 = (b.val * 1 + 0) * 1 + 0
    omega)

/-- A unit axis put back after the batches were summed. -/
theorem cast_1 (r : FVec Ideal S1x1 .f32) :
    shapeCast S1x1x1 r shapeCasts_S1x1_S1x1x1 (ix3 (0 : Fin 1) (0 : Fin 1) (0 : Fin 1)) = r (ix2 (0 : Fin 1) (0 : Fin 1)) :=
  shapeCast_apply r shapeCasts_S1x1_S1x1x1 (ix3 (0 : Fin 1) (0 : Fin 1) (0 : Fin 1)) (ix2 (0 : Fin 1) (0 : Fin 1)) (by
    rewrite [Shape.rowMajor_val_two, Shape.rowMajor_val_three]
    show 0 * 1 + 0 = (0 * 1 + 0) * 1 + 0
    omega)

/-- The chain of sums is the triple sum over batches, rows and lanes. -/
theorem sumTail_eq (v : FVec Ideal S4x256x512 .f32) :
    sumTail v z3 = ∑ b : Fin 4, ∑ h : Fin 256, ∑ w : Fin 512, v (ix3 b h w) := by
  unfold sumTail
  refine (cast_1 _).trans ?_
  refine (red_b _).trans ?_
  refine Finset.sum_congr rfl fun b _ => ?_
  refine (cast_b _ b).trans ?_
  refine (red_h _ b).trans ?_
  refine Finset.sum_congr rfl fun h _ => ?_
  refine (cast_hw _ b h).trans ?_
  exact red_w v b h

end Cert.DenseK

end
-- ==== Proof.DenseKRows.lean ====
/-
  The vector of row numbers and a rotation along the rows, read at an index given by its coordinates.
-/
import proofs.«155610_j50379966382816_2_alg».proof.Proof.Tile
import Idealize.ShloMosaic.Lib.KernelVsHost

noncomputable section

namespace Cert.DenseK

open Idealize.ShloMosaic Idealize.ShloMosaic.ValueIdx Cert.KernelIdeal Cert.KernelIdeal.Gen Cert.Tile

/-- Entry `(b, h, w)` of the vector of row numbers is the word `h`. -/
theorem rows_apply (b : Fin 4) (h : Fin 256) (w : Fin 512) : rows (ix3 b h w) = BitVec.ofNat 32 h.val := by
  show BitVec.ofNat 32 (0 * 256 + h.val) = _
  rw [Nat.zero_mul, Nat.zero_add]

/-- A rotation along the rows by `sb` reads, at row `h`, row `h − sb` counted around the end. -/
theorem rot_apply (sb : BitVec 32) (v : IVec S4x256x512 32) (b : Fin 4) (h : Fin 256) (w : Fin 512) :
    dynamicRotate 1 sb none v rotates_S4x256x512_d1 (ix3 b h w)
      = v (ix3 b ⟨(h.val + 256 - sb.toNat % 256) % 256, Nat.mod_lt _ (by decide)⟩ w) :=
  dynamicRotate_apply 1 sb v rotates_S4x256x512_d1 _ _ (fun a => by
    match a with
    | ⟨0, _⟩ => rfl
    | ⟨1, _⟩ => rfl
    | ⟨2, _⟩ => rfl)

end Cert.DenseK

end
-- ==== Proof.DenseKWords.lean ====
/-
  Facts about 32-bit and one-bit words: the signed value of a small numeral, of the all-ones word, of a signed
  maximum and of a difference that cannot wrap; signed comparisons as comparisons of signed values; the conjunction
  of two one-bit words.
-/
import Idealize.ShloMosaic.PureOps.Ideal
import Idealize.ShloMosaic.Lib.ValueIdx

namespace Cert.DenseK

open Idealize.ShloMosaic Idealize.ShloMosaic.ValueIdx

/-- A numeral below `2^31`, as a 32-bit word, has itself as signed value. -/
theorem toInt_ofNat_small (n : ℕ) (hn : n < 2147483648) : (BitVec.ofNat 32 n).toInt = (n : ℤ) := by
  rw [BitVec.toInt_eq_toNat_cond, BitVec.toNat_ofNat]
  have h : n % 2 ^ 32 = n := Nat.mod_eq_of_lt (by omega)
  rw [h]
  split <;> omega

/-- The all-ones word is −1. -/
theorem toInt_allOnes : (4294967295#32 : BitVec 32).toInt = -1 := by decide

/-- The zero word is 0. -/
theorem toInt_zero32 : (0#32 : BitVec 32).toInt = 0 := by decide

/-- The signed maximum of two words has the larger signed value. -/
theorem maxsi_toInt (x y : BitVec 32) : (IntOp.maxsi x y).toInt = max x.toInt y.toInt := by
  unfold IntOp.maxsi
  by_cases h : y.toInt < x.toInt
  · rw [if_pos (by simpa [BitVec.slt] using h)]; omega
  · rw [if_neg (by simpa [BitVec.slt] using h)]; omega

/-- A select on a signed "less than" is the `if` on the signed values. -/
theorem select_slt {α : Type} (x y : BitVec 32) (a b : α) :
    Scalar.select (IntOp.cmpi .slt x y) a b = if x.toInt < y.toInt then a else b := by
  unfold Scalar.select IntOp.cmpi
  by_cases h : x.toInt < y.toInt
  · simp [BitVec.slt, h]
  · simp [BitVec.slt, h]

/-- A signed "less than" answers 1 exactly when the signed values compare so. -/
theorem cmpi_slt_eq_one (x y : BitVec 32) : IntOp.cmpi .slt x y = 1#1 ↔ x.toInt < y.toInt := by
  unfold IntOp.cmpi
  by_cases h : x.toInt < y.toInt
  · simp [BitVec.slt, h]
  · simp [BitVec.slt, h]

/-- A signed "greater than" answers 1 exactly when the signed values compare so. -/
theorem cmpi_sgt_eq_one (x y : BitVec 32) : IntOp.cmpi .sgt x y = 1#1 ↔ y.toInt < x.toInt := by
  unfold IntOp.cmpi
  by_cases h : y.toInt < x.toInt
  · simp [BitVec.slt, h]
  · simp [BitVec.slt, h]

/-- The conjunction of two one-bit words is 1 exactly when both are. -/
theorem andi_eq_one (a b : BitVec 1) : IntOp.andi a b = 1#1 ↔ a = 1#1 ∧ b = 1#1 := by
  unfold IntOp.andi
  rcases BitVec.eq_zero_or_eq_one a with ha | ha <;> rcases BitVec.eq_zero_or_eq_one b with hb | hb <;>
    subst ha <;> subst hb <;> decide

/-- A difference of two words whose signed values are small does not wrap. -/
theorem subi_toInt (x y : BitVec 32) (hx : 0 ≤ x.toInt ∧ x.toInt ≤ 255) (hy : -1 ≤ y.toInt ∧ y.toInt ≤ 255) :
    (IntOp.subi x y).toInt = x.toInt - y.toInt := by
  unfold IntOp.subi
  rw [BitVec.toInt_sub, Int.bmod_def]
  norm_num
  omega

end Cert.DenseK
-- ==== Proof.DenseKScan.lean ====
/-
  The eight doubling steps on vectors. One step replaces each entry by the signed maximum of itself and the entry
  `s` rows earlier in its column (−1 where there is no such row). Read column by column through signed values, a
  step is `hsStep s`; so the eight steps with strides 1, 2, …, 128 turn a vector whose columns are bounded below by −1
  into its column-wise running maximum.
-/
import proofs.«155610_j50379966382816_2_alg».proof.Proof.DenseKRows
import proofs.«155610_j50379966382816_2_alg».proof.Proof.DenseKWords
import proofs.«155610_j50379966382816_2_alg».proof.Proof.LibScan

noncomputable section

namespace Cert.DenseK

open Idealize.ShloMosaic Idealize.ShloMosaic.ValueIdx Cert.KernelIdeal Cert.KernelIdeal.Gen Cert.Tile Cert.LibScan

/-- One doubling step with stride `s`. -/
def stepV (s : BitVec 32) (v : IVec S4x256x512 32) : IVec S4x256x512 32 :=
  maxsi v (select (cmpi .slt rows (broadcast S4x256x512 s)) (broadcast S4x256x512 4294967295#32)
    (dynamicRotate 1 s none v rotates_S4x256x512_d1))

/-- A step read through signed values, column by column. -/
theorem stepV_toInt (s : ℕ) (hs : s ≤ 128) (v : IVec S4x256x512 32) (f : Fin 4 → Fin 512 → ℕ → ℤ)
    (hv : ∀ (b : Fin 4) (h : Fin 256) (w : Fin 512), (v (ix3 b h w)).toInt = f b w h.val)
    (b : Fin 4) (h : Fin 256) (w : Fin 512) :
    (stepV (BitVec.ofNat 32 s) v (ix3 b h w)).toInt = hsStep s (f b w) h.val := by
  have hlt : h.val < 256 := h.isLt
  show (IntOp.maxsi (v (ix3 b h w))
      (Scalar.select (IntOp.cmpi .slt (rows (ix3 b h w)) (BitVec.ofNat 32 s)) 4294967295#32
        (dynamicRotate 1 (BitVec.ofNat 32 s) none v rotates_S4x256x512_d1 (ix3 b h w)))).toInt = _
  rw [maxsi_toInt, select_slt, rows_apply, toInt_ofNat_small h.val (by omega), toInt_ofNat_small s (by omega), hv]
  unfold hsStep
  by_cases hc : h.val < s
  · rw [if_pos (by omega), if_pos hc, toInt_allOnes]
  · have hn : (BitVec.ofNat 32 s).toNat = s := by
      rw [BitVec.toNat_ofNat]
      exact Nat.mod_eq_of_lt (by have : (2 : ℕ) ^ 32 = 4294967296 := by norm_num
                                 omega)
    rw [if_neg (by omega), if_neg hc, rot_apply, hv]
    show max (f b w h.val) (f b w ((h.val + 256 - (BitVec.ofNat 32 s).toNat % 256) % 256))
      = max (f b w h.val) (f b w (h.val - s))
    have e : (h.val + 256 - s % 256) % 256 = h.val - s := by omega
    rw [hn, e]

/-- The eight steps compute the column-wise running maximum. -/
theorem scan_toInt (v : IVec S4x256x512 32) (a : Fin 4 → Fin 512 → ℕ → ℤ) (ha : ∀ b w j, -1 ≤ a b w j)
    (hv : ∀ (b : Fin 4) (h : Fin 256) (w : Fin 512), (v (ix3 b h w)).toInt = a b w h.val)
    (b : Fin 4) (h : Fin 256) (w : Fin 512) :
    (stepV 128#32 (stepV 64#32 (stepV 32#32 (stepV 16#32 (stepV 8#32 (stepV 4#32 (stepV 2#32 (stepV 1#32 v)))))))
      (ix3 b h w)).toInt = cmax (a b w) h.val := by
  rw [← hs_eq_cmax (a b w) (ha b w) h.val h.isLt]
  have h1 := stepV_toInt 1 (by omega) v a hv
  have h2 := stepV_toInt 2 (by omega) _ (fun b w => hsStep 1 (a b w)) h1
  have h4 := stepV_toInt 4 (by omega) _ (fun b w => hsStep 2 (hsStep 1 (a b w))) h2
  have h8 := stepV_toInt 8 (by omega) _ (fun b w => hsStep 4 (hsStep 2 (hsStep 1 (a b w)))) h4
  have h16 := stepV_toInt 16 (by omega) _ (fun b w => hsStep 8 (hsStep 4 (hsStep 2 (hsStep 1 (a b w))))) h8
  have h32 := stepV_toInt 32 (by omega) _ (fun b w => hsStep 16 (hsStep 8 (hsStep 4 (hsStep 2 (hsStep 1 (a b w)))))) h16
  have h64 := stepV_toInt 64 (by omega) _
    (fun b w => hsStep 32 (hsStep 16 (hsStep 8 (hsStep 4 (hsStep 2 (hsStep 1 (a b w))))))) h32
  exact stepV_toInt 128 (by omega) _
    (fun b w => hsStep 64 (hsStep 32 (hsStep 16 (hsStep 8 (hsStep 4 (hsStep 2 (hsStep 1 (a b w)))))))) h64 b h w

end Cert.DenseK

end
-- ==== Proof.DenseKTerm.lean ====
/-
  From the running maximum to the term. One more shift by a row gives the previous marked row; the kernel's
  condition (marked, previous marked row positive, not the last row) is the specification's; the difference of the row
  number and the previous marked row does not wrap, so its conversion is the specification's distance; and the selected
  value is the specification's term.
-/
import proofs.«155610_j50379966382816_2_alg».proof.Proof.DenseKRows
import proofs.«155610_j50379966382816_2_alg».proof.Proof.DenseKWords
import proofs.«155610_j50379966382816_2_alg».proof.Proof.DenseSpec

noncomputable section

namespace Cert.DenseK

open Idealize.ShloMosaic Idealize.ShloMosaic.ValueIdx Cert.KernelIdeal Cert.KernelIdeal.Gen Cert.Tile Cert.LibScan
  Cert.DenseSpec

/-- A marked row's value is its number or −1. -/
theorem marked_bounds (c : ℕ → EReal) (j : ℕ) : -1 ≤ marked c j ∧ marked c j ≤ (j : ℤ) := by
  unfold marked
  split <;> omega

/-- A running maximum of values between −1 and the place number lies between −1 and the place number. -/
theorem cmax_bounds (a : ℕ → ℤ) (ha : ∀ j, -1 ≤ a j ∧ a j ≤ (j : ℤ)) : ∀ n, -1 ≤ cmax a n ∧ cmax a n ≤ (n : ℤ)
  | 0 => by
    show -1 ≤ a 0 ∧ a 0 ≤ ((0 : ℕ) : ℤ)
    exact ha 0
  | n + 1 => by
    have ih := cmax_bounds a ha n
    have h1 := ha (n + 1)
    show -1 ≤ max (cmax a n) (a (n + 1)) ∧ max (cmax a n) (a (n + 1)) ≤ ((n + 1 : ℕ) : ℤ)
    refine ⟨le_max_of_le_left ih.1, max_le ?_ h1.2⟩
    have : ((n + 1 : ℕ) : ℤ) = (n : ℤ) + 1 := by push_cast; rfl
    omega

/-- The previous marked row lies between −1 and 255. -/
theorem prevRow_bounds (c : ℕ → EReal) (h : ℕ) (hh : h < 256) : -1 ≤ prevRow c h ∧ prevRow c h ≤ 255 := by
  unfold prevRow
  split
  · omega
  · have := cmax_bounds (marked c) (marked_bounds c) (h - 1)
    omega

/-- The mark vector: the row number where the condition bit is 1, −1 elsewhere. -/
theorem mark_toInt (v36 : IVec S4x256x512 1) (c : Fin 4 → Fin 512 → ℕ → EReal)
    (h36 : ∀ (b : Fin 4) (h : Fin 256) (w : Fin 512), v36 (ix3 b h w) = above (c b w h.val))
    (b : Fin 4) (h : Fin 256) (w : Fin 512) :
    (select v36 rows (broadcast S4x256x512 4294967295#32) (ix3 b h w)).toInt = marked (c b w) h.val := by
  have hlt : h.val < 256 := h.isLt
  show (Scalar.select (v36 (ix3 b h w)) (rows (ix3 b h w)) 4294967295#32).toInt = _
  rw [h36, rows_apply]
  unfold marked
  by_cases hm : above (c b w h.val) = 1#1
  · rw [if_pos hm, hm, select_one, toInt_ofNat_small h.val (by omega)]
  · rw [if_neg hm, eq_zero_of_ne_one hm, select_zero, toInt_allOnes]

/-- The shift by one row. -/
def prevV (v87 : IVec S4x256x512 32) : IVec S4x256x512 32 :=
  select (cmpi .slt rows (broadcast S4x256x512 1#32)) (broadcast S4x256x512 4294967295#32)
    (dynamicRotate 1 1#32 none v87 rotates_S4x256x512_d1)

/-- Shifted by one row, the running maximum of the marks is the previous marked row. -/
theorem prevV_toInt (v87 : IVec S4x256x512 32) (c : Fin 4 → Fin 512 → ℕ → EReal)
    (hv : ∀ (b : Fin 4) (h : Fin 256) (w : Fin 512), (v87 (ix3 b h w)).toInt = cmax (marked (c b w)) h.val)
    (b : Fin 4) (h : Fin 256) (w : Fin 512) :
    (prevV v87 (ix3 b h w)).toInt = prevRow (c b w) h.val := by
  have hlt : h.val < 256 := h.isLt
  show (Scalar.select (IntOp.cmpi .slt (rows (ix3 b h w)) (BitVec.ofNat 32 1)) 4294967295#32
      (dynamicRotate 1 (BitVec.ofNat 32 1) none v87 rotates_S4x256x512_d1 (ix3 b h w))).toInt = _
  rw [select_slt, rows_apply, toInt_ofNat_small h.val (by omega), toInt_ofNat_small 1 (by omega)]
  unfold prevRow
  by_cases h0 : h.val = 0
  · rw [if_pos (by omega), if_pos h0, toInt_allOnes]
  · rw [if_neg (by omega), if_neg h0, rot_apply, hv]
    congr 1
    show (h.val + 256 - (BitVec.ofNat 32 1).toNat % 256) % 256 = h.val - 1
    have hn : (BitVec.ofNat 32 1).toNat = 1 := by decide
    rw [hn]
    omega

/-- The selected term, as a function of the condition bits and the previous marked rows. -/
def termV (v36 : IVec S4x256x512 1) (v92 : IVec S4x256x512 32) : FVec Ideal S4x256x512 .f32 :=
  select
    (andi (andi v36 (cmpi .sgt v92 (broadcast S4x256x512 0#32))) (cmpi .slt rows (broadcast S4x256x512 255#32)))
    (divf (broadcast S4x256x512 (Scalar.ofBits (F := Ideal) .f32 0x3F800000#32))
      (mulf (mulf (sitofp (F := Ideal) .f32 (subi rows v92)) (sitofp (F := Ideal) .f32 (subi rows v92)))
        (sitofp (F := Ideal) .f32 (subi rows v92))))
    (broadcast S4x256x512 (Scalar.ofBits (F := Ideal) .f32 0x00000000#32))

/-- Entry `(b, h, w)` of the selected term is the specification's term of column `(b, w)` at row `h`. -/
theorem termV_apply (v36 : IVec S4x256x512 1) (v92 : IVec S4x256x512 32) (c : Fin 4 → Fin 512 → ℕ → EReal)
    (h36 : ∀ (b : Fin 4) (h : Fin 256) (w : Fin 512), v36 (ix3 b h w) = above (c b w h.val))
    (h92 : ∀ (b : Fin 4) (h : Fin 256) (w : Fin 512), (v92 (ix3 b h w)).toInt = prevRow (c b w) h.val)
    (b : Fin 4) (h : Fin 256) (w : Fin 512) :
    termV v36 v92 (ix3 b h w) = term (c b w) h.val := by
  have hlt : h.val < 256 := h.isLt
  have hrows : (rows (ix3 b h w)).toInt = (h.val : ℤ) := by
    rw [rows_apply]; exact toInt_ofNat_small h.val (by omega)
  have hp := h92 b h w
  have hpb := prevRow_bounds (c b w) h.val hlt
  have hc : (andi (andi v36 (cmpi .sgt v92 (broadcast S4x256x512 0#32)))
        (cmpi .slt rows (broadcast S4x256x512 255#32))) (ix3 b h w) = 1#1
      ↔ (above (c b w h.val) = 1#1 ∧ 0 < prevRow (c b w) h.val ∧ h.val < 255) := by
    show IntOp.andi (IntOp.andi (v36 (ix3 b h w)) (IntOp.cmpi .sgt (v92 (ix3 b h w)) 0#32))
        (IntOp.cmpi .slt (rows (ix3 b h w)) (BitVec.ofNat 32 255)) = 1#1 ↔ _
    rw [andi_eq_one, andi_eq_one, cmpi_sgt_eq_one, cmpi_slt_eq_one, h36, hp, hrows, toInt_zero32,
      toInt_ofNat_small 255 (by omega)]
    constructor
    · rintro ⟨⟨h1, h2⟩, h3⟩; exact ⟨h1, h2, by omega⟩
    · rintro ⟨h1, h2, h3⟩; exact ⟨⟨h1, h2⟩, by omega⟩
  have hd : (sitofp (F := Ideal) .f32 (subi rows v92)) (ix3 b h w) = dist (c b w) h.val := by
    show (((IntOp.subi (rows (ix3 b h w)) (v92 (ix3 b h w))).toInt : ℝ) : EReal) = _
    rw [subi_toInt _ _ (by rw [hrows]; omega) (by rw [hp]; exact hpb), hrows, hp]
    rfl
  unfold termV term
  rw [select_apply]
  by_cases hP : above (c b w h.val) = 1#1 ∧ 0 < prevRow (c b w) h.val ∧ h.val < 255
  · rw [if_pos hP, hc.mpr hP, select_one, divf_apply, mulf_apply, mulf_apply, hd, broadcast_apply]
    rfl
  · rw [if_neg hP, eq_zero_of_ne_one (fun e => hP (hc.mp e)), select_zero, broadcast_apply]
    rfl

end Cert.DenseK

end
-- ==== Proof.DenseK.lean ====
/-
  The distance penalty of one tile of four batches, as the kernel computes it, is the sum over the tile's batches,
  rows and lanes of the column-wise term of the specification: the condition bit at `(b, h, w)` is "entry
  `(b, 1, h, w)` is above one half"; the marks' running maximum is computed by the eight doubling steps; one more
  shift gives the previous marked row; the selected value is the term; and the three sums add the terms up.
-/
import proofs.«155610_j50379966382816_2_alg».proof.Proof.Tile
import proofs.«155610_j50379966382816_2_alg».proof.Proof.DenseSpec
import proofs.«155610_j50379966382816_2_alg».proof.Proof.DenseKSum
import proofs.«155610_j50379966382816_2_alg».proof.Proof.DenseKScan
import proofs.«155610_j50379966382816_2_alg».proof.Proof.DenseKTerm
import Idealize.ShloMosaic.Lib.ValueLayout

noncomputable section

namespace Cert.DenseK

open Idealize.ShloMosaic Idealize.ShloMosaic.ValueIdx Cert.KernelIdeal Cert.KernelIdeal.Gen Cert.Tile Cert.LibScan
  Cert.DenseSpec

/-- The condition bit at `(b, h, w)`: is the channel-1 entry of batch `b`, row `h`, lane `w` above one half. -/
theorem pay6_apply (x : Vec Ideal S4x2x256x512 .f32) (b : Fin 4) (h : Fin 256) (w : Fin 512) :
    k0_pay6 (F := Ideal) x (ix3 b h w) = above (col (n := 4) x b w h.val) := by
  have e1 : shapeCast S4x256x512
      (extractStridedSlice S4x1x256x512 ![0, 1, 0, 0] x slices_S4x2x256x512_o0_1_0_0_S4x1x256x512)
      shapeCasts_S4x1x256x512_S4x256x512 (ix3 b h w) = x (ix4 b (1 : Fin 2) h w) := by
    refine (shapeCast_apply _ shapeCasts_S4x1x256x512_S4x256x512 (ix3 b h w) (ix4 b (0 : Fin 1) h w) ?_).trans ?_
    · rewrite [Shape.rowMajor_val_four, Shape.rowMajor_val_three]
      show ((b.val * 1 + 0) * 256 + h.val) * 512 + w.val = (b.val * 256 + h.val) * 512 + w.val
      omega
    · exact slice4_axis1_apply 1 x slices_S4x2x256x512_o0_1_0_0_S4x1x256x512 b (0 : Fin 1) h w (1 : Fin 2) rfl
  show Ideal.cmp .ogt
      (shapeCast S4x256x512
        (extractStridedSlice S4x1x256x512 ![0, 1, 0, 0] x slices_S4x2x256x512_o0_1_0_0_S4x1x256x512)
        shapeCasts_S4x1x256x512_S4x256x512 (ix3 b h w))
      (Ideal.ofBits .f32 0x3F000000#32)
    = Ideal.cmp .ogt (if hk : h.val < 256 then x (ix4 b (1 : Fin 2) ⟨h.val, hk⟩ w) else 0)
      (Ideal.ofBits .f32 0x3F000000#32)
  rw [e1, dif_pos h.isLt]

/-- The kernel's payload, over a variable vector of condition bits, is the chain: marks, eight doubling steps, shift,
    selected term, sums. -/
theorem pay10_eq (v36 : IVec S4x256x512 1) :
    k0_pay10 (F := Ideal) v36 rows (k0_pay7 v36 rows 4294967295#32) (k0_pay8 v36 rows 4294967295#32) k0_pay9
      = sumTail (termV v36 (prevV (stepV 128#32 (stepV 64#32 (stepV 32#32 (stepV 16#32 (stepV 8#32 (stepV 4#32
          (stepV 2#32 (stepV 1#32 (select v36 rows (broadcast S4x256x512 4294967295#32)))))))))))) := rfl

theorem densePart_eq (x : Vec Ideal Cert.KernelIdeal.S4x2x256x512 .f32) :
    densePart x = ∑ b : Fin 4, ∑ h : Fin 256, ∑ w : Fin 512, term (col (n := 4) x b w) h.val := by
  unfold densePart
  rw [pay10_eq, sumTail_eq]
  refine Finset.sum_congr rfl fun b _ => Finset.sum_congr rfl fun h _ => Finset.sum_congr rfl fun w _ => ?_
  refine termV_apply _ _ (fun b w => col (n := 4) x b w) (fun b h w => pay6_apply x b h w) ?_ b h w
  refine prevV_toInt _ (fun b w => col (n := 4) x b w) ?_
  refine scan_toInt _ (fun b w => marked (col (n := 4) x b w)) (fun b w j => (marked_bounds _ j).1) ?_
  exact mark_toInt _ (fun b w => col (n := 4) x b w) (fun b h w => pay6_apply x b h w)

end Cert.DenseK

end
-- ==== Proof.DenseR1.lean ====
/-
  Words as integers: the signed reading of the few 32-bit words the distance penalty meets (small naturals, −1, the
  least word), the signed maximum, comparison and difference read as integers, a left fold of signed maxima read
  as a fold of integer maxima, and bounds on a running maximum.
-/
import Idealize.ShloMosaic.PureOps.Ideal
import proofs.«155610_j50379966382816_2_alg».proof.Proof.LibScan

namespace Cert.DenseR

open Idealize.ShloMosaic Cert.LibScan

/-- A natural below 2³¹ read as a signed word is itself. -/
theorem toInt_ofNat_small (n : ℕ) (hn : n < 2147483648) : (BitVec.ofNat 32 n).toInt = (n : ℤ) := by
  rw [BitVec.toInt_ofNat']
  apply Int.bmod_eq_of_le <;> omega

/-- The all-ones word is −1. -/
theorem toInt_allOnes : (4294967295#32 : BitVec 32).toInt = -1 := by decide

/-- The word with only the top bit set is the least integer −2³¹. -/
theorem toInt_least : (2147483648#32 : BitVec 32).toInt = -2147483648 := by decide

/-- Every 32-bit word is at least −2³¹. -/
theorem least_le_toInt (x : BitVec 32) : -2147483648 ≤ x.toInt := by
  have := BitVec.le_toInt x
  simpa using this

/-- The signed maximum of two words is the maximum of their integers. -/
theorem toInt_maxsi (x y : BitVec 32) : (IntOp.maxsi x y).toInt = max x.toInt y.toInt := by
  unfold IntOp.maxsi
  by_cases h : y.slt x = true
  · rw [if_pos h]
    rw [BitVec.slt_iff_toInt_lt] at h
    exact (max_eq_left (le_of_lt h)).symm
  · rw [if_neg h]
    rw [BitVec.slt_iff_toInt_lt] at h
    exact (max_eq_right (not_lt.mp h)).symm

/-- A left fold of signed maxima, read as integers, is the left fold of integer maxima. -/
theorem toInt_foldl_maxsi {β : Type} (g : β → BitVec 32) (l : List β) (a : BitVec 32) :
    (l.foldl (fun r n => IntOp.maxsi r (g n)) a).toInt = l.foldl (fun r n => max r (g n).toInt) a.toInt := by
  induction l generalizing a with
  | nil => rfl
  | cons b l ih =>
    rw [List.foldl_cons, List.foldl_cons, ih, toInt_maxsi]

/-- A fold over the positions `0, …, m − 1` as elements of `Fin m` that only uses their values is the fold over the
    naturals below `m`. -/
theorem foldl_finRange_val {α : Type} (m : ℕ) (f : α → ℕ → α) (a : α) :
    (List.finRange m).foldl (fun r (i : Fin m) => f r i.val) a = (List.range m).foldl f a := by
  rw [← List.map_coe_finRange_eq_range, List.foldl_map]

/-- "Greater than zero", signed, answers 1 exactly when the integer is positive. -/
theorem cmpi_sgt_zero (x : BitVec 32) : IntOp.cmpi .sgt x 0#32 = 1#1 ↔ 0 < x.toInt := by
  unfold IntOp.cmpi
  by_cases h : (0#32 : BitVec 32).slt x = true
  · have h' := h; rw [BitVec.slt_iff_toInt_lt] at h'
    simp only [h, BitVec.ofBool_true]
    simpa using h'
  · have h' := h; rw [BitVec.slt_iff_toInt_lt] at h'
    have hf : (0#32 : BitVec 32).slt x = false := by simpa using h
    simp only [hf, BitVec.ofBool_false]
    constructor
    · intro hc; exact absurd hc (by decide)
    · intro hc; exact absurd (by simpa using hc) h'

/-- "Row number below 255", signed, answers 1 exactly when the row number is below 255. -/
theorem cmpi_slt_255 (n : ℕ) (hn : n < 256) : IntOp.cmpi .slt (BitVec.ofNat 32 n) 255#32 = 1#1 ↔ n < 255 := by
  unfold IntOp.cmpi
  have e255 : (255#32 : BitVec 32).toInt = 255 := by decide
  by_cases h : (BitVec.ofNat 32 n).slt 255#32 = true
  · have h' := h; rw [BitVec.slt_iff_toInt_lt, toInt_ofNat_small n (by omega), e255] at h'
    simp only [h, BitVec.ofBool_true]
    constructor
    · intro _; omega
    · intro _; rfl
  · have h' := h; rw [BitVec.slt_iff_toInt_lt, toInt_ofNat_small n (by omega), e255] at h'
    have hf : (BitVec.ofNat 32 n).slt 255#32 = false := by simpa using h
    simp only [hf, BitVec.ofBool_false]
    constructor
    · intro hc; exact absurd hc (by decide)
    · intro hc; omega

/-- The conjunction of one-bit words is 1 exactly when both are. -/
theorem andi_eq_one (a b : BitVec 1) : IntOp.andi a b = 1#1 ↔ a = 1#1 ∧ b = 1#1 := by
  unfold IntOp.andi
  rcases BitVec.eq_zero_or_eq_one a with ha | ha <;> rcases BitVec.eq_zero_or_eq_one b with hb | hb <;>
    subst ha <;> subst hb <;> decide

/-- A row number minus a word between −1 and 255 does not wrap. -/
theorem toInt_subi_row (n : ℕ) (hn : n < 256) (y : BitVec 32) (hy0 : -1 ≤ y.toInt) (hy1 : y.toInt ≤ 255) :
    (IntOp.subi (BitVec.ofNat 32 n) y).toInt = (n : ℤ) - y.toInt := by
  unfold IntOp.subi
  rw [BitVec.toInt_sub, toInt_ofNat_small n (by omega)]
  apply Int.bmod_eq_of_le <;> omega

/-- A running maximum lies between any lower bound of the sequence and any upper bound of its first places. -/
theorem cmax_bounds (a : ℕ → ℤ) (lo hi : ℤ) (h : ℕ) (hlo : ∀ j, lo ≤ a j) (hhi : ∀ j, j ≤ h → a j ≤ hi) :
    lo ≤ cmax a h ∧ cmax a h ≤ hi := by
  induction h with
  | zero => exact ⟨hlo 0, hhi 0 (le_refl 0)⟩
  | succ n ih =>
    have ih' := ih (fun j hj => hhi j (Nat.le_succ_of_le hj))
    show lo ≤ max (cmax a n) (a (n + 1)) ∧ max (cmax a n) (a (n + 1)) ≤ hi
    exact ⟨le_trans ih'.1 (le_max_left _ _), max_le ih'.2 (hhi (n + 1) (le_refl _))⟩

end Cert.DenseR
-- ==== Proof.DenseR2.lean ====
/-
  A running maximum written as a padded window reduction, read at one entry. Over a `[64, 256, 512]` array of words,
  the window `[1, 256, 1]` with 255 places of padding before axis 1 reads, at entry `(B, h, w)`, the 256 places
  `h − 255, …, h` of column `(B, w)`; the places before the column's start hold the initial word. Read as integers the
  fold of signed maxima is the running maximum of the column at `h`.
-/
import Idealize.ShloMosaic.PureOps.Contract
import Idealize.ShloMosaic.Lib.ValueIdx
import proofs.«155610_j50379966382816_2_alg».proof.Proof.DenseR1

namespace Cert.DenseR

open Idealize.ShloMosaic Idealize.ShloMosaic.ValueIdx Cert.LibScan

/-- One window position, its row-major coordinates given: the operand at row `h + q₁ − 255` of the same batch and lane
    when that row exists, the initial word otherwise. -/
theorem window_body (v : (⟨3, ![64, 256, 512]⟩ : Shape).Idx → BitVec 32) (v0 : BitVec 32)
    (B : Fin 64) (h : Fin 256) (w : Fin 512) (q : (⟨3, ![1, 256, 1]⟩ : Shape).Idx) :
    (if hin : ∀ a : Fin 3, (![0, 255, 0] : Fin 3 → ℕ) a
          ≤ ((ix3 B h w : (⟨3, ![64, 256, 512]⟩ : Shape).Idx) (a.cast rfl)).val * (![1, 1, 1] : Fin 3 → ℕ) a + (q a).val
        ∧ ((ix3 B h w : (⟨3, ![64, 256, 512]⟩ : Shape).Idx) (a.cast rfl)).val * (![1, 1, 1] : Fin 3 → ℕ) a + (q a).val
            - (![0, 255, 0] : Fin 3 → ℕ) a < (⟨3, ![64, 256, 512]⟩ : Shape).size a
      then v (fun a => ⟨((ix3 B h w : (⟨3, ![64, 256, 512]⟩ : Shape).Idx) (a.cast rfl)).val * (![1, 1, 1] : Fin 3 → ℕ) a
            + (q a).val - (![0, 255, 0] : Fin 3 → ℕ) a, (hin a).2⟩)
      else v0)
    = if hc : 255 ≤ h.val + (q 1).val ∧ h.val + (q 1).val - 255 < 256
      then v (ix3 B ⟨h.val + (q 1).val - 255, hc.2⟩ w) else v0 := by
  have q0 : (q 0).val = 0 := by have : (q 0).val < 1 := (q 0).isLt; omega
  have q2 : (q 2).val = 0 := by have : (q 2).val < 1 := (q 2).isLt; omega
  have hB : B.val < 64 := B.isLt
  have hw : w.val < 512 := w.isLt
  have hh : h.val < 256 := h.isLt
  have hq1 : (q 1).val < 256 := (q 1).isLt
  by_cases hc : 255 ≤ h.val + (q 1).val ∧ h.val + (q 1).val - 255 < 256
  · have hin : ∀ a : Fin 3, (![0, 255, 0] : Fin 3 → ℕ) a
          ≤ ((ix3 B h w : (⟨3, ![64, 256, 512]⟩ : Shape).Idx) (a.cast rfl)).val * (![1, 1, 1] : Fin 3 → ℕ) a + (q a).val
        ∧ ((ix3 B h w : (⟨3, ![64, 256, 512]⟩ : Shape).Idx) (a.cast rfl)).val * (![1, 1, 1] : Fin 3 → ℕ) a + (q a).val
            - (![0, 255, 0] : Fin 3 → ℕ) a < (⟨3, ![64, 256, 512]⟩ : Shape).size a := by
      intro a
      match a with
      | ⟨0, _⟩ => show 0 ≤ B.val * 1 + (q 0).val ∧ B.val * 1 + (q 0).val - 0 < 64; omega
      | ⟨1, _⟩ => show 255 ≤ h.val * 1 + (q 1).val ∧ h.val * 1 + (q 1).val - 255 < 256; omega
      | ⟨2, _⟩ => show 0 ≤ w.val * 1 + (q 2).val ∧ w.val * 1 + (q 2).val - 0 < 512; omega
    rw [dif_pos hin, dif_pos hc]
    congr 1
    funext a
    match a with
    | ⟨0, _⟩ => exact Fin.ext (show B.val * 1 + (q 0).val - 0 = B.val by omega)
    | ⟨1, _⟩ => exact Fin.ext (show h.val * 1 + (q 1).val - 255 = h.val + (q 1).val - 255 by omega)
    | ⟨2, _⟩ => exact Fin.ext (show w.val * 1 + (q 2).val - 0 = w.val by omega)
  · rw [dif_neg hc, dif_neg]
    intro hin
    apply hc
    have h1 := hin 1
    have h1' : 255 ≤ h.val * 1 + (q 1).val ∧ h.val * 1 + (q 1).val - 255 < 256 := h1
    omega

/-- The window's row-major position `n` has middle coordinate `n`. -/
theorem window_pos (n : Fin (⟨3, ![1, 256, 1]⟩ : Shape).numel) :
    (((⟨3, ![1, 256, 1]⟩ : Shape).rowMajor.symm n) 1).val = n.val := by
  have e := Shape.rowMajor_val_three ((⟨3, ![1, 256, 1]⟩ : Shape).rowMajor.symm n)
  rw [Equiv.apply_symm_apply] at e
  have q0 : (((⟨3, ![1, 256, 1]⟩ : Shape).rowMajor.symm n) 0).val < 1 := (((⟨3, ![1, 256, 1]⟩ : Shape).rowMajor.symm n) 0).isLt
  have q2 : (((⟨3, ![1, 256, 1]⟩ : Shape).rowMajor.symm n) 2).val < 1 := (((⟨3, ![1, 256, 1]⟩ : Shape).rowMajor.symm n) 2).isLt
  have e' : n.val = ((((⟨3, ![1, 256, 1]⟩ : Shape).rowMajor.symm n) 0).val * 256
      + (((⟨3, ![1, 256, 1]⟩ : Shape).rowMajor.symm n) 1).val) * 1 + (((⟨3, ![1, 256, 1]⟩ : Shape).rowMajor.symm n) 2).val := e
  omega

/-- The window reduction at entry `(B, h, w)` as a fold over the naturals below 256. -/
theorem window_read (v : (⟨3, ![64, 256, 512]⟩ : Shape).Idx → BitVec 32) (init : (⟨0, ![]⟩ : Shape).Idx → BitVec 32)
    (hW : (⟨3, ![64, 256, 512]⟩ : Shape).ReduceWindows (![1, 256, 1] : Fin 3 → ℕ) ![1, 1, 1] ![0, 255, 0] ![0, 0, 0]
      ⟨3, ![64, 256, 512]⟩) (hu : 0 < (⟨0, ![]⟩ : Shape).numel) (B : Fin 64) (h : Fin 256) (w : Fin 512) :
    Host.reduceWindow IntOp.maxsi ![1, 256, 1] ![1, 1, 1] ![0, 255, 0] ![0, 0, 0] v init hW hu (ix3 B h w)
      = (List.range 256).foldl (fun r n => IntOp.maxsi r
          (if hc : 255 ≤ h.val + n ∧ h.val + n - 255 < 256 then v (ix3 B ⟨h.val + n - 255, hc.2⟩ w)
            else init (Shape.Idx.first hu))) (init (Shape.Idx.first hu)) := by
  unfold Host.reduceWindow
  have hn : (⟨3, ![1, 256, 1]⟩ : Shape).numel = 256 := by decide
  refine (List.foldl_ext _ (fun r (n : Fin (⟨3, ![1, 256, 1]⟩ : Shape).numel) => IntOp.maxsi r
      (if hc : 255 ≤ h.val + n.val ∧ h.val + n.val - 255 < 256 then v (ix3 B ⟨h.val + n.val - 255, hc.2⟩ w)
        else init (Shape.Idx.first hu))) _ (fun r n _ => ?_)).trans ?_
  · refine congrArg (IntOp.maxsi r) ?_
    refine (window_body v (init (Shape.Idx.first hu)) B h w ((⟨3, ![1, 256, 1]⟩ : Shape).rowMajor.symm n)).trans ?_
    have e := window_pos n
    simp only [e]
  · rw [foldl_finRange_val (⟨3, ![1, 256, 1]⟩ : Shape).numel (fun r n => IntOp.maxsi r
      (if hc : 255 ≤ h.val + n ∧ h.val + n - 255 < 256 then v (ix3 B ⟨h.val + n - 255, hc.2⟩ w)
        else init (Shape.Idx.first hu))), hn]

/-- Read as integers, the window reduction from the least word is the running maximum of the column: `a` any
    integer sequence that the column's words spell on rows 0 to 255. -/
theorem window_toInt (v : (⟨3, ![64, 256, 512]⟩ : Shape).Idx → BitVec 32) (init : (⟨0, ![]⟩ : Shape).Idx → BitVec 32)
    (hW : (⟨3, ![64, 256, 512]⟩ : Shape).ReduceWindows (![1, 256, 1] : Fin 3 → ℕ) ![1, 1, 1] ![0, 255, 0] ![0, 0, 0]
      ⟨3, ![64, 256, 512]⟩) (hu : 0 < (⟨0, ![]⟩ : Shape).numel) (B : Fin 64) (w : Fin 512) (a : ℕ → ℤ)
    (hinit : init (Shape.Idx.first hu) = 2147483648#32)
    (hv : ∀ k : Fin 256, (v (ix3 B k w)).toInt = a k.val) (ha : ∀ j, -2147483648 ≤ a j) (h : Fin 256) :
    (Host.reduceWindow IntOp.maxsi ![1, 256, 1] ![1, 1, 1] ![0, 255, 0] ![0, 0, 0] v init hW hu (ix3 B h w)).toInt
      = cmax a h.val := by
  rw [window_read, toInt_foldl_maxsi, hinit, toInt_least, ← window_eq_cmax a (-2147483648) ha h.val h.isLt]
  refine List.foldl_ext _ _ _ (fun r n _ => ?_)
  refine congrArg (max r) ?_
  by_cases hc : 255 ≤ h.val + n ∧ h.val + n - 255 < 256
  · rw [dif_pos hc, if_pos hc]
    exact hv ⟨h.val + n - 255, hc.2⟩
  · rw [dif_neg hc, if_neg hc, toInt_least]

end Cert.DenseR
-- ==== Proof.DenseR3.lean ====
/-
  The reference's marks and running maximum at one entry `(B, h, w)`: "above one half" on channel 1, the word
  "row number if above, −1 if not" whose integer is the column's `marked`, and the padded window reduction whose
  integer is the column's running maximum.
-/
import proofs.«155610_j50379966382816_2_alg».proof.Proof.RefRead
import proofs.«155610_j50379966382816_2_alg».proof.Proof.DenseSpec
import proofs.«155610_j50379966382816_2_alg».proof.Proof.DenseR2

noncomputable section

namespace Cert.DenseR

open Idealize.ShloMosaic Idealize.ShloMosaic.ValueIdx Cert.DenseSpec Cert.LibScan
open Cert.ReferenceIdeal Cert.ReferenceIdeal.Gen Cert.ReferenceIdeal.Read

/-- Channel 1 sliced out and the unit axis dropped: entry `(B, h, w)` of the rank-3 array is entry `(B, 1, h, w)`. -/
theorem idx_chan1 (B : Fin 64) (h : Fin 256) (w : Fin 512) :
    idx_main_v19 (idx_main_v20 (ix3 B h w)) = ix4 B (1 : Fin 2) h w := by
  have hB : B.val < 64 := B.isLt
  have hh : h.val < 256 := h.isLt
  have hw : w.val < 512 := w.isLt
  funext a
  match a with
  | ⟨0, _⟩ => exact Fin.ext (show ((B.val * 256 + h.val) * 512 + w.val) / 131072 = B.val by omega)
  | ⟨1, _⟩ => exact Fin.ext (show 1 + 0 = 1 by rfl)
  | ⟨2, _⟩ => exact Fin.ext (show ((B.val * 256 + h.val) * 512 + w.val) / 512 % 256 = h.val by omega)
  | ⟨3, _⟩ => exact Fin.ext (show ((B.val * 256 + h.val) * 512 + w.val) % 512 = w.val by omega)

/-- The column's place `h` is the array's entry `(B, 1, h, w)`. -/
theorem col_apply (X : S64x2x256x512.Idx → EReal) (B : Fin 64) (h : Fin 256) (w : Fin 512) :
    col (n := 64) X B w h.val = X (ix4 B (1 : Fin 2) h w) := by
  unfold col
  rw [dif_pos h.isLt]

/-- The comparison with one half at `(B, h, w)`. -/
theorem v22_apply (X : S64x2x256x512.Idx → EReal) (B : Fin 64) (h : Fin 256) (w : Fin 512) :
    val_main_v22 (F := Ideal) X (ix3 B h w) = above (col (n := 64) X B w h.val) := by
  rw [col_apply, val_main_v22_apply, val_main_v20_apply, val_main_v19_apply, val_main_v21_apply, val_main_cst_3_apply,
    idx_chan1]
  all_goals rfl

/-- The marked-row word at `(B, h, w)`: the row number where the entry is above one half, the all-ones word elsewhere. -/
theorem v25_apply (X : S64x2x256x512.Idx → EReal) (B : Fin 64) (h : Fin 256) (w : Fin 512) :
    val_main_v25 (F := Ideal) X (ix3 B h w)
      = Scalar.select (above (col (n := 64) X B w h.val)) (BitVec.ofNat 32 h.val) 4294967295#32 := by
  rw [val_main_v25_apply, v22_apply, val_main_call0_v1_apply, val_main_v24_apply, val_main_v23_apply,
    val_main_call0_v2_apply, val_main_call0_v0_apply, val_main_c_4_apply]
  all_goals rfl

/-- Its integer is the column's `marked`. -/
theorem v25_toInt (X : S64x2x256x512.Idx → EReal) (B : Fin 64) (h : Fin 256) (w : Fin 512) :
    (val_main_v25 (F := Ideal) X (ix3 B h w)).toInt = marked (col (n := 64) X B w) h.val := by
  rw [v25_apply]
  unfold marked
  by_cases hc : above (col (n := 64) X B w h.val) = 1#1
  · rw [if_pos hc, hc, select_one]
    exact toInt_ofNat_small h.val (by have := h.isLt; omega)
  · rw [if_neg hc, eq_zero_of_ne_one hc, select_zero]
    exact toInt_allOnes

/-- `marked` is at least −1, and at most its place. -/
theorem marked_ge (c : ℕ → EReal) (j : ℕ) : -1 ≤ marked c j := by
  unfold marked
  split
  · omega
  · exact le_refl _

theorem marked_le (c : ℕ → EReal) (j : ℕ) : marked c j ≤ (j : ℤ) := by
  unfold marked
  split
  · exact le_refl _
  · omega

/-- The running maximum's integer at `(B, h, w)`. -/
theorem v26_toInt (X : S64x2x256x512.Idx → EReal) (B : Fin 64) (h : Fin 256) (w : Fin 512) :
    (val_main_v26 (F := Ideal) X (ix3 B h w)).toInt = cmax (marked (col (n := 64) X B w)) h.val := by
  unfold val_main_v26
  have hv : ∀ k : Fin 256, (val_main_v25 (F := Ideal) X (ix3 B k w)).toInt = marked (col (n := 64) X B w) k.val :=
    fun k => v25_toInt X B k w
  generalize val_main_v25 (F := Ideal) X = v at hv
  refine window_toInt v (val_main_call1_v0 (F := Ideal)) _ _ B w (marked (col (n := 64) X B w)) ?_ hv ?_ h
  · rw [val_main_call1_v0_apply, val_main_call1_c_apply]
  · intro j
    have := marked_ge (col (n := 64) X B w) j
    omega

/-- The running maximum at `h` lies between −1 and `h`. -/
theorem cmax_marked_bounds (c : ℕ → EReal) (h : ℕ) : -1 ≤ cmax (marked c) h ∧ cmax (marked c) h ≤ (h : ℤ) :=
  cmax_bounds (marked c) (-1) (h : ℤ) h (marked_ge c) (fun j hj => le_trans (marked_le c j) (by exact_mod_cast hj))

end Cert.DenseR

end
-- ==== Proof.DenseR4.lean ====
/-
  The previous marked row at one entry: the reference shifts the running maximum down by one row (a block of −1 on
  top of rows 0 to 254 of the running maximum), so at `(B, h, w)` the shifted array holds −1 for `h = 0` and the
  running maximum at row `h − 1` otherwise — the column's `prevRow`.
-/
import proofs.«155610_j50379966382816_2_alg».proof.Proof.DenseR3

noncomputable section

namespace Cert.DenseR

open Idealize.ShloMosaic Idealize.ShloMosaic.ValueIdx Cert.DenseSpec Cert.LibScan
open Cert.ReferenceIdeal Cert.ReferenceIdeal.Gen Cert.ReferenceIdeal.Read

/-- Row 0 of the shifted array is the all-ones word. -/
theorem v29_zero (X : S64x2x256x512.Idx → EReal) (B : Fin 64) (h : Fin 256) (w : Fin 512) (h0 : h.val = 0) :
    val_main_v29 (F := Ideal) X (ix3 B h w) = 4294967295#32 := by
  unfold val_main_v29
  refine (concatenate_pair_apply_left (t := S64x256x512) (s₁ := S64x1x512) (s₂ := S64x255x512) (1 : Fin 3) (val_main_v27 (F := Ideal)) (val_main_v28 (F := Ideal) X)
    concatenates_S64x1x512_S64x255x512_S64x256x512_d1 (ix3 B h w) rfl (ix3 B (0 : Fin 1) w) (fun b => ?_)).trans ?_
  · match b with
    | ⟨0, _⟩ => rfl
    | ⟨1, _⟩ => exact h0.symm
    | ⟨2, _⟩ => rfl
  · rw [val_main_v27_apply, val_main_c_5_apply]

/-- Row `h ≥ 1` of the shifted array is row `h − 1` of the running maximum. -/
theorem v29_succ (X : S64x2x256x512.Idx → EReal) (B : Fin 64) (h : Fin 256) (w : Fin 512) (h1 : 1 ≤ h.val) :
    val_main_v29 (F := Ideal) X (ix3 B h w)
      = val_main_v26 (F := Ideal) X (ix3 B ⟨h.val - 1, by have := h.isLt; omega⟩ w) := by
  unfold val_main_v29
  have hh : h.val < 256 := h.isLt
  refine (concatenate_pair_apply_right (t := S64x256x512) (s₁ := S64x1x512) (s₂ := S64x255x512) (1 : Fin 3) (val_main_v27 (F := Ideal)) (val_main_v28 (F := Ideal) X)
    concatenates_S64x1x512_S64x255x512_S64x256x512_d1 (ix3 B h w) rfl rfl
    (ix3 B (⟨h.val - 1, by omega⟩ : Fin 255) w) (fun b hb => ?_) ?_).trans ?_
  · match b with
    | ⟨0, _⟩ => rfl
    | ⟨1, _⟩ => exact absurd rfl hb
    | ⟨2, _⟩ => rfl
  · show h.val - 1 + 1 = h.val
    omega
  · refine (val_main_v28_apply (F := Ideal) X _).trans ?_
    refine congrArg (val_main_v26 (F := Ideal) X) ?_
    funext a
    match a with
    | ⟨0, _⟩ => rfl
    | ⟨1, _⟩ => rfl
    | ⟨2, _⟩ => rfl

/-- The shifted array's integer at `(B, h, w)` is the column's previous marked row. -/
theorem v29_toInt (X : S64x2x256x512.Idx → EReal) (B : Fin 64) (h : Fin 256) (w : Fin 512) :
    (val_main_v29 (F := Ideal) X (ix3 B h w)).toInt = prevRow (col (n := 64) X B w) h.val := by
  unfold prevRow
  by_cases h0 : h.val = 0
  · rw [if_pos h0, v29_zero X B h w h0]
    exact toInt_allOnes
  · rw [if_neg h0, v29_succ X B h w (by omega), v26_toInt]
    all_goals rfl

/-- The previous marked row lies between −1 and 255. -/
theorem prevRow_bounds (c : ℕ → EReal) (h : ℕ) (hh : h < 256) : -1 ≤ prevRow c h ∧ prevRow c h ≤ 255 := by
  unfold prevRow
  split
  · omega
  · have := cmax_marked_bounds c (h - 1)
    omega

end Cert.DenseR

end
-- ==== Proof.DenseR5.lean ====
/-
  One entry of the reference's selected reciprocal cube is the column's term: the three one-bit conditions (above one
  half, previous marked row positive, row below 255) are the specification's conjunction, the word difference "row minus
  previous row" does not wrap, and its conversion, cube and reciprocal are the specification's.
-/
import proofs.«155610_j50379966382816_2_alg».proof.Proof.DenseR4

noncomputable section

namespace Cert.DenseR

open Idealize.ShloMosaic Idealize.ShloMosaic.ValueIdx Cert.DenseSpec Cert.LibScan
open Cert.ReferenceIdeal Cert.ReferenceIdeal.Gen Cert.ReferenceIdeal.Read

/-- The selected term as a function of the three words it is built from: the bit `c` "above one half", the word `p`
    of the previous marked row with integer `P` between −1 and 255, and the row number. -/
theorem term_words (c : BitVec 1) (p : BitVec 32) (row : ℕ) (hrow : row < 256) (P : ℤ) (hp : p.toInt = P)
    (hP0 : -1 ≤ P) (hP1 : P ≤ 255) :
    Scalar.select
        (IntOp.andi (IntOp.andi c (IntOp.cmpi .sgt p 0#32)) (IntOp.cmpi .slt (BitVec.ofNat 32 row) 255#32))
        (FloatOps.hostDivf (F := Ideal) (FloatOps.ofBits (F := Ideal) .f32 0x3F800000#32)
          (FloatOps.mulf (F := Ideal)
            (FloatOps.mulf (F := Ideal) (FloatOps.sitofp (F := Ideal) .f32 (IntOp.subi (BitVec.ofNat 32 row) p))
              (FloatOps.sitofp (F := Ideal) .f32 (IntOp.subi (BitVec.ofNat 32 row) p)))
            (FloatOps.sitofp (F := Ideal) .f32 (IntOp.subi (BitVec.ofNat 32 row) p))))
        (FloatOps.ofBits (F := Ideal) .f32 0x00000000#32)
      = if c = 1#1 ∧ 0 < P ∧ row < 255 then
          Ideal.div (Ideal.ofBits .f32 0x3F800000#32)
            ((((((row : ℤ) - P : ℤ) : ℝ) : EReal)) * (((((row : ℤ) - P : ℤ) : ℝ) : EReal))
              * (((((row : ℤ) - P : ℤ) : ℝ) : EReal)))
        else Ideal.ofBits .f32 0x00000000#32 := by
  have hsub : (IntOp.subi (BitVec.ofNat 32 row) p).toInt = (row : ℤ) - P := by
    rw [toInt_subi_row row hrow p (by rw [hp]; exact hP0) (by rw [hp]; exact hP1), hp]
  have hd : (FloatOps.sitofp (F := Ideal) .f32 (IntOp.subi (BitVec.ofNat 32 row) p) : EReal)
      = ((((row : ℤ) - P : ℤ) : ℝ) : EReal) := by
    show (((IntOp.subi (BitVec.ofNat 32 row) p).toInt : ℝ) : EReal) = _
    rw [hsub]
  have hcond : IntOp.andi (IntOp.andi c (IntOp.cmpi .sgt p 0#32)) (IntOp.cmpi .slt (BitVec.ofNat 32 row) 255#32) = 1#1
      ↔ (c = 1#1 ∧ 0 < P ∧ row < 255) := by
    rw [andi_eq_one, andi_eq_one, cmpi_sgt_zero, cmpi_slt_255 row hrow, hp, and_assoc]
  rw [hd]
  by_cases hc : c = 1#1 ∧ 0 < P ∧ row < 255
  · rw [hcond.mpr hc, select_one, if_pos hc]
    all_goals rfl
  · rw [eq_zero_of_ne_one (fun h => hc (hcond.mp h)), select_zero, if_neg hc]
    all_goals rfl

/-- The reference's selected term at `(B, h, w)` is the column's term at row `h`. -/
theorem v44_apply (X : S64x2x256x512.Idx → EReal) (B : Fin 64) (h : Fin 256) (w : Fin 512) :
    val_main_v44 (F := Ideal) X (ix3 B h w) = term (col (n := 64) X B w) h.val := by
  have hb := prevRow_bounds (col (n := 64) X B w) h.val h.isLt
  have hp := v29_toInt X B h w
  rw [val_main_v44_apply, val_main_v36_apply, val_main_v32_apply, v22_apply, val_main_v31_apply, val_main_v30_apply,
    val_main_c_6_apply, val_main_v35_apply, val_main_v34_apply, val_main_v24_apply, val_main_v23_apply,
    val_main_v33_apply, val_main_c_7_apply, val_main_v43_apply, val_main_v42_apply, val_main_cst_8_apply,
    val_main_v41_apply, val_main_v40_apply, val_main_v39_apply, val_main_v38_apply, val_main_v37_apply,
    val_main_v24_apply, val_main_v23_apply, val_main_call2_v1_apply, val_main_call2_v0_apply, val_main_cst_9_apply]
  generalize val_main_v29 (F := Ideal) X (ix3 B h w) = p at hp
  exact term_words (above (col (n := 64) X B w h.val)) p h.val h.isLt _ hp hb.1 hb.2

end Cert.DenseR

end
-- ==== Proof.DenseR.lean ====
/-
  The distance penalty as the reference program computes it: the float sum, over every batch, row and lane, of the
  selected reciprocal cube, equals the sum of the per-column terms of the specification.
-/
import proofs.«155610_j50379966382816_2_alg».proof.Proof.DenseR5

noncomputable section

open scoped BigOperators

namespace Cert.DenseR

open Idealize.ShloMosaic Idealize.ShloMosaic.ValueIdx Cert.DenseSpec
open Cert.ReferenceIdeal Cert.ReferenceIdeal.Gen Cert.ReferenceIdeal.Read

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

theorem ref_dense_eq (X : Cert.ReferenceIdeal.S64x2x256x512.Idx → EReal) :
    Cert.ReferenceIdeal.Read.val_main_v45 (F := Ideal) X ix0
      = ∑ B : Fin 64, ∑ h : Fin 256, ∑ w : Fin 512, term (col (n := 64) X B w) h.val := by
  rw [val_main_v45_apply, val_main_cst_10_apply]
  show Ideal.ofBits .f32 0x00000000#32 + _ = _
  rw [Ideal.ofBits_zero_f32, zero_add, sum_idx3]
  refine Finset.sum_congr rfl (fun B _ => Finset.sum_congr rfl (fun h _ => Finset.sum_congr rfl (fun w _ => ?_)))
  exact v44_apply X B h w

end Cert.DenseR

end
-- ==== Proof.LibExtReal.lean ====
/- Extended reals that are real numbers are closed under the field operations (sum, difference,
   product, negation, maximum, finite sums, division by a nonzero real, reciprocal square root of a
   positive real), so an identity of real arithmetic transfers to the extended reals once every letter
   in it is known to be a real number. Also: the real numbers a few float constants denote. -/
import Idealize.ShloMosaic.PureOps.Ideal

noncomputable section

namespace Cert.LibExtReal

open Idealize.ShloMosaic

/-- An extended real is a real number: it is neither of the two infinities. -/
def IsReal (a : EReal) : Prop := ∃ r : ℝ, a = (r : EReal)

/-- A real number, read as an extended real, is a real number. -/
theorem IsReal.coe (r : ℝ) : IsReal (r : EReal) := ⟨r, rfl⟩

/-- Zero is a real number. -/
theorem IsReal.zero : IsReal (0 : EReal) := ⟨0, rfl⟩

/-- The sum of two real numbers is a real number. -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- The difference of two real numbers is a real number. -/
theorem IsReal.sub {a b : EReal} (ha : IsReal a) (hb : IsReal b) : IsReal (a - b) := by
  obtain ⟨x, rfl⟩ := ha
  obtain ⟨y, rfl⟩ := hb
  exact ⟨x - y, (EReal.coe_sub x y).symm⟩

/-- The product of two real numbers is a real number. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- The negative of a real number is a real number. -/
theorem IsReal.neg {a : EReal} (ha : IsReal a) : IsReal (-a) := by
  obtain ⟨x, rfl⟩ := ha
  exact ⟨-x, (EReal.coe_neg x).symm⟩

/-- The larger of two real numbers is a real number. -/
theorem IsReal.max {a b : EReal} (ha : IsReal a) (hb : IsReal b) : IsReal (max a b) := by
  rcases max_choice a b with h | h
  · rw [h]; exact ha
  · rw [h]; exact hb

/-- A finite sum of real numbers, taken in the extended reals, is their sum as real numbers. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih =>
    rw [Finset.sum_insert ha, Finset.sum_insert ha, ih, EReal.coe_add]

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

/-- Dividing a real number by a nonzero real number is division of real numbers. -/
theorem div_coe_coe (x y : ℝ) (hy : y ≠ 0) :
    Ideal.div (x : EReal) (y : EReal) = ((x / y : ℝ) : EReal) := by
  rw [Ideal.div_coe hy, ← EReal.coe_mul]
  congr 1
  rw [mul_one_div]

/-- A real number divided by a nonzero real number is a real number. -/
theorem IsReal.div_coe {a : EReal} (ha : IsReal a) {y : ℝ} (hy : y ≠ 0) :
    IsReal (Ideal.div a (y : EReal)) := by
  obtain ⟨x, rfl⟩ := ha
  exact ⟨x / y, div_coe_coe x y hy⟩

/-- The reciprocal square root of a positive real number is the reciprocal of its square root. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal square root of a positive real number is a real number. -/
theorem IsReal.rsqrt_of_pos {a : EReal} (h : ∃ r : ℝ, 0 < r ∧ a = (r : EReal)) :
    IsReal (Ideal.rsqrt a) := by
  obtain ⟨r, hr, rfl⟩ := h
  exact ⟨(Real.sqrt r)⁻¹, rsqrt_coe_pos hr⟩

/-- The pattern of `+0.0` denotes zero. -/
theorem ofBits_zero : Ideal.ofBits .f32 0x00000000#32 = (0 : EReal) := by
  simp [Ideal.ofBits, Ideal.ieee]

/-- The pattern of `1.0` denotes the real number one. -/
theorem ofBits_one : Ideal.ofBits .f32 0x3F800000#32 = ((1 : ℝ) : EReal) := by
  simp [Ideal.ofBits, Ideal.ieee, -EReal.coe_mul]; norm_num

/-- The pattern of `262144.0` (two to the eighteenth) denotes the real number 262144. -/
theorem ofBits_n : Ideal.ofBits .f32 0x48800000#32 = ((262144 : ℝ) : EReal) := by
  simp [Ideal.ofBits, Ideal.ieee, -EReal.coe_mul]; norm_num

/-- The pattern of the single-precision number nearest to one hundred-thousandth denotes a positive
    real number (its exact value is not needed). -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- The larger of a nonnegative real number and zero is that number. -/
theorem max_eq_left_of_nonneg_coe {v : ℝ} (hv : 0 ≤ v) :
    max ((v : ℝ) : EReal) (0 : EReal) = ((v : ℝ) : EReal) := by
  apply max_eq_left
  exact_mod_cast hv

/-- The regrouping of an affine map: with every letter a real number,
    x·(I·Γ) + (((B + Zt) − Zb) − (M·I)·Γ) = (((x − M)·I)·Γ + B) + (Zt − Zb). -/
theorem affine_regroup {x M I Γ B Zt Zb : EReal} (hx : IsReal x) (hM : IsReal M) (hI : IsReal I)
    (hΓ : IsReal Γ) (hB : IsReal B) (hZt : IsReal Zt) (hZb : IsReal Zb) :
    x * (I * Γ) + (((B + Zt) - Zb) - (M * I) * Γ) = (((x - M) * I) * Γ + B) + (Zt - Zb) := by
  obtain ⟨x, rfl⟩ := hx
  obtain ⟨M, rfl⟩ := hM
  obtain ⟨I, rfl⟩ := hI
  obtain ⟨Γ, rfl⟩ := hΓ
  obtain ⟨B, rfl⟩ := hB
  obtain ⟨Zt, rfl⟩ := hZt
  obtain ⟨Zb, rfl⟩ := hZb
  simp only [← EReal.coe_mul, ← EReal.coe_add, ← EReal.coe_sub]
  congr 1
  ring

end Cert.LibExtReal

end
-- ==== Proof.LibFinite.lean ====
/-
  Reading a finiteness predicate entry by entry, for an array of any shape. A program that tests
  "every entry of |x| is below +∞" computes it as an and-reduction, over every axis and from the
  constant true, of the comparison of |x| = max(x, −x) against a splat of +∞. When that scalar is
  true, each entry of x is a real number: at either infinity |x| is +∞, which is not below +∞.
  Also: the single-precision pattern of +∞ denotes the top of the extended reals, and the conjunction
  of two one-bit scalars is true exactly when both are.
-/
import proofs.«155610_j50379966382816_2_alg».proof.Proof.LibExtReal
import Idealize.ShloMosaic.PureOps.Ideal
import Idealize.ShloMosaic.Lib.ReduceAll
import Idealize.ShloMosaic.Lib.IdealHost

noncomputable section

namespace Cert.LibFinite

open Idealize.ShloMosaic Cert.LibExtReal

/-- The shape of a scalar has exactly one index. -/
theorem scalar_idx_subsingleton : Subsingleton (⟨0, ![]⟩ : Shape).Idx := ⟨fun a b => funext fun d => d.elim0⟩

/-- The single-precision pattern of +∞ denotes the top element of the extended reals. -/
theorem ofBits_inf : Ideal.ofBits .f32 0x7F800000#32 = (⊤ : EReal) := by
  simp [Ideal.ofBits, Ideal.ieee]

/-- An extended real v with |v| < +∞, where |v| = max(v, −v), is a real number: at either infinity |v| is +∞. -/
theorem isReal_of_abs_lt_inf (v : EReal)
    (h : Ideal.cmp .olt (max v (-v)) (Ideal.ofBits .f32 0x7F800000#32) = 1#1) : IsReal v := by
  rw [ofBits_inf] at h
  unfold Ideal.cmp at h
  induction v using EReal.rec with
  | bot => simp at h
  | top => simp at h
  | coe r => exact ⟨r, rfl⟩

/-- The conjunction of two one-bit scalars is one exactly when both are. -/
theorem andi_apply_eq_one (p q : IVec (⟨0, ![]⟩ : Shape) 1) (j : (⟨0, ![]⟩ : Shape).Idx) :
    andi p q j = 1#1 ↔ p j = 1#1 ∧ q j = 1#1 := IntOp.andi_eq_one

/-- "All entries of |x| are below +∞", computed as an and-reduction over every axis from the constant
    true, being true says each entry of x is a real number. -/
theorem real_of_all {s : Shape} {axes : List (Fin s.rank)} (x : FVec Ideal s .f32)
    (hb : (⟨0, ![]⟩ : Shape).BroadcastsInDim s ![]) (hr : s.ReducesTo axes (⟨0, ![]⟩ : Shape))
    (hS : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hS ValueIdx.ix0 = 1#1) (i : s.Idx) : IsReal (x i) := by
  haveI := scalar_idx_subsingleton
  have h1 := Host.reduce_andi_all _ _ hr hS _ e i
  rw [ValueIdx.cmpf_apply, ValueIdx.broadcastInDim_scalar_apply] at h1
  exact isReal_of_abs_lt_inf (x i) h1

end Cert.LibFinite

end
-- ==== Proof.PreFacts.lean ====
/-
  The precondition of the certificate, read entry by entry: when the printed predicate holds, every entry of the first
  argument is a real number strictly between 0 and 1 and every entry of the second argument is a real number.
  The predicate is the conjunction of four scalars, each an and-reduction over every axis, from the constant true, of an
  entrywise comparison: |X| < +∞, |T| < +∞, X > 0 and X < 1.
-/
import proofs.«155610_j50379966382816_2_alg».proof.Proof.Gen.Pre_finite_inputs
import proofs.«155610_j50379966382816_2_alg».proof.Proof.LibFinite

noncomputable section

namespace Cert.PreFacts

open Idealize.ShloMosaic Cert.LibExtReal Cert.LibFinite

/-- A value that compares above the pattern of +0.0 is above zero. -/
theorem pos_of_cmp (v : EReal) (h : Ideal.cmp .ogt v (Ideal.ofBits .f32 0x00000000#32) = 1#1) : 0 < v := by
  rw [ofBits_zero] at h
  unfold Ideal.cmp at h
  by_contra hn
  simp [hn] at h

/-- A value that compares below the pattern of 1.0 is below one. -/
theorem lt_one_of_cmp (v : EReal) (h : Ideal.cmp .olt v (Ideal.ofBits .f32 0x3F800000#32) = 1#1) :
    v < 1 := by
  rw [ofBits_one, EReal.coe_one] at h
  unfold Ideal.cmp at h
  by_contra hn
  simp [hn] at h

/-- "Every entry of x compares above +0.0", as an and-reduction over every axis from the constant true, being true says
    each entry of x is above zero. -/
theorem pos_of_all {s : Shape} {axes : List (Fin s.rank)} (x : FVec Ideal s .f32)
    (hb : (⟨0, ![]⟩ : Shape).BroadcastsInDim s ![]) (hr : s.ReducesTo axes (⟨0, ![]⟩ : Shape))
    (hS : 0 < (⟨0, ![]⟩ : Shape).numel)
    (e : Host.reduce IntOp.andi
          (cmpf .ogt x (broadcastInDim s ![] hb (constant (F := Ideal) (⟨0, ![]⟩ : Shape) .f32 0x00000000#32)))
          (constantI (⟨0, ![]⟩ : Shape) 1 1#1) hr hS ValueIdx.ix0 = 1#1) (i : s.Idx) : 0 < x i := by
  haveI := scalar_idx_subsingleton
  have h1 := Host.reduce_andi_all _ _ hr hS _ e i
  rw [ValueIdx.cmpf_apply, ValueIdx.broadcastInDim_scalar_apply] at h1
  exact pos_of_cmp (x i) h1

/-- "Every entry of x compares below 1.0", as an and-reduction over every axis from the constant true, being true says
    each entry of x is below one. -/
theorem lt_one_of_all {s : Shape} {axes : List (Fin s.rank)} (x : FVec Ideal s .f32)
    (hb : (⟨0, ![]⟩ : Shape).BroadcastsInDim s ![]) (hr : s.ReducesTo axes (⟨0, ![]⟩ : Shape))
    (hS : 0 < (⟨0, ![]⟩ : Shape).numel)
    (e : Host.reduce IntOp.andi
          (cmpf .olt x (broadcastInDim s ![] hb (constant (F := Ideal) (⟨0, ![]⟩ : Shape) .f32 0x3F800000#32)))
          (constantI (⟨0, ![]⟩ : Shape) 1 1#1) hr hS ValueIdx.ix0 = 1#1) (i : s.Idx) : x i < 1 := by
  haveI := scalar_idx_subsingleton
  have h1 := Host.reduce_andi_all _ _ hr hS _ e i
  rw [ValueIdx.cmpf_apply, ValueIdx.broadcastInDim_scalar_apply] at h1
  exact lt_one_of_cmp (x i) h1

/-- The printed precondition holding says: every entry of the first argument is a real number strictly between 0 and 1,
    and every entry of the second is a real number. -/
theorem pre_facts (X : Cert.Pre_finite_inputs.S64x2x256x512.Idx → EReal) (T5 : Cert.Pre_finite_inputs.S1x64x2x256x512.Idx → EReal)
    (h : Cert.Pre_finite_inputs.fn (F := Ideal) X T5 = fun _ => 1#1) :
    (∀ i, ∃ r : ℝ, X i = (r : EReal) ∧ 0 < r ∧ r < 1) ∧ (∀ i, ∃ r : ℝ, T5 i = (r : EReal)) := by
  have h0 := congrFun h ValueIdx.ix0
  dsimp only [Cert.Pre_finite_inputs.fn, Cert.Pre_finite_inputs.fn_part1] at h0
  rw [andi_apply_eq_one, andi_apply_eq_one, andi_apply_eq_one] at h0
  obtain ⟨⟨⟨hX, hT⟩, hpos⟩, hlt⟩ := h0
  refine ⟨fun i => ?_, fun i => real_of_all T5 _ _ _ hT i⟩
  obtain ⟨r, hr⟩ := real_of_all X _ _ _ hX i
  have hp := pos_of_all X _ _ _ hpos i
  have hl := lt_one_of_all X _ _ _ hlt i
  rw [hr] at hp hl
  exact ⟨r, hr, by exact_mod_cast hp, by exact_mod_cast hl⟩

end Cert.PreFacts

end
-- ==== Proof.Final.lean ====
/-
  The two programs' results are one number. The kernel's is `1·(Σ bce / 2^24) + 0.001·Σ cuts + 1·Σ dense`, the sums
  taken tile by tile; the reference's is `1·(−(S / 2^24)) + 0.001·count + 1·D` with `S` the sum over all entries of
  `t·log x + (1−t)·log1p(−x)`, `count` the integer count of cuts and `D` the sum of the distance terms. Term by term:
  the tiles' cross-entropy sums add up to `−S` (every entry of the inputs a real strictly between 0 and 1 and every
  target real, so all logarithms are real and the two arrangements agree), and dividing `−S` by `2^24` is negating
  `S / 2^24`; the tiles' counts add up to the integer count; the tiles' distance penalties add up to `D`, both sides
  being, column by column and row by row, the same term of the running maximum of marked rows.
-/
import proofs.«155610_j50379966382816_2_alg».proof.Proof.KTail
import proofs.«155610_j50379966382816_2_alg».proof.Proof.RefRead
import proofs.«155610_j50379966382816_2_alg».proof.Proof.Bce
import proofs.«155610_j50379966382816_2_alg».proof.Proof.Cuts
import proofs.«155610_j50379966382816_2_alg».proof.Proof.DenseK
import proofs.«155610_j50379966382816_2_alg».proof.Proof.DenseR
import proofs.«155610_j50379966382816_2_alg».proof.Proof.PreFacts
import proofs.«155610_j50379966382816_2_alg».proof.Proof.LibRetile

noncomputable section

open Idealize.ShloMosaic Idealize.ShloMosaic.ValueIdx

namespace Cert.Final

open Cert.Tile Cert.DenseSpec

/-- The number of entries, `2^24`, is not zero. -/
theorem count_ne_zero : Ideal.ofBits .f32 0x4B800000#32 ≠ 0 := by
  have h : Ideal.ofBits .f32 0x4B800000#32 = ((16777216 : ℝ) : EReal) := by
    simp [Ideal.ofBits, Ideal.ieee, -EReal.coe_mul]; norm_num
  rw [h]; exact_mod_cast (by norm_num : (16777216 : ℝ) ≠ 0)

/-- Dividing a negated number by a nonzero one negates the quotient. -/
theorem div_neg_left (a y : EReal) (hy : y ≠ 0) : Ideal.div (-a) y = -(Ideal.div a y) := by
  unfold Ideal.div; rw [if_neg hy, if_neg hy, neg_mul]

/-- The tiles' distance penalties add up to the reference's sum of distance terms. -/
theorem dense_bridge (X : Cert.KernelIdeal.S64x2x256x512.Idx → EReal) :
    ∑ q : Fin 16, densePart (tile X q) = Cert.ReferenceIdeal.Read.val_main_v45 (F := Ideal) X ix0 := by
  rw [Cert.DenseR.ref_dense_eq X]
  simp only [Cert.DenseK.densePart_eq]
  rw [← Cert.LibRetile.sum_tiles (fun B : Fin 64 => ∑ h : Fin 256, ∑ w : Fin 512, term (col (n := 64) X B w) h.val)]
  rfl

/-- The reference's result as a number. -/
theorem ref_apply (X : Cert.ReferenceIdeal.S64x2x256x512.Idx → EReal) (T5 : Cert.ReferenceIdeal.S1x64x2x256x512.Idx → EReal) :
    Cert.ReferenceIdeal.Read.val_main_v50 (F := Ideal) X T5 ix0
      = Ideal.ofBits .f32 0x3F800000#32 * (-(Ideal.div (Cert.ReferenceIdeal.Read.val_main_v9 (F := Ideal) X T5 ix0) (Ideal.ofBits .f32 0x4B800000#32)))
        + Ideal.ofBits .f32 0x3A83126F#32 * Cert.ReferenceIdeal.Read.val_main_v18 (F := Ideal) X ix0
        + Ideal.ofBits .f32 0x3F800000#32 * Cert.ReferenceIdeal.Read.val_main_v45 (F := Ideal) X ix0 := rfl

/-- The two results are equal, under the precondition's entrywise facts. -/
theorem result_eq (X : Cert.KernelIdeal.S64x2x256x512.Idx → EReal) (T5 : Cert.ReferenceIdeal.S1x64x2x256x512.Idx → EReal)
    (hX : ∀ i, ∃ r : ℝ, X i = (r : EReal) ∧ 0 < r ∧ r < 1) (hT : ∀ i, ∃ r : ℝ, T5 i = (r : EReal)) :
    Ideal.ofBits .f32 0x3F800000#32 * Ideal.div (∑ q : Fin 16, bcePart (tile X q) (tile (Cert.ReferenceIdeal.Read.val_main_v0 (F := Ideal) T5) q)) (Ideal.ofBits .f32 0x4B800000#32)
      + Ideal.ofBits .f32 0x3A83126F#32 * (∑ q : Fin 16, cutPart (tile X q))
      + Ideal.ofBits .f32 0x3F800000#32 * (∑ q : Fin 16, densePart (tile X q))
    = Cert.ReferenceIdeal.Read.val_main_v50 (F := Ideal) X T5 ix0 := by
  rw [ref_apply, Cert.Bce.bce_bridge X T5 hX hT, Cert.Cuts.cuts_bridge X, dense_bridge X, div_neg_left _ _ count_ne_zero]

end Cert.Final

end
-- ==== Proof.lean ====
/-
  The certificate of the fused segmentation loss. The loss of inputs `x` and targets `t` is
  `1 · bce + 0.001 · cuts + 1 · dense`: `bce` the mean over all entries of `−(t·log x + (1−t)·log1p(−x))`, `cuts` the number
  of channel-0 entries above one half, `dense` the sum over channel 1 of `1 / (h − p)³` over the marked rows `h` below
  the last whose previous marked row `p` in the same column exists and is not row 0. The kernel walks the batch axis in
  sixteen tiles of four batches on two cores, accumulates the three sums per core and lets the host add the two cores'
  totals; inside a tile it writes the cross-entropy term as `0 − (log1p(0−x) + t·(log x − log1p(0−x)))`, counts cuts as a
  float sum of zeros and ones, and finds the previous marked row by eight doubling steps of a running maximum. The
  reference sums over the whole arrays, counts cuts in 32-bit integers, and takes the running maximum as a windowed
  maximum. Under the precondition — every input a real strictly between 0 and 1, every target real — the two results are
  the same extended real (Proof/Final.lean); the three frames are the generated runs; the ideal pass rewrote nothing.
-/
import proofs.«155610_j50379966382816_2_alg».proof.Defs
import proofs.«155610_j50379966382816_2_alg».proof.Proof.Gen.Kernel
import proofs.«155610_j50379966382816_2_alg».proof.Proof.Gen.Kernel.Skeleton
import proofs.«155610_j50379966382816_2_alg».proof.Proof.Gen.Kernel.Launch
import proofs.«155610_j50379966382816_2_alg».proof.Proof.Gen.Kernel.Points
import proofs.«155610_j50379966382816_2_alg».proof.Proof.Gen.Kernel.Frame
import proofs.«155610_j50379966382816_2_alg».proof.Proof.Gen.KernelIdeal
import proofs.«155610_j50379966382816_2_alg».proof.Proof.Gen.KernelIdeal.Skeleton
import proofs.«155610_j50379966382816_2_alg».proof.Proof.Gen.KernelIdeal.Launch
import proofs.«155610_j50379966382816_2_alg».proof.Proof.Gen.KernelIdeal.Points
import proofs.«155610_j50379966382816_2_alg».proof.Proof.Gen.KernelIdeal.Frame
import proofs.«155610_j50379966382816_2_alg».proof.Proof.Gen.ReferenceIdeal
import proofs.«155610_j50379966382816_2_alg».proof.Proof.RefReadEq
import proofs.«155610_j50379966382816_2_alg».proof.Proof.Gen.Pre_finite_inputs
import proofs.«155610_j50379966382816_2_alg».proof.Proof.Final
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result is `KTail.kres` of its arguments and the reference's is its last stage of
    arguments that agree; the two are one number by `Final.result_eq`, whose hypotheses the precondition gives. -/
theorem algebraic : Cert.algebraic_KernelIdeal_ReferenceIdeal := by
  intro m ρ m' ρ' hpre hagree
  refine ⟨fun c => Cert.KernelIdeal.KTail.kres m c, Cert.KernelIdeal.KTail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2]
  obtain ⟨hX, hT⟩ := Cert.PreFacts.pre_facts _ _ (hpre c)
  funext i
  rw [eq_ix0 i]
  exact ((Cert.KernelIdeal.KTail.kres_apply m c).trans (Cert.Final.result_eq _ _ hX hT)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
